-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1005 : Shape := ⟨2, ![20000, 1005]⟩
abbrev S2x320000 : Shape := ⟨2, ![2, 320000]⟩
abbrev S320000 : Shape := ⟨1, ![320000]⟩
abbrev S3x250 : Shape := ⟨2, ![3, 250]⟩
abbrev S11x250 : Shape := ⟨2, ![11, 250]⟩
abbrev S256x85 : Shape := ⟨2, ![256, 85]⟩
abbrev S1755x512 : Shape := ⟨2, ![1755, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x3 : Shape := ⟨2, ![64, 3]⟩
abbrev S3 : Shape := ⟨1, ![3]⟩
abbrev S20000x1 : Shape := ⟨2, ![20000, 1]⟩
abbrev S20000 : Shape := ⟨1, ![20000]⟩
abbrev S_ : Shape := ⟨0, ![]⟩
abbrev S20000x3 : Shape := ⟨2, ![20000, 3]⟩

class Facts : Prop where
  slices_S20000x1005_S20000x1_0_0 : S20000x1005.Slices ![0, 0] S20000x1
  shapeCasts_S20000x1_S20000 : S20000x1.ShapeCasts S20000
  bcast_S_S20000 : S_.BroadcastsInDim S20000 (![] : Fin 0 → Fin S20000.rank)
  slices_S20000x1005_S20000x1_0_1001 : S20000x1005.Slices ![0, 1001] S20000x1
  slices_S20000x1005_S20000x3_0_1002 : S20000x1005.Slices ![0, 1002] S20000x3
  bcast_S_S20000x1005 : S_.BroadcastsInDim S20000x1005 (![] : Fin 0 → Fin S20000x1005.rank)
  reducesTo_S20000x1005_S_d0_1 : S20000x1005.ReducesTo [0, 1] S_
  h_S_ : 0 < S_.numel
  bcast_S_S320000 : S_.BroadcastsInDim S320000 (![] : Fin 0 → Fin S320000.rank)
  reducesTo_S320000_S_d0 : S320000.ReducesTo [0] S_
  bcast_S_S3x250 : S_.BroadcastsInDim S3x250 (![] : Fin 0 → Fin S3x250.rank)
  reducesTo_S3x250_S_d0_1 : S3x250.ReducesTo [0, 1] S_
  bcast_S_S11x250 : S_.BroadcastsInDim S11x250 (![] : Fin 0 → Fin S11x250.rank)
  reducesTo_S11x250_S_d0_1 : S11x250.ReducesTo [0, 1] S_
  bcast_S_S256x85 : S_.BroadcastsInDim S256x85 (![] : Fin 0 → Fin S256x85.rank)
  reducesTo_S256x85_S_d0_1 : S256x85.ReducesTo [0, 1] S_
  bcast_S_S1755x512 : S_.BroadcastsInDim S1755x512 (![] : Fin 0 → Fin S1755x512.rank)
  reducesTo_S1755x512_S_d0_1 : S1755x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  reducesTo_S20000_S_d0 : S20000.ReducesTo [0] S_
  bcast_S_S20000x3 : S_.BroadcastsInDim S20000x3 (![] : Fin 0 → Fin S20000x3.rank)
  reducesTo_S20000x3_S_d0_1 : S20000x3.ReducesTo [0, 1] S_

variable [Facts]

def fn_part5 {F : FTy → Type} [FloatOps F] (main_v11 : IVec S20000 32) (main_v13 : IVec S20000x3 32) (main_v85 : IVec S_ 1) (main_v86 : IVec S20000 32) : IVec S_ 1 :=
  let main_v87 : IVec S20000 1 := cmpi .sge main_v11 main_v86
  let main_c_31 : IVec S_ 1 := constantI S_ 1 1#1
  let main_v88 : IVec S_ 1 := (fun x v => Host.reduce IntOp.andi x v reducesTo_S20000_S_d0 h_S_) main_v87 main_c_31
  let main_v89 : IVec S_ 1 := andi main_v85 main_v88
  let main_c_32 : IVec S_ 32 := constantI S_ 32 11#32
  let main_v90 : IVec S20000 32 := broadcastInDim S20000 ![] bcast_S_S20000 main_c_32
  let main_v91 : IVec S20000 1 := cmpi .slt main_v11 main_v90
  let main_c_33 : IVec S_ 1 := constantI S_ 1 1#1
  let main_v92 : IVec S_ 1 := (fun x v => Host.reduce IntOp.andi x v reducesTo_S20000_S_d0 h_S_) main_v91 main_c_33
  let main_v93 : IVec S_ 1 := andi main_v89 main_v92
  let main_c_34 : IVec S_ 32 := constantI S_ 32 0#32
  let main_v94 : IVec S20000x3 32 := broadcastInDim S20000x3 ![] bcast_S_S20000x3 main_c_34
  let main_v95 : IVec S20000x3 1 := cmpi .sge main_v13 main_v94
  let main_c_35 : IVec S_ 1 := constantI S_ 1 1#1
  let main_v96 : IVec S_ 1 := (fun x v => Host.reduce IntOp.andi x v reducesTo_S20000x3_S_d0_1 h_S_) main_v95 main_c_35
  let main_v97 : IVec S_ 1 := andi main_v93 main_v96
  let main_c_36 : IVec S_ 32 := constantI S_ 32 256#32
  let main_v98 : IVec S20000x3 32 := broadcastInDim S20000x3 ![] bcast_S_S20000x3 main_c_36
  let main_v99 : IVec S20000x3 1 := cmpi .slt main_v13 main_v98
  let main_c_37 : IVec S_ 1 := constantI S_ 1 1#1
  let main_v100 : IVec S_ 1 := (fun x v => Host.reduce IntOp.andi x v reducesTo_S20000x3_S_d0_1 h_S_) main_v99 main_c_37
  let main_v101 : IVec S_ 1 := andi main_v97 main_v100
  main_v101

def fn_part4 {F : FTy → Type} [FloatOps F] (main_arg13 : FVec F S3 .f32) (main_v4 : IVec S20000 32) (main_v11 : IVec S20000 32) (main_v13 : IVec S20000x3 32) (main_v67 : IVec S_ 1) (main_v70 : IVec S64x3 1) : IVec S_ 1 :=
  let main_c_23 : IVec S_ 1 := constantI S_ 1 1#1
  let main_v71 : IVec S_ 1 := (fun x v => Host.reduce IntOp.andi x v reducesTo_S64x3_S_d0_1 h_S_) main_v70 main_c_23
  let main_v72 : IVec S_ 1 := andi main_v67 main_v71
  let main_v73 : FVec F S3 .f32 := Host.absf main_arg13
  let main_cst_24 : FVec F S_ .f32 := constant S_ .f32 0x7F800000#32
  let main_v74 : FVec F S3 .f32 := broadcastInDim S3 ![] bcast_S_S3 main_cst_24
  let main_v75 : IVec S3 1 := cmpf .olt main_v73 main_v74
  let main_c_25 : IVec S_ 1 := constantI S_ 1 1#1
  let main_v76 : IVec S_ 1 := (fun x v => Host.reduce IntOp.andi x v reducesTo_S3_S_d0 h_S_) main_v75 main_c_25
  let main_v77 : IVec S_ 1 := andi main_v72 main_v76
  let main_c_26 : IVec S_ 32 := constantI S_ 32 0#32
  let main_v78 : IVec S20000 32 := broadcastInDim S20000 ![] bcast_S_S20000 main_c_26
  let main_v79 : IVec S20000 1 := cmpi .sge main_v4 main_v78
  let main_c_27 : IVec S_ 1 := constantI S_ 1 1#1
  let main_v80 : IVec S_ 1 := (fun x v => Host.reduce IntOp.andi x v reducesTo_S20000_S_d0 h_S_) main_v79 main_c_27
  let main_v81 : IVec S_ 1 := andi main_v77 main_v80
  let main_c_28 : IVec S_ 32 := constantI S_ 32 3#32
  let main_v82 : IVec S20000 32 := broadcastInDim S20000 ![] bcast_S_S20000 main_c_28
  let main_v83 : IVec S20000 1 := cmpi .slt main_v4 main_v82
  let main_c_29 : IVec S_ 1 := constantI S_ 1 1#1
  let main_v84 : IVec S_ 1 := (fun x v => Host.reduce IntOp.andi x v reducesTo_S20000_S_d0 h_S_) main_v83 main_c_29
  let main_v85 : IVec S_ 1 := andi main_v81 main_v84
  let main_c_30 : IVec S_ 32 := constantI S_ 32 0#32
  let main_v86 : IVec S20000 32 := broadcastInDim S20000 ![] bcast_S_S20000 main_c_30
  fn_part5 (F := F) main_v11 main_v13 main_v85 main_v86

def fn_part3 {F : FTy → Type} [FloatOps F] (main_arg10 : FVec F S256x64 .f32) (main_arg11 : FVec F S64 .f32) (main_arg12 : FVec F S64x3 .f32) (main_arg13 : FVec F S3 .f32) (main_v4 : IVec S20000 32) (main_v11 : IVec S20000 32) (main_v13 : IVec S20000x3 32) (main_v52 : IVec S_ 1) (main_v53 : FVec F S256 .f32) : IVec S_ 1 :=
  let main_cst_16 : FVec F S_ .f32 := constant S_ .f32 0x7F800000#32
  let main_v54 : FVec F S256 .f32 := broadcastInDim S256 ![] bcast_S_S256 main_cst_16
  let main_v55 : IVec S256 1 := cmpf .olt main_v53 main_v54
  let main_c_17 : IVec S_ 1 := constantI S_ 1 1#1
  let main_v56 : IVec S_ 1 := (fun x v => Host.reduce IntOp.andi x v reducesTo_S256_S_d0 h_S_) main_v55 main_c_17
  let main_v57 : IVec S_ 1 := andi main_v52 main_v56
  let main_v58 : FVec F S256x64 .f32 := Host.absf main_arg10
  let main_cst_18 : FVec F S_ .f32 := constant S_ .f32 0x7F800000#32
  let main_v59 : FVec F S256x64 .f32 := broadcastInDim S256x64 ![] bcast_S_S256x64 main_cst_18
  let main_v60 : IVec S256x64 1 := cmpf .olt main_v58 main_v59
  let main_c_19 : IVec S_ 1 := constantI S_ 1 1#1
  let main_v61 : IVec S_ 1 := (fun x v => Host.reduce IntOp.andi x v reducesTo_S256x64_S_d0_1 h_S_) main_v60 main_c_19
  let main_v62 : IVec S_ 1 := andi main_v57 main_v61
  let main_v63 : FVec F S64 .f32 := Host.absf main_arg11
  let main_cst_20 : FVec F S_ .f32 := constant S_ .f32 0x7F800000#32
  let main_v64 : FVec F S64 .f32 := broadcastInDim S64 ![] bcast_S_S64 main_cst_20
  let main_v65 : IVec S64 1 := cmpf .olt main_v63 main_v64
  let main_c_21 : IVec S_ 1 := constantI S_ 1 1#1
  let main_v66 : IVec S_ 1 := (fun x v => Host.reduce IntOp.andi x v reducesTo_S64_S_d0 h_S_) main_v65 main_c_21
  let main_v67 : IVec S_ 1 := andi main_v62 main_v66
  let main_v68 : FVec F S64x3 .f32 := Host.absf main_arg12
  let main_cst_22 : FVec F S_ .f32 := constant S_ .f32 0x7F800000#32
  let main_v69 : FVec F S64x3 .f32 := broadcastInDim S64x3 ![] bcast_S_S64x3 main_cst_22
  let main_v70 : IVec S64x3 1 := cmpf .olt main_v68 main_v69
  fn_part4 (F := F) main_arg13 main_v4 main_v11 main_v13 main_v67 main_v70

def fn_part2 {F : FTy → Type} [FloatOps F] (main_arg6 : FVec F S1755x512 .f32) (main_arg7 : FVec F S512 .f32) (main_arg8 : FVec F S512x256 .f32) (main_arg9 : FVec F S256 .f32) (main_arg10 : FVec F S256x64 .f32) (main_arg11 : FVec F S64 .f32) (main_arg12 : FVec F S64x3 .f32) (main_arg13 : FVec F S3 .f32) (main_v4 : IVec S20000 32) (main_v11 : IVec S20000 32) (main_v13 : IVec S20000x3 32) (main_v32 : IVec S_ 1) (main_v35 : IVec S256x85 1) (main_c_9 : IVec S_ 1) : IVec S_ 1 :=
  let main_v36 : IVec S_ 1 := (fun x v => Host.reduce IntOp.andi x v reducesTo_S256x85_S_d0_1 h_S_) main_v35 main_c_9
  let main_v37 : IVec S_ 1 := andi main_v32 main_v36
  let main_v38 : FVec F S1755x512 .f32 := Host.absf main_arg6
  let main_cst_10 : FVec F S_ .f32 := constant S_ .f32 0x7F800000#32
  let main_v39 : FVec F S1755x512 .f32 := broadcastInDim S1755x512 ![] bcast_S_S1755x512 main_cst_10
  let main_v40 : IVec S1755x512 1 := cmpf .olt main_v38 main_v39
  let main_c_11 : IVec S_ 1 := constantI S_ 1 1#1
  let main_v41 : IVec S_ 1 := (fun x v => Host.reduce IntOp.andi x v reducesTo_S1755x512_S_d0_1 h_S_) main_v40 main_c_11
  let main_v42 : IVec S_ 1 := andi main_v37 main_v41
  let main_v43 : FVec F S512 .f32 := Host.absf main_arg7
  let main_cst_12 : FVec F S_ .f32 := constant S_ .f32 0x7F800000#32
  let main_v44 : FVec F S512 .f32 := broadcastInDim S512 ![] bcast_S_S512 main_cst_12
  let main_v45 : IVec S512 1 := cmpf .olt main_v43 main_v44
  let main_c_13 : IVec S_ 1 := constantI S_ 1 1#1
  let main_v46 : IVec S_ 1 := (fun x v => Host.reduce IntOp.andi x v reducesTo_S512_S_d0 h_S_) main_v45 main_c_13
  let main_v47 : IVec S_ 1 := andi main_v42 main_v46
  let main_v48 : FVec F S512x256 .f32 := Host.absf main_arg8
  let main_cst_14 : FVec F S_ .f32 := constant S_ .f32 0x7F800000#32
  let main_v49 : FVec F S512x256 .f32 := broadcastInDim S512x256 ![] bcast_S_S512x256 main_cst_14
  let main_v50 : IVec S512x256 1 := cmpf .olt main_v48 main_v49
  let main_c_15 : IVec S_ 1 := constantI S_ 1 1#1
  let main_v51 : IVec S_ 1 := (fun x v => Host.reduce IntOp.andi x v reducesTo_S512x256_S_d0_1 h_S_) main_v50 main_c_15
  let main_v52 : IVec S_ 1 := andi main_v47 main_v51
  let main_v53 : FVec F S256 .f32 := Host.absf main_arg9
  fn_part3 (F := F) main_arg10 main_arg11 main_arg12 main_arg13 main_v4 main_v11 main_v13 main_v52 main_v53

def fn_part1 {F : FTy → Type} [FloatOps F] (main_arg3 : FVec F S3x250 .f32) (main_arg4 : FVec F S11x250 .f32) (main_arg5 : FVec F S256x85 .f32) (main_arg6 : FVec F S1755x512 .f32) (main_arg7 : FVec F S512 .f32) (main_arg8 : FVec F S512x256 .f32) (main_arg9 : FVec F S256 .f32) (main_arg10 : FVec F S256x64 .f32) (main_arg11 : FVec F S64 .f32) (main_arg12 : FVec F S64x3 .f32) (main_arg13 : FVec F S3 .f32) (main_v4 : IVec S20000 32) (main_v11 : IVec S20000 32) (main_v13 : IVec S20000x3 32) (main_v17 : IVec S_ 1) (main_v18 : FVec F S320000 .f32) (main_cst_2 : FVec F S_ .f32) : IVec S_ 1 :=
  let main_v19 : FVec F S320000 .f32 := broadcastInDim S320000 ![] bcast_S_S320000 main_cst_2
  let main_v20 : IVec S320000 1 := cmpf .olt main_v18 main_v19
  let main_c_3 : IVec S_ 1 := constantI S_ 1 1#1
  let main_v21 : IVec S_ 1 := (fun x v => Host.reduce IntOp.andi x v reducesTo_S320000_S_d0 h_S_) main_v20 main_c_3
  let main_v22 : IVec S_ 1 := andi main_v17 main_v21
  let main_v23 : FVec F S3x250 .f32 := Host.absf main_arg3
  let main_cst_4 : FVec F S_ .f32 := constant S_ .f32 0x7F800000#32
  let main_v24 : FVec F S3x250 .f32 := broadcastInDim S3x250 ![] bcast_S_S3x250 main_cst_4
  let main_v25 : IVec S3x250 1 := cmpf .olt main_v23 main_v24
  let main_c_5 : IVec S_ 1 := constantI S_ 1 1#1
  let main_v26 : IVec S_ 1 := (fun x v => Host.reduce IntOp.andi x v reducesTo_S3x250_S_d0_1 h_S_) main_v25 main_c_5
  let main_v27 : IVec S_ 1 := andi main_v22 main_v26
  let main_v28 : FVec F S11x250 .f32 := Host.absf main_arg4
  let main_cst_6 : FVec F S_ .f32 := constant S_ .f32 0x7F800000#32
  let main_v29 : FVec F S11x250 .f32 := broadcastInDim S11x250 ![] bcast_S_S11x250 main_cst_6
  let main_v30 : IVec S11x250 1 := cmpf .olt main_v28 main_v29
  let main_c_7 : IVec S_ 1 := constantI S_ 1 1#1
  let main_v31 : IVec S_ 1 := (fun x v => Host.reduce IntOp.andi x v reducesTo_S11x250_S_d0_1 h_S_) main_v30 main_c_7
  let main_v32 : IVec S_ 1 := andi main_v27 main_v31
  let main_v33 : FVec F S256x85 .f32 := Host.absf main_arg5
  let main_cst_8 : FVec F S_ .f32 := constant S_ .f32 0x7F800000#32
  let main_v34 : FVec F S256x85 .f32 := broadcastInDim S256x85 ![] bcast_S_S256x85 main_cst_8
  let main_v35 : IVec S256x85 1 := cmpf .olt main_v33 main_v34
  let main_c_9 : IVec S_ 1 := constantI S_ 1 1#1
  fn_part2 (F := F) main_arg6 main_arg7 main_arg8 main_arg9 main_arg10 main_arg11 main_arg12 main_arg13 main_v4 main_v11 main_v13 main_v32 main_v35 main_c_9

def fn {F : FTy → Type} [FloatOps F] (main_arg0 : FVec F S20000x1005 .f32) (main_arg1 : IVec S2x320000 32) (main_arg2 : FVec F S320000 .f32) (main_arg3 : FVec F S3x250 .f32) (main_arg4 : FVec F S11x250 .f32) (main_arg5 : FVec F S256x85 .f32) (main_arg6 : FVec F S1755x512 .f32) (main_arg7 : FVec F S512 .f32) (main_arg8 : FVec F S512x256 .f32) (main_arg9 : FVec F S256 .f32) (main_arg10 : FVec F S256x64 .f32) (main_arg11 : FVec F S64 .f32) (main_arg12 : FVec F S64x3 .f32) (main_arg13 : FVec F S3 .f32) : IVec S_ 1 :=
  let main_v0 : FVec F S20000x1 .f32 := (extractStridedSlice S20000x1 ![0, 0] · slices_S20000x1005_S20000x1_0_0) main_arg0
  let main_v1 : FVec F S20000 .f32 := shapeCast S20000 main_v0 shapeCasts_S20000x1_S20000
  let main_cst : FVec F S_ .f32 := constant S_ .f32 0x3F800000#32
  let main_v2 : FVec F S20000 .f32 := broadcastInDim S20000 ![] bcast_S_S20000 main_cst
  let main_v3 : FVec F S20000 .f32 := subf main_v1 main_v2
  let main_v4 : IVec S20000 32 := fptosi 32 main_v3
  let main_v5 : FVec F S20000x1 .f32 := (extractStridedSlice S20000x1 ![0, 1001] · slices_S20000x1005_S20000x1_0_1001) main_arg0
  let main_v6 : FVec F S20000 .f32 := shapeCast S20000 main_v5 shapeCasts_S20000x1_S20000
  let main_v7 : FVec F S20000 .f32 := Host.absf main_v6
  let main_cst_0 : FVec F S_ .f32 := constant S_ .f32 0x41200000#32
  let main_v8 : FVec F S20000 .f32 := broadcastInDim S20000 ![] bcast_S_S20000 main_cst_0
  let main_v9 : FVec F S20000 .f32 := mulf main_v7 main_v8
  let main_v10 : FVec F S20000 .f32 := Host.roundeven main_v9
  let main_v11 : IVec S20000 32 := fptosi 32 main_v10
  let main_v12 : FVec F S20000x3 .f32 := (extractStridedSlice S20000x3 ![0, 1002] · slices_S20000x1005_S20000x3_0_1002) main_arg0
  let main_v13 : IVec S20000x3 32 := fptosi 32 main_v12
  let main_v14 : FVec F S20000x1005 .f32 := Host.absf main_arg0
  let main_cst_1 : FVec F S_ .f32 := constant S_ .f32 0x7F800000#32
  let main_v15 : FVec F S20000x1005 .f32 := broadcastInDim S20000x1005 ![] bcast_S_S20000x1005 main_cst_1
  let main_v16 : IVec S20000x1005 1 := cmpf .olt main_v14 main_v15
  let main_c : IVec S_ 1 := constantI S_ 1 1#1
  let main_v17 : IVec S_ 1 := (fun x v => Host.reduce IntOp.andi x v reducesTo_S20000x1005_S_d0_1 h_S_) main_v16 main_c
  let main_v18 : FVec F S320000 .f32 := Host.absf main_arg2
  let main_cst_2 : FVec F S_ .f32 := constant S_ .f32 0x7F800000#32
  fn_part1 (F := F) main_arg3 main_arg4 main_arg5 main_arg6 main_arg7 main_arg8 main_arg9 main_arg10 main_arg11 main_arg12 main_arg13 main_v4 main_v11 main_v13 main_v17 main_v18 main_cst_2
-- ==== Kernel.lean ====
abbrev S20000x1005 : Shape := ⟨2, ![20000, 1005]⟩
abbrev S2x320000 : Shape := ⟨2, ![2, 320000]⟩
abbrev S320000 : Shape := ⟨1, ![320000]⟩
abbrev S3x250 : Shape := ⟨2, ![3, 250]⟩
abbrev S11x250 : Shape := ⟨2, ![11, 250]⟩
abbrev S256x85 : Shape := ⟨2, ![256, 85]⟩
abbrev S1755x512 : Shape := ⟨2, ![1755, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x3 : Shape := ⟨2, ![64, 3]⟩
abbrev S3 : Shape := ⟨1, ![3]⟩
abbrev S1x320000 : Shape := ⟨2, ![1, 320000]⟩
abbrev S20000x1755 : Shape := ⟨2, ![20000, 1755]⟩
abbrev S1000x1005 : Shape := ⟨2, ![1000, 1005]⟩
abbrev S1000x1755 : Shape := ⟨2, ![1000, 1755]⟩
abbrev S1000x1 : Shape := ⟨2, ![1000, 1]⟩
abbrev S1000x1000 : Shape := ⟨2, ![1000, 1000]⟩
abbrev S1000x3 : Shape := ⟨2, ![1000, 3]⟩
abbrev S1000x11 : Shape := ⟨2, ![1000, 11]⟩
abbrev S1000x256 : Shape := ⟨2, ![1000, 256]⟩
abbrev S1000x250 : Shape := ⟨2, ![1000, 250]⟩
abbrev S1000x85 : Shape := ⟨2, ![1000, 85]⟩
abbrev S20000x512 : Shape := ⟨2, ![20000, 512]⟩
abbrev S1000x512 : Shape := ⟨2, ![1000, 512]⟩
abbrev S_ : Shape := ⟨0, ![]⟩
abbrev S20000 : Shape := ⟨1, ![20000]⟩
abbrev S320000x1 : Shape := ⟨2, ![320000, 1]⟩
abbrev S320000x512 : Shape := ⟨2, ![320000, 512]⟩
abbrev S20000x1 : Shape := ⟨2, ![20000, 1]⟩
abbrev S1x512 : Shape := ⟨2, ![1, 512]⟩
abbrev S20000x256 : Shape := ⟨2, ![20000, 256]⟩
abbrev S320000x256 : Shape := ⟨2, ![320000, 256]⟩
abbrev S1x256 : Shape := ⟨2, ![1, 256]⟩
abbrev S20000x64 : Shape := ⟨2, ![20000, 64]⟩
abbrev S1000x64 : Shape := ⟨2, ![1000, 64]⟩
abbrev S320000x64 : Shape := ⟨2, ![320000, 64]⟩
abbrev S1x64 : Shape := ⟨2, ![1, 64]⟩
abbrev S1x3 : Shape := ⟨2, ![1, 3]⟩
abbrev S20000x3 : Shape := ⟨2, ![20000, 3]⟩

abbrev nBuf : Space → Nat
  | .hbm => 198
  | .vmem => 43
  | .smem => 0
  | _ => 0

abbrev hbmTy0_0 (i : Nat) : BufTy := match i % 128 with
  | 0 => ⟨S20000x1005, .f32⟩
  | 1 => ⟨S2x320000, .i32⟩
  | 2 => ⟨S320000, .f32⟩
  | 3 => ⟨S3x250, .f32⟩
  | 4 => ⟨S11x250, .f32⟩
  | 5 => ⟨S256x85, .f32⟩
  | 6 => ⟨S1755x512, .f32⟩
  | 7 => ⟨S512, .f32⟩
  | 8 => ⟨S512x256, .f32⟩
  | 9 => ⟨S256, .f32⟩
  | 10 => ⟨S256x64, .f32⟩
  | 11 => ⟨S64, .f32⟩
  | 12 => ⟨S64x3, .f32⟩
  | 13 => ⟨S3, .f32⟩
  | 14 => ⟨S1x320000, .i32⟩
  | 15 => ⟨S320000, .i32⟩
  | 16 => ⟨S1x320000, .i32⟩
  | 17 => ⟨S320000, .i32⟩
  | 18 => ⟨S20000x1755, .f32⟩
  | 19 => ⟨S20000x512, .f32⟩
  | 20 => ⟨S_, .f32⟩
  | 21 => ⟨S20000, .f32⟩
  | 22 => ⟨S320000x1, .i32⟩
  | 23 => ⟨S20000, .f32⟩
  | 24 => ⟨S_, .f32⟩
  | 25 => ⟨S20000, .f32⟩
  | 26 => ⟨S20000, .f32⟩
  | 27 => ⟨S_, .f32⟩
  | 28 => ⟨S20000, .f32⟩
  | 29 => ⟨S20000, .i1⟩
  | 30 => ⟨S20000, .f32⟩
  | 31 => ⟨S_, .f32⟩
  | 32 => ⟨S_, .f32⟩
  | 33 => ⟨S20000, .f32⟩
  | 34 => ⟨S20000, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000, .f32⟩
  | 44 => ⟨S320000, .f32⟩
  | 45 => ⟨S_, .i32⟩
  | 46 => ⟨S320000, .i32⟩
  | 47 => ⟨S320000, .i1⟩
  | 48 => ⟨S_, .i32⟩
  | 49 => ⟨S320000, .i32⟩
  | 50 => ⟨S320000, .i32⟩
  | 51 => ⟨S320000, .i32⟩
  | 52 => ⟨S320000x1, .i32⟩
  | 53 => ⟨S320000, .f32⟩
  | 54 => ⟨S320000, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x512, .f32⟩
  | 64 => ⟨S320000x1, .f32⟩
  | 65 => ⟨S320000x512, .f32⟩
  | 66 => ⟨S320000x512, .f32⟩
  | 67 => ⟨S_, .f32⟩
  | 68 => ⟨S20000x512, .f32⟩
  | 69 => ⟨S320000x1, .i32⟩
  | 70 => ⟨S20000x512, .f32⟩
  | 71 => ⟨S20000, .f32⟩
  | 72 => ⟨S20000x1, .f32⟩
  | 73 => ⟨S20000x512, .f32⟩
  | 74 => ⟨S20000x512, .f32⟩
  | 75 => ⟨S20000x512, .f32⟩
  | 76 => ⟨S1x512, .f32⟩
  | 77 => ⟨S20000x512, .f32⟩
  | 78 => ⟨S20000x256, .f32⟩
  | 79 => ⟨S_, .f32⟩
  | 80 => ⟨S20000, .f32⟩
  | 81 => ⟨S320000x1, .i32⟩
  | 82 => ⟨S20000, .f32⟩
  | 83 => ⟨S_, .f32⟩
  | 84 => ⟨S20000, .f32⟩
  | 85 => ⟨S20000, .f32⟩
  | 86 => ⟨S_, .f32⟩
  | 87 => ⟨S20000, .f32⟩
  | 88 => ⟨S20000, .i1⟩
  | 89 => ⟨S20000, .f32⟩
  | 90 => ⟨S_, .f32⟩
  | 91 => ⟨S_, .f32⟩
  | 92 => ⟨S20000, .f32⟩
  | 93 => ⟨S20000, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S320000, .f32⟩
  | 103 => ⟨S320000, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S320000, .f32⟩
  | 113 => ⟨S320000, .f32⟩
  | 114 => ⟨S_, .i32⟩
  | 115 => ⟨S320000, .i32⟩
  | 116 => ⟨S320000, .i1⟩
  | 117 => ⟨S_, .i32⟩
  | 118 => ⟨S320000, .i32⟩
  | 119 => ⟨S320000, .i32⟩
  | 120 => ⟨S320000, .i32⟩
  | 121 => ⟨S320000x1, .i32⟩
  | 122 => ⟨S320000x256, .f32⟩
  | 123 => ⟨S320000x1, .f32⟩
  | 124 => ⟨S320000x256, .f32⟩
  | 125 => ⟨S320000x256, .f32⟩
  | 126 => ⟨S_, .f32⟩
  | 127 => ⟨S20000x256, .f32⟩
  | _ => ⟨S20000x1005, .f32⟩

abbrev hbmTy0_1 (i : Nat) : BufTy := match i % 128 with
  | 0 => ⟨S320000x1, .i32⟩
  | 1 => ⟨S20000x256, .f32⟩
  | 2 => ⟨S20000, .f32⟩
  | 3 => ⟨S20000x1, .f32⟩
  | 4 => ⟨S20000x256, .f32⟩
  | 5 => ⟨S20000x256, .f32⟩
  | 6 => ⟨S20000x256, .f32⟩
  | 7 => ⟨S1x256, .f32⟩
  | 8 => ⟨S20000x256, .f32⟩
  | 9 => ⟨S20000x64, .f32⟩
  | 10 => ⟨S_, .f32⟩
  | 11 => ⟨S20000, .f32⟩
  | 12 => ⟨S320000x1, .i32⟩
  | 13 => ⟨S20000, .f32⟩
  | 14 => ⟨S_, .f32⟩
  | 15 => ⟨S20000, .f32⟩
  | 16 => ⟨S20000, .f32⟩
  | 17 => ⟨S_, .f32⟩
  | 18 => ⟨S20000, .f32⟩
  | 19 => ⟨S20000, .i1⟩
  | 20 => ⟨S20000, .f32⟩
  | 21 => ⟨S_, .f32⟩
  | 22 => ⟨S_, .f32⟩
  | 23 => ⟨S20000, .f32⟩
  | 24 => ⟨S20000, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000, .f32⟩
  | 34 => ⟨S320000, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000, .f32⟩
  | 44 => ⟨S320000, .f32⟩
  | 45 => ⟨S_, .i32⟩
  | 46 => ⟨S320000, .i32⟩
  | 47 => ⟨S320000, .i1⟩
  | 48 => ⟨S_, .i32⟩
  | 49 => ⟨S320000, .i32⟩
  | 50 => ⟨S320000, .i32⟩
  | 51 => ⟨S320000, .i32⟩
  | 52 => ⟨S320000x1, .i32⟩
  | 53 => ⟨S320000x64, .f32⟩
  | 54 => ⟨S320000x1, .f32⟩
  | 55 => ⟨S320000x64, .f32⟩
  | 56 => ⟨S320000x64, .f32⟩
  | 57 => ⟨S_, .f32⟩
  | 58 => ⟨S20000x64, .f32⟩
  | 59 => ⟨S320000x1, .i32⟩
  | 60 => ⟨S20000x64, .f32⟩
  | 61 => ⟨S20000, .f32⟩
  | 62 => ⟨S20000x1, .f32⟩
  | 63 => ⟨S20000x64, .f32⟩
  | 64 => ⟨S20000x64, .f32⟩
  | 65 => ⟨S20000x64, .f32⟩
  | 66 => ⟨S1x64, .f32⟩
  | 67 => ⟨S20000x64, .f32⟩
  | 68 => ⟨S1x3, .f32⟩
  | 69 => ⟨S20000x3, .f32⟩
  | _ => ⟨S20000x1005, .f32⟩

abbrev hbmTy (i : Nat) : BufTy := match i / 128 with
  | 0 => hbmTy0_0 i
  | 1 => hbmTy0_1 i
  | _ => ⟨S20000x1005, .f32⟩

abbrev bufTy : (tb : Table) → Fin (tcTables nBuf tb) → BufTy
  | .hbm, ⟨i, _⟩ => hbmTy i
  | .local _ .vmem, ⟨0, _⟩ => ⟨S1000x1005, .f32⟩
  | .local _ .vmem, ⟨1, _⟩ => ⟨S1000x1005, .f32⟩
  | .local _ .vmem, ⟨2, _⟩ => ⟨S3x250, .f32⟩
  | .local _ .vmem, ⟨3, _⟩ => ⟨S11x250, .f32⟩
  | .local _ .vmem, ⟨4, _⟩ => ⟨S256x85, .f32⟩
  | .local _ .vmem, ⟨5, _⟩ => ⟨S1000x1755, .f32⟩
  | .local _ .vmem, ⟨6, _⟩ => ⟨S1000x1755, .f32⟩
  | .local _ .vmem, ⟨7, _⟩ => ⟨S1000x1755, .f32⟩
  | .local _ .vmem, ⟨8, _⟩ => ⟨S1000x1755, .f32⟩
  | .local _ .vmem, ⟨9, _⟩ => ⟨S1755x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1000x512, .f32⟩
  | .local _ .vmem, ⟨14, _⟩ => ⟨S1x512, .f32⟩
  | .local _ .vmem, ⟨15, _⟩ => ⟨S1000x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S512x256, .f32⟩
  | .local _ .vmem, ⟨20, _⟩ => ⟨S1000x256, .f32⟩
  | .local _ .vmem, ⟨21, _⟩ => ⟨S1000x256, .f32⟩
  | .local _ .vmem, ⟨22, _⟩ => ⟨S1000x256, .f32⟩
  | .local _ .vmem, ⟨23, _⟩ => ⟨S1000x256, .f32⟩
  | .local _ .vmem, ⟨24, _⟩ => ⟨S1x256, .f32⟩
  | .local _ .vmem, ⟨25, _⟩ => ⟨S1000x256, .f32⟩
  | .local _ .vmem, ⟨26, _⟩ => ⟨S1000x256, .f32⟩
  | .local _ .vmem, ⟨27, _⟩ => ⟨S1000x256, .f32⟩
  | .local _ .vmem, ⟨28, _⟩ => ⟨S1000x256, .f32⟩
  | .local _ .vmem, ⟨29, _⟩ => ⟨S256x64, .f32⟩
  | .local _ .vmem, ⟨30, _⟩ => ⟨S1000x64, .f32⟩
  | .local _ .vmem, ⟨31, _⟩ => ⟨S1000x64, .f32⟩
  | .local _ .vmem, ⟨32, _⟩ => ⟨S1000x64, .f32⟩
  | .local _ .vmem, ⟨33, _⟩ => ⟨S1000x64, .f32⟩
  | .local _ .vmem, ⟨34, _⟩ => ⟨S1x64, .f32⟩
  | .local _ .vmem, ⟨35, _⟩ => ⟨S1000x64, .f32⟩
  | .local _ .vmem, ⟨36, _⟩ => ⟨S1000x64, .f32⟩
  | .local _ .vmem, ⟨37, _⟩ => ⟨S1000x64, .f32⟩
  | .local _ .vmem, ⟨38, _⟩ => ⟨S1000x64, .f32⟩
  | .local _ .vmem, ⟨39, _⟩ => ⟨S64x3, .f32⟩
  | .local _ .vmem, ⟨40, _⟩ => ⟨S1x3, .f32⟩
  | .local _ .vmem, ⟨41, _⟩ => ⟨S1000x3, .f32⟩
  | .local _ .vmem, ⟨42, _⟩ => ⟨S1000x3, .f32⟩
  | _, _ => ⟨S20000x1005, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_call1_v0 : Ref sig .tc := ⟨.hbm, 91, rfl⟩
abbrev main_call1_v1 : Ref sig .tc := ⟨.hbm, 92, rfl⟩
abbrev main_v60 : Ref sig .tc := ⟨.hbm, 93, rfl⟩
abbrev main_c_13 : Ref sig .tc := ⟨.hbm, 94, rfl⟩
abbrev main_v61 : Ref sig .tc := ⟨.hbm, 95, rfl⟩
abbrev main_v62 : Ref sig .tc := ⟨.hbm, 96, rfl⟩
abbrev main_c_14 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_15 : Ref sig .tc := ⟨.hbm, 104, rfl⟩
abbrev main_v69 : Ref sig .tc := ⟨.hbm, 105, rfl⟩
abbrev main_v70 : Ref sig .tc := ⟨.hbm, 106, rfl⟩
abbrev main_c_16 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c_17 : Ref sig .tc := ⟨.hbm, 114, rfl⟩
abbrev main_v77 : Ref sig .tc := ⟨.hbm, 115, rfl⟩
abbrev main_v78 : Ref sig .tc := ⟨.hbm, 116, rfl⟩
abbrev main_c_18 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_19 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_20 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_21 : Ref sig .tc := ⟨.hbm, 142, rfl⟩
abbrev main_v101 : Ref sig .tc := ⟨.hbm, 143, rfl⟩
abbrev main_v102 : Ref sig .tc := ⟨.hbm, 144, rfl⟩
abbrev main_cst_22 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_23 : Ref sig .tc := ⟨.hbm, 149, rfl⟩
abbrev main_call2_v0 : Ref sig .tc := ⟨.hbm, 150, rfl⟩
abbrev main_call2_v1 : Ref sig .tc := ⟨.hbm, 151, rfl⟩
abbrev main_v106 : Ref sig .tc := ⟨.hbm, 152, rfl⟩
abbrev main_c_24 : Ref sig .tc := ⟨.hbm, 153, rfl⟩
abbrev main_v107 : Ref sig .tc := ⟨.hbm, 154, rfl⟩
abbrev main_v108 : Ref sig .tc := ⟨.hbm, 155, rfl⟩
abbrev main_c_25 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_c_26 : Ref sig .tc := ⟨.hbm, 163, rfl⟩
abbrev main_v115 : Ref sig .tc := ⟨.hbm, 164, rfl⟩
abbrev main_v116 : Ref sig .tc := ⟨.hbm, 165, rfl⟩
abbrev main_c_27 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_c_28 : Ref sig .tc := ⟨.hbm, 173, rfl⟩
abbrev main_v123 : Ref sig .tc := ⟨.hbm, 174, rfl⟩
abbrev main_v124 : Ref sig .tc := ⟨.hbm, 175, rfl⟩
abbrev main_c_29 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_30 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg3_0 : Ref sig .tc := ⟨.vmem, 41, rfl⟩
abbrev cc7_stg3_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem3_0 : DmaSem sig := 41
abbrev cc7_sem3_1 : DmaSem sig := 42

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1005 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x250 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x250 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x85 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x1755 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1755 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1755x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x3 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x3 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1000x3 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  inb_S1000x1005_S1000x1005_0_0 : ∀ a, (![0, 0] : Fin 2 → Nat) a + S1000x1005.size a ≤ S1000x1005.size a
  h_S1000x1005 : 0 < S1000x1005.numel
  slices_S1000x1005_o0_0_S1000x1 : S1000x1005.Slices ![0, 0] S1000x1
  slices_S1000x1005_o0_1_S1000x1000 : S1000x1005.Slices ![0, 1] S1000x1000
  slices_S1000x1005_o0_1001_S1000x1 : S1000x1005.Slices ![0, 1001] S1000x1
  slices_S1000x1005_o0_1002_S1000x3 : S1000x1005.Slices ![0, 1002] S1000x3
  iota_S1000x3_d1_w32 : S1000x3.Iotas .tc 32 [1]
  broadcasts_S1000x1_S1000x3 : S1000x1.Broadcasts S1000x3
  natLt_1_32 : 1 < 32
  bitsLt_bf16_f32 : FTy.bits .bf16 < FTy.bits .f32
  iota_S1000x11_d1_w32 : S1000x11.Iotas .tc 32 [1]
  broadcasts_S1000x1_S1000x11 : S1000x1.Broadcasts S1000x11
  slices_S1000x3_o0_0_S1000x1 : S1000x3.Slices ![0, 0] S1000x1
  iota_S1000x256_d1_w32 : S1000x256.Iotas .tc 32 [1]
  broadcasts_S1000x1_S1000x256 : S1000x1.Broadcasts S1000x256
  slices_S1000x3_o0_1_S1000x1 : S1000x3.Slices ![0, 1] S1000x1
  slices_S1000x3_o0_2_S1000x1 : S1000x3.Slices ![0, 2] S1000x1
  inb_S3x250_S3x250_0_0 : ∀ a, (![0, 0] : Fin 2 → Nat) a + S3x250.size a ≤ S3x250.size a
  h_S3x250 : 0 < S3x250.numel
  inb_S11x250_S11x250_0_0 : ∀ a, (![0, 0] : Fin 2 → Nat) a + S11x250.size a ≤ S11x250.size a
  h_S11x250 : 0 < S11x250.numel
  inb_S256x85_S256x85_0_0 : ∀ a, (![0, 0] : Fin 2 → Nat) a + S256x85.size a ≤ S256x85.size a
  h_S256x85 : 0 < S256x85.numel
  concatenates_S1000x250_S1000x1000_S1000x250_S1000x85_S1000x85_S1000x85_S1000x1755_d1 : Shape.Concatenates [S1000x250, S1000x1000, S1000x250, S1000x85, S1000x85, S1000x85] S1000x1755 1
  inb_S1000x1755_S1000x1755_0_0 : ∀ a, (![0, 0] : Fin 2 → Nat) a + S1000x1755.size a ≤ S1000x1755.size a
  h_S1000x1755 : 0 < S1000x1755.numel
  shapeCasts_S1000x1755_S1000x1755 : S1000x1755.ShapeCasts S1000x1755
  inb_S1755x512_S1755x512_0_0 : ∀ a, (![0, 0] : Fin 2 → Nat) a + S1755x512.size a ≤ S1755x512.size a
  h_S1755x512 : 0 < S1755x512.numel
  inb_S1000x512_S1000x512_0_0 : ∀ a, (![0, 0] : Fin 2 → Nat) a + S1000x512.size a ≤ S1000x512.size a
  h_S1000x512 : 0 < S1000x512.numel
  bcast_S_S20000 : S_.BroadcastsInDim S20000 (![] : Fin 0 → Fin S20000.rank)
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x512_0_1 : S320000x1.BroadcastsInDim S320000x512 (![0, 1] : Fin 2 → Fin S320000x512.rank)
  bcast_S_S20000x512 : S_.BroadcastsInDim S20000x512 (![] : Fin 0 → Fin S20000x512.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  shapeCasts_S512_S1x512 : S512.ShapeCasts S1x512
  shapeCasts_S1000x512_S1000x512 : S1000x512.ShapeCasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x256_S512x256_0_0 : ∀ a, (![0, 0] : Fin 2 → Nat) a + S512x256.size a ≤ S512x256.size a
  h_S512x256 : 0 < S512x256.numel
  inb_S1000x256_S1000x256_0_0 : ∀ a, (![0, 0] : Fin 2 → Nat) a + S1000x256.size a ≤ S1000x256.size a
  h_S1000x256 : 0 < S1000x256.numel
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  shapeCasts_S256_S1x256 : S256.ShapeCasts S1x256
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x64_S256x64_0_0 : ∀ a, (![0, 0] : Fin 2 → Nat) a + S256x64.size a ≤ S256x64.size a
  h_S256x64 : 0 < S256x64.numel
  inb_S1000x64_S1000x64_0_0 : ∀ a, (![0, 0] : Fin 2 → Nat) a + S1000x64.size a ≤ S1000x64.size a
  h_S1000x64 : 0 < S1000x64.numel
  bcast_S320000x1_S320000x64_0_1 : S320000x1.BroadcastsInDim S320000x64 (![0, 1] : Fin 2 → Fin S320000x64.rank)
  bcast_S_S20000x64 : S_.BroadcastsInDim S20000x64 (![] : Fin 0 → Fin S20000x64.rank)
  bcast_S20000x1_S20000x64_0_1 : S20000x1.BroadcastsInDim S20000x64 (![0, 1] : Fin 2 → Fin S20000x64.rank)
  shapeCasts_S64_S1x64 : S64.ShapeCasts S1x64
  shapeCasts_S1000x64_S1000x64 : S1000x64.ShapeCasts S1000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  shapeCasts_S3_S1x3 : S3.ShapeCasts S1x3
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S1000x3 : S1x3.Broadcasts S1000x3
  inb_S1000x3_S1000x3_0_0 : ∀ a, (![0, 0] : Fin 2 → Nat) a + S1000x3.size a ≤ S1000x3.size a
  h_S1000x3 : 0 < S1000x3.numel
  dot_S1000x3_S3x250_S1000x250_1_0_0_1_n_n_wf : DotDims.WF S1000x3 S3x250 S1000x250 [1] [0] [0] [1] [] []
  dot_S1000x11_S11x250_S1000x250_1_0_0_1_n_n_wf : DotDims.WF S1000x11 S11x250 S1000x250 [1] [0] [0] [1] [] []
  dot_S1000x256_S256x85_S1000x85_1_0_0_1_n_n_wf : DotDims.WF S1000x256 S256x85 S1000x85 [1] [0] [0] [1] [] []
  dot_S1000x1755_S1755x512_S1000x512_1_0_0_1_n_n_wf : DotDims.WF S1000x1755 S1755x512 S1000x512 [1] [0] [0] [1] [] []
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S1000x512_S512x256_S1000x256_1_0_0_1_n_n_wf : DotDims.WF S1000x512 S512x256 S1000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S1000x256_S256x64_S1000x64_1_0_0_1_n_n_wf : DotDims.WF S1000x256 S256x64 S1000x64 [1] [0] [0] [1] [] []
  gather_S20000x64_S320000x1_S320000x64_1_0_n_n_0_1_164_wf : GatherDims.WF S20000x64 S320000x1 S320000x64 [1] [0] [] [0] [] 1 ![1, 64]
  scatter_S20000x64_S320000x1_S320000x64_1_0_0_1_wf : ScatterDims.WF S20000x64 S320000x1 S320000x64 [1] [0] [0] 1
  dot_S1000x64_S64x3_S1000x3_1_0_0_1_n_n_wf : DotDims.WF S1000x64 S64x3 S1000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1005.size a ≤ S20000x1005.size a
  hwx0_0 : ∀ i : grid0.Coords, EltTy.bits .f32 = 32 ∨ (Rect.block (s := S20000x1005) S1000x1005.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x250.size a ≤ S3x250.size a
  hwx0_1 : ∀ i : grid0.Coords, EltTy.bits .f32 = 32 ∨ (Rect.block (s := S3x250) S3x250.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11x250.size a ≤ S11x250.size a
  hwx0_2 : ∀ i : grid0.Coords, EltTy.bits .f32 = 32 ∨ (Rect.block (s := S11x250) S11x250.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x85.size a ≤ S256x85.size a
  hwx0_3 : ∀ i : grid0.Coords, EltTy.bits .f32 = 32 ∨ (Rect.block (s := S256x85) S256x85.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x1755.size a ≤ S20000x1755.size a
  hwx0_4 : ∀ i : grid0.Coords, EltTy.bits .f32 = 32 ∨ (Rect.block (s := S20000x1755) S1000x1755.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1755.size a ≤ S20000x1755.size a
  hwx1_0 : ∀ i : grid1.Coords, EltTy.bits .f32 = 32 ∨ (Rect.block (s := S20000x1755) S1000x1755.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1755x512.size a ≤ S1755x512.size a
  hwx1_1 : ∀ i : grid1.Coords, EltTy.bits .f32 = 32 ∨ (Rect.block (s := S1755x512) S1755x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S20000x512.size a
  hwx1_2 : ∀ i : grid1.Coords, EltTy.bits .f32 = 32 ∨ (Rect.block (s := S20000x512) S1000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S20000x512.size a
  hwx2_0 : ∀ i : grid2.Coords, EltTy.bits .f32 = 32 ∨ (Rect.block (s := S20000x512) S1000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x512.size a
  hwx2_1 : ∀ i : grid2.Coords, EltTy.bits .f32 = 32 ∨ (Rect.block (s := S1x512) S1x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x512.size a ≤ S20000x512.size a
  hwx2_2 : ∀ i : grid2.Coords, EltTy.bits .f32 = 32 ∨ (Rect.block (s := S20000x512) S1000x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S20000x512.size a
  hwx3_0 : ∀ i : grid3.Coords, EltTy.bits .f32 = 32 ∨ (Rect.block (s := S20000x512) S1000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .f32 = 32 ∨ (Rect.block (s := S512x256) S512x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x256.size a ≤ S20000x256.size a
  hwx3_2 : ∀ i : grid3.Coords, EltTy.bits .f32 = 32 ∨ (Rect.block (s := S20000x256) S1000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S20000x256.size a
  hwx4_0 : ∀ i : grid4.Coords, EltTy.bits .f32 = 32 ∨ (Rect.block (s := S20000x256) S1000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x256.size a ≤ S20000x256.size a
  hwx4_2 : ∀ i : grid4.Coords, EltTy.bits .f32 = 32 ∨ (Rect.block (s := S20000x256) S1000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x256.size a ≤ S20000x256.size a
  hwx5_0 : ∀ i : grid5.Coords, EltTy.bits .f32 = 32 ∨ (Rect.block (s := S20000x256) S1000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x64.size a ≤ S256x64.size a
  hwx5_1 : ∀ i : grid5.Coords, EltTy.bits .f32 = 32 ∨ (Rect.block (s := S256x64) S256x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x64.size a ≤ S20000x64.size a
  hwx5_2 : ∀ i : grid5.Coords, EltTy.bits .f32 = 32 ∨ (Rect.block (s := S20000x64) S1000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x64.size a ≤ S20000x64.size a
  hwx6_0 : ∀ i : grid6.Coords, EltTy.bits .f32 = 32 ∨ (Rect.block (s := S20000x64) S1000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x64.size a ≤ S20000x64.size a
  hwx6_2 : ∀ i : grid6.Coords, EltTy.bits .f32 = 32 ∨ (Rect.block (s := S20000x64) S1000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x64.size a ≤ S20000x64.size a
  hwx7_0 : ∀ i : grid7.Coords, EltTy.bits .f32 = 32 ∨ (Rect.block (s := S20000x64) S1000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x3.size a ≤ S64x3.size a
  hwx7_1 : ∀ i : grid7.Coords, EltTy.bits .f32 = 32 ∨ (Rect.block (s := S64x3) S64x3.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x3.size a ≤ S1x3.size a
  hwx7_2 : ∀ i : grid7.Coords, EltTy.bits .f32 = 32 ∨ (Rect.block (s := S1x3) S1x3.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1000x3.size a ≤ S20000x3.size a
  hwx7_3 : ∀ i : grid7.Coords, EltTy.bits .f32 = 32 ∨ (Rect.block (s := S20000x3) S1000x3.size (cc7_transform_3 i) (hinb7_3 i)).WholeWords (EltTy.packing .f32)

variable [Facts₀]

def dot_S1000x3_S3x250_S1000x250_1_0_0_1_n_n : DotDims S1000x3 S3x250 S1000x250 where
  lhsContracting := [1]
  rhsContracting := [0]
  lhsNonContracting := [0]
  rhsNonContracting := [1]
  lhsBatch := []
  rhsBatch := []
  wf := dot_S1000x3_S3x250_S1000x250_1_0_0_1_n_n_wf
def dot_S1000x11_S11x250_S1000x250_1_0_0_1_n_n : DotDims S1000x11 S11x250 S1000x250 where
  lhsContracting := [1]
  rhsContracting := [0]
  lhsNonContracting := [0]
  rhsNonContracting := [1]
  lhsBatch := []
  rhsBatch := []
  wf := dot_S1000x11_S11x250_S1000x250_1_0_0_1_n_n_wf
def dot_S1000x256_S256x85_S1000x85_1_0_0_1_n_n : DotDims S1000x256 S256x85 S1000x85 where
  lhsContracting := [1]
  rhsContracting := [0]
  lhsNonContracting := [0]
  rhsNonContracting := [1]
  lhsBatch := []
  rhsBatch := []
  wf := dot_S1000x256_S256x85_S1000x85_1_0_0_1_n_n_wf
def dot_S1000x1755_S1755x512_S1000x512_1_0_0_1_n_n : DotDims S1000x1755 S1755x512 S1000x512 where
  lhsContracting := [1]
  rhsContracting := [0]
  lhsNonContracting := [0]
  rhsNonContracting := [1]
  lhsBatch := []
  rhsBatch := []
  wf := dot_S1000x1755_S1755x512_S1000x512_1_0_0_1_n_n_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S1000x256_S256x64_S1000x64_1_0_0_1_n_n : DotDims S1000x256 S256x64 S1000x64 where
  lhsContracting := [1]
  rhsContracting := [0]
  lhsNonContracting := [0]
  rhsNonContracting := [1]
  lhsBatch := []
  rhsBatch := []
  wf := dot_S1000x256_S256x64_S1000x64_1_0_0_1_n_n_wf
def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def scatter_S20000x64_S320000x1_S320000x64_1_0_0_1 : ScatterDims S20000x64 S320000x1 S320000x64 where
  updateWindowDims := [1]
  insertedWindowDims := [0]
  scatterDimsToOperandDims := [0]
  indexVectorDim := 1
  wf := scatter_S20000x64_S320000x1_S320000x64_1_0_0_1_wf
def dot_S1000x64_S64x3_S1000x3_1_0_0_1_n_n : DotDims S1000x64 S64x3 S1000x3 where
  lhsContracting := [1]
  rhsContracting := [0]
  lhsNonContracting := [0]
  rhsNonContracting := [1]
  lhsBatch := []
  rhsBatch := []
  wf := dot_S1000x64_S64x3_S1000x3_1_0_0_1_n_n_wf

abbrev win0_0 : Pipeline.Window sig grid0 :=
  Pipeline.Window.ofSpec (Memref.whole main_arg0) S1000x1005.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x250.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S11x250.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x85.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1000x1755.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S1000x1755.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1755x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S512x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v94) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v95) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S1000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v96) S1000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S256x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v97) S1000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v140) S1000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v141) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v142) S1000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v142) S1000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S64x3.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v143) S1x3.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v144) S1000x3.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S20000x1005 : Shape := ⟨2, ![20000, 1005]⟩
abbrev S2x320000 : Shape := ⟨2, ![2, 320000]⟩
abbrev S320000 : Shape := ⟨1, ![320000]⟩
abbrev S3x250 : Shape := ⟨2, ![3, 250]⟩
abbrev S11x250 : Shape := ⟨2, ![11, 250]⟩
abbrev S256x85 : Shape := ⟨2, ![256, 85]⟩
abbrev S1755x512 : Shape := ⟨2, ![1755, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x3 : Shape := ⟨2, ![64, 3]⟩
abbrev S3 : Shape := ⟨1, ![3]⟩
abbrev S1x320000 : Shape := ⟨2, ![1, 320000]⟩
abbrev S20000x1 : Shape := ⟨2, ![20000, 1]⟩
abbrev S20000 : Shape := ⟨1, ![20000]⟩
abbrev S_ : Shape := ⟨0, ![]⟩
abbrev S20000x250 : Shape := ⟨2, ![20000, 250]⟩
abbrev S20000x1000 : Shape := ⟨2, ![20000, 1000]⟩
abbrev S20000x3 : Shape := ⟨2, ![20000, 3]⟩
abbrev S20000x3x1 : Shape := ⟨3, ![20000, 3, 1]⟩
abbrev S20000x3x85 : Shape := ⟨3, ![20000, 3, 85]⟩
abbrev S20000x255 : Shape := ⟨2, ![20000, 255]⟩
abbrev S20000x1755 : Shape := ⟨2, ![20000, 1755]⟩
abbrev S20000x512 : Shape := ⟨2, ![20000, 512]⟩
abbrev S320000x1 : Shape := ⟨2, ![320000, 1]⟩
abbrev S320000x512 : Shape := ⟨2, ![320000, 512]⟩
abbrev S1x512 : Shape := ⟨2, ![1, 512]⟩
abbrev S20000x256 : Shape := ⟨2, ![20000, 256]⟩
abbrev S320000x256 : Shape := ⟨2, ![320000, 256]⟩
abbrev S1x256 : Shape := ⟨2, ![1, 256]⟩
abbrev S20000x64 : Shape := ⟨2, ![20000, 64]⟩
abbrev S320000x64 : Shape := ⟨2, ![320000, 64]⟩
abbrev S1x64 : Shape := ⟨2, ![1, 64]⟩
abbrev S1x3 : Shape := ⟨2, ![1, 3]⟩

abbrev nBuf : Space → Nat
  | .hbm => 272
  | .vmem => 0
  | .smem => 0
  | _ => 0

abbrev hbmTy0_0 (i : Nat) : BufTy := match i % 128 with
  | 0 => ⟨S20000x1005, .f32⟩
  | 1 => ⟨S2x320000, .i32⟩
  | 2 => ⟨S320000, .f32⟩
  | 3 => ⟨S3x250, .f32⟩
  | 4 => ⟨S11x250, .f32⟩
  | 5 => ⟨S256x85, .f32⟩
  | 6 => ⟨S1755x512, .f32⟩
  | 7 => ⟨S512, .f32⟩
  | 8 => ⟨S512x256, .f32⟩
  | 9 => ⟨S256, .f32⟩
  | 10 => ⟨S256x64, .f32⟩
  | 11 => ⟨S64, .f32⟩
  | 12 => ⟨S64x3, .f32⟩
  | 13 => ⟨S3, .f32⟩
  | 14 => ⟨S1x320000, .i32⟩
  | 15 => ⟨S320000, .i32⟩
  | 16 => ⟨S1x320000, .i32⟩
  | 17 => ⟨S320000, .i32⟩
  | 18 => ⟨S20000x1, .f32⟩
  | 19 => ⟨S20000, .f32⟩
  | 20 => ⟨S_, .f32⟩
  | 21 => ⟨S20000, .f32⟩
  | 22 => ⟨S20000, .f32⟩
  | 23 => ⟨S20000, .i32⟩
  | 24 => ⟨S_, .i32⟩
  | 25 => ⟨S20000, .i32⟩
  | 26 => ⟨S20000, .i1⟩
  | 27 => ⟨S_, .i32⟩
  | 28 => ⟨S20000, .i32⟩
  | 29 => ⟨S20000, .i32⟩
  | 30 => ⟨S20000, .i32⟩
  | 31 => ⟨S20000x1, .i32⟩
  | 32 => ⟨S20000x250, .f32⟩
  | 33 => ⟨S20000x1000, .f32⟩
  | 34 => ⟨S20000x1, .f32⟩
  | 35 => ⟨S20000, .f32⟩
  | 36 => ⟨S20000, .f32⟩
  | 37 => ⟨S_, .f32⟩
  | 38 => ⟨S20000, .f32⟩
  | 39 => ⟨S20000, .f32⟩
  | 40 => ⟨S20000, .f32⟩
  | 41 => ⟨S20000, .i32⟩
  | 42 => ⟨S_, .i32⟩
  | 43 => ⟨S20000, .i32⟩
  | 44 => ⟨S20000, .i1⟩
  | 45 => ⟨S_, .i32⟩
  | 46 => ⟨S20000, .i32⟩
  | 47 => ⟨S20000, .i32⟩
  | 48 => ⟨S20000, .i32⟩
  | 49 => ⟨S20000x1, .i32⟩
  | 50 => ⟨S20000x250, .f32⟩
  | 51 => ⟨S20000x3, .f32⟩
  | 52 => ⟨S20000x3, .i32⟩
  | 53 => ⟨S_, .i32⟩
  | 54 => ⟨S20000x3, .i32⟩
  | 55 => ⟨S20000x3, .i1⟩
  | 56 => ⟨S_, .i32⟩
  | 57 => ⟨S20000x3, .i32⟩
  | 58 => ⟨S20000x3, .i32⟩
  | 59 => ⟨S20000x3, .i32⟩
  | 60 => ⟨S20000x3x1, .i32⟩
  | 61 => ⟨S20000x3x85, .f32⟩
  | 62 => ⟨S20000x255, .f32⟩
  | 63 => ⟨S20000x1755, .f32⟩
  | 64 => ⟨S20000x512, .f32⟩
  | 65 => ⟨S_, .f32⟩
  | 66 => ⟨S20000, .f32⟩
  | 67 => ⟨S320000x1, .i32⟩
  | 68 => ⟨S20000, .f32⟩
  | 69 => ⟨S_, .f32⟩
  | 70 => ⟨S20000, .f32⟩
  | 71 => ⟨S20000, .f32⟩
  | 72 => ⟨S_, .f32⟩
  | 73 => ⟨S20000, .f32⟩
  | 74 => ⟨S20000, .i1⟩
  | 75 => ⟨S20000, .f32⟩
  | 76 => ⟨S_, .f32⟩
  | 77 => ⟨S_, .f32⟩
  | 78 => ⟨S20000, .f32⟩
  | 79 => ⟨S20000, .f32⟩
  | 80 => ⟨S_, .i32⟩
  | 81 => ⟨S320000, .i32⟩
  | 82 => ⟨S320000, .i1⟩
  | 83 => ⟨S_, .i32⟩
  | 84 => ⟨S320000, .i32⟩
  | 85 => ⟨S320000, .i32⟩
  | 86 => ⟨S320000, .i32⟩
  | 87 => ⟨S320000x1, .i32⟩
  | 88 => ⟨S320000, .f32⟩
  | 89 => ⟨S320000, .f32⟩
  | 90 => ⟨S_, .i32⟩
  | 91 => ⟨S320000, .i32⟩
  | 92 => ⟨S320000, .i1⟩
  | 93 => ⟨S_, .i32⟩
  | 94 => ⟨S320000, .i32⟩
  | 95 => ⟨S320000, .i32⟩
  | 96 => ⟨S320000, .i32⟩
  | 97 => ⟨S320000x1, .i32⟩
  | 98 => ⟨S320000, .f32⟩
  | 99 => ⟨S320000, .f32⟩
  | 100 => ⟨S_, .i32⟩
  | 101 => ⟨S320000, .i32⟩
  | 102 => ⟨S320000, .i1⟩
  | 103 => ⟨S_, .i32⟩
  | 104 => ⟨S320000, .i32⟩
  | 105 => ⟨S320000, .i32⟩
  | 106 => ⟨S320000, .i32⟩
  | 107 => ⟨S320000x1, .i32⟩
  | 108 => ⟨S320000x512, .f32⟩
  | 109 => ⟨S320000x1, .f32⟩
  | 110 => ⟨S320000x512, .f32⟩
  | 111 => ⟨S320000x512, .f32⟩
  | 112 => ⟨S_, .f32⟩
  | 113 => ⟨S20000x512, .f32⟩
  | 114 => ⟨S320000x1, .i32⟩
  | 115 => ⟨S20000x512, .f32⟩
  | 116 => ⟨S20000, .f32⟩
  | 117 => ⟨S20000x1, .f32⟩
  | 118 => ⟨S20000x512, .f32⟩
  | 119 => ⟨S20000x512, .f32⟩
  | 120 => ⟨S20000x512, .f32⟩
  | 121 => ⟨S1x512, .f32⟩
  | 122 => ⟨S20000x512, .f32⟩
  | 123 => ⟨S20000x512, .f32⟩
  | 124 => ⟨S_, .f32⟩
  | 125 => ⟨S_, .f32⟩
  | 126 => ⟨S20000x512, .f32⟩
  | 127 => ⟨S20000x512, .i1⟩
  | _ => ⟨S20000x1005, .f32⟩

abbrev hbmTy0_1 (i : Nat) : BufTy := match i % 128 with
  | 0 => ⟨S_, .f32⟩
  | 1 => ⟨S20000x512, .f32⟩
  | 2 => ⟨S20000x512, .f32⟩
  | 3 => ⟨S20000x512, .f32⟩
  | 4 => ⟨S20000x256, .f32⟩
  | 5 => ⟨S_, .f32⟩
  | 6 => ⟨S20000, .f32⟩
  | 7 => ⟨S320000x1, .i32⟩
  | 8 => ⟨S20000, .f32⟩
  | 9 => ⟨S_, .f32⟩
  | 10 => ⟨S20000, .f32⟩
  | 11 => ⟨S20000, .f32⟩
  | 12 => ⟨S_, .f32⟩
  | 13 => ⟨S20000, .f32⟩
  | 14 => ⟨S20000, .i1⟩
  | 15 => ⟨S20000, .f32⟩
  | 16 => ⟨S_, .f32⟩
  | 17 => ⟨S_, .f32⟩
  | 18 => ⟨S20000, .f32⟩
  | 19 => ⟨S20000, .f32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S320000, .f32⟩
  | 29 => ⟨S320000, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000, .f32⟩
  | 39 => ⟨S320000, .f32⟩
  | 40 => ⟨S_, .i32⟩
  | 41 => ⟨S320000, .i32⟩
  | 42 => ⟨S320000, .i1⟩
  | 43 => ⟨S_, .i32⟩
  | 44 => ⟨S320000, .i32⟩
  | 45 => ⟨S320000, .i32⟩
  | 46 => ⟨S320000, .i32⟩
  | 47 => ⟨S320000x1, .i32⟩
  | 48 => ⟨S320000x256, .f32⟩
  | 49 => ⟨S320000x1, .f32⟩
  | 50 => ⟨S320000x256, .f32⟩
  | 51 => ⟨S320000x256, .f32⟩
  | 52 => ⟨S_, .f32⟩
  | 53 => ⟨S20000x256, .f32⟩
  | 54 => ⟨S320000x1, .i32⟩
  | 55 => ⟨S20000x256, .f32⟩
  | 56 => ⟨S20000, .f32⟩
  | 57 => ⟨S20000x1, .f32⟩
  | 58 => ⟨S20000x256, .f32⟩
  | 59 => ⟨S20000x256, .f32⟩
  | 60 => ⟨S20000x256, .f32⟩
  | 61 => ⟨S1x256, .f32⟩
  | 62 => ⟨S20000x256, .f32⟩
  | 63 => ⟨S20000x256, .f32⟩
  | 64 => ⟨S_, .f32⟩
  | 65 => ⟨S_, .f32⟩
  | 66 => ⟨S20000x256, .f32⟩
  | 67 => ⟨S20000x256, .i1⟩
  | 68 => ⟨S_, .f32⟩
  | 69 => ⟨S20000x256, .f32⟩
  | 70 => ⟨S20000x256, .f32⟩
  | 71 => ⟨S20000x256, .f32⟩
  | 72 => ⟨S20000x64, .f32⟩
  | 73 => ⟨S_, .f32⟩
  | 74 => ⟨S20000, .f32⟩
  | 75 => ⟨S320000x1, .i32⟩
  | 76 => ⟨S20000, .f32⟩
  | 77 => ⟨S_, .f32⟩
  | 78 => ⟨S20000, .f32⟩
  | 79 => ⟨S20000, .f32⟩
  | 80 => ⟨S_, .f32⟩
  | 81 => ⟨S20000, .f32⟩
  | 82 => ⟨S20000, .i1⟩
  | 83 => ⟨S20000, .f32⟩
  | 84 => ⟨S_, .f32⟩
  | 85 => ⟨S_, .f32⟩
  | 86 => ⟨S20000, .f32⟩
  | 87 => ⟨S20000, .f32⟩
  | 88 => ⟨S_, .i32⟩
  | 89 => ⟨S320000, .i32⟩
  | 90 => ⟨S320000, .i1⟩
  | 91 => ⟨S_, .i32⟩
  | 92 => ⟨S320000, .i32⟩
  | 93 => ⟨S320000, .i32⟩
  | 94 => ⟨S320000, .i32⟩
  | 95 => ⟨S320000x1, .i32⟩
  | 96 => ⟨S320000, .f32⟩
  | 97 => ⟨S320000, .f32⟩
  | 98 => ⟨S_, .i32⟩
  | 99 => ⟨S320000, .i32⟩
  | 100 => ⟨S320000, .i1⟩
  | 101 => ⟨S_, .i32⟩
  | 102 => ⟨S320000, .i32⟩
  | 103 => ⟨S320000, .i32⟩
  | 104 => ⟨S320000, .i32⟩
  | 105 => ⟨S320000x1, .i32⟩
  | 106 => ⟨S320000, .f32⟩
  | 107 => ⟨S320000, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000x64, .f32⟩
  | 117 => ⟨S320000x1, .f32⟩
  | 118 => ⟨S320000x64, .f32⟩
  | 119 => ⟨S320000x64, .f32⟩
  | 120 => ⟨S_, .f32⟩
  | 121 => ⟨S20000x64, .f32⟩
  | 122 => ⟨S320000x1, .i32⟩
  | 123 => ⟨S20000x64, .f32⟩
  | 124 => ⟨S20000, .f32⟩
  | 125 => ⟨S20000x1, .f32⟩
  | 126 => ⟨S20000x64, .f32⟩
  | 127 => ⟨S20000x64, .f32⟩
  | _ => ⟨S20000x1005, .f32⟩

abbrev hbmTy0_2 (i : Nat) : BufTy := match i % 128 with
  | 0 => ⟨S20000x64, .f32⟩
  | 1 => ⟨S1x64, .f32⟩
  | 2 => ⟨S20000x64, .f32⟩
  | 3 => ⟨S20000x64, .f32⟩
  | 4 => ⟨S_, .f32⟩
  | 5 => ⟨S_, .f32⟩
  | 6 => ⟨S20000x64, .f32⟩
  | 7 => ⟨S20000x64, .i1⟩
  | 8 => ⟨S_, .f32⟩
  | 9 => ⟨S20000x64, .f32⟩
  | 10 => ⟨S20000x64, .f32⟩
  | 11 => ⟨S20000x64, .f32⟩
  | 12 => ⟨S20000x3, .f32⟩
  | 13 => ⟨S1x3, .f32⟩
  | 14 => ⟨S20000x3, .f32⟩
  | 15 => ⟨S20000x3, .f32⟩
  | _ => ⟨S20000x1005, .f32⟩

abbrev hbmTy (i : Nat) : BufTy := match i / 128 with
  | 0 => hbmTy0_0 i
  | 1 => hbmTy0_1 i
  | 2 => hbmTy0_2 i
  | _ => ⟨S20000x1005, .f32⟩

abbrev bufTy : (tb : Table) → Fin (tcTables nBuf tb) → BufTy
  | .hbm, ⟨i, _⟩ => hbmTy i
  | _, _ => ⟨S20000x1005, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_4 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_call1_v0 : Ref sig .tc := ⟨.hbm, 77, rfl⟩
abbrev main_call1_v1 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_12 : Ref sig .tc := ⟨.hbm, 90, rfl⟩
abbrev main_v60 : Ref sig .tc := ⟨.hbm, 91, rfl⟩
abbrev main_v61 : Ref sig .tc := ⟨.hbm, 92, rfl⟩
abbrev main_c_13 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_14 : Ref sig .tc := ⟨.hbm, 100, rfl⟩
abbrev main_v68 : Ref sig .tc := ⟨.hbm, 101, rfl⟩
abbrev main_v69 : Ref sig .tc := ⟨.hbm, 102, rfl⟩
abbrev main_c_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_16 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_17 : Ref sig .tc := ⟨.hbm, 124, rfl⟩
abbrev main_call2_cst : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_v89 : Ref sig .tc := ⟨.hbm, 131, rfl⟩
abbrev main_v90 : Ref sig .tc := ⟨.hbm, 132, rfl⟩
abbrev main_cst_18 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_19 : Ref sig .tc := ⟨.hbm, 137, rfl⟩
abbrev main_v94 : Ref sig .tc := ⟨.hbm, 138, rfl⟩
abbrev main_v95 : Ref sig .tc := ⟨.hbm, 139, rfl⟩
abbrev main_cst_20 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_21 : Ref sig .tc := ⟨.hbm, 144, rfl⟩
abbrev main_call3_v0 : Ref sig .tc := ⟨.hbm, 145, rfl⟩
abbrev main_call3_v1 : Ref sig .tc := ⟨.hbm, 146, rfl⟩
abbrev main_v99 : Ref sig .tc := ⟨.hbm, 147, rfl⟩
abbrev main_c_22 : Ref sig .tc := ⟨.hbm, 148, rfl⟩
abbrev main_v100 : Ref sig .tc := ⟨.hbm, 149, rfl⟩
abbrev main_v101 : Ref sig .tc := ⟨.hbm, 150, rfl⟩
abbrev main_c_23 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_c_24 : Ref sig .tc := ⟨.hbm, 158, rfl⟩
abbrev main_v108 : Ref sig .tc := ⟨.hbm, 159, rfl⟩
abbrev main_v109 : Ref sig .tc := ⟨.hbm, 160, rfl⟩
abbrev main_c_25 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_c_26 : Ref sig .tc := ⟨.hbm, 168, rfl⟩
abbrev main_v116 : Ref sig .tc := ⟨.hbm, 169, rfl⟩
abbrev main_v117 : Ref sig .tc := ⟨.hbm, 170, rfl⟩
abbrev main_c_27 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_cst_28 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_cst_29 : Ref sig .tc := ⟨.hbm, 192, rfl⟩
abbrev main_call4_cst : Ref sig .tc := ⟨.hbm, 193, rfl⟩
abbrev main_call4_v0 : Ref sig .tc := ⟨.hbm, 194, rfl⟩
abbrev main_call4_v1 : Ref sig .tc := ⟨.hbm, 195, rfl⟩
abbrev main_call4_v2 : Ref sig .tc := ⟨.hbm, 196, rfl⟩
abbrev main_call4_v3 : Ref sig .tc := ⟨.hbm, 197, rfl⟩
abbrev main_call4_v4 : Ref sig .tc := ⟨.hbm, 198, rfl⟩
abbrev main_v137 : Ref sig .tc := ⟨.hbm, 199, rfl⟩
abbrev main_v138 : Ref sig .tc := ⟨.hbm, 200, rfl⟩
abbrev main_cst_30 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_cst_31 : Ref sig .tc := ⟨.hbm, 205, rfl⟩
abbrev main_v142 : Ref sig .tc := ⟨.hbm, 206, rfl⟩
abbrev main_v143 : Ref sig .tc := ⟨.hbm, 207, rfl⟩
abbrev main_cst_32 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_cst_33 : Ref sig .tc := ⟨.hbm, 212, rfl⟩
abbrev main_call5_v0 : Ref sig .tc := ⟨.hbm, 213, rfl⟩
abbrev main_call5_v1 : Ref sig .tc := ⟨.hbm, 214, rfl⟩
abbrev main_v147 : Ref sig .tc := ⟨.hbm, 215, rfl⟩
abbrev main_c_34 : Ref sig .tc := ⟨.hbm, 216, rfl⟩
abbrev main_v148 : Ref sig .tc := ⟨.hbm, 217, rfl⟩
abbrev main_v149 : Ref sig .tc := ⟨.hbm, 218, rfl⟩
abbrev main_c_35 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_c_36 : Ref sig .tc := ⟨.hbm, 226, rfl⟩
abbrev main_v156 : Ref sig .tc := ⟨.hbm, 227, rfl⟩
abbrev main_v157 : Ref sig .tc := ⟨.hbm, 228, rfl⟩
abbrev main_c_37 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_c_38 : Ref sig .tc := ⟨.hbm, 236, rfl⟩
abbrev main_v164 : Ref sig .tc := ⟨.hbm, 237, rfl⟩
abbrev main_v165 : Ref sig .tc := ⟨.hbm, 238, rfl⟩
abbrev main_c_39 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_cst_40 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_cst_41 : Ref sig .tc := ⟨.hbm, 260, rfl⟩
abbrev main_call6_cst : Ref sig .tc := ⟨.hbm, 261, rfl⟩
abbrev main_call6_v0 : Ref sig .tc := ⟨.hbm, 262, rfl⟩
abbrev main_call6_v1 : Ref sig .tc := ⟨.hbm, 263, rfl⟩
abbrev main_call6_v2 : Ref sig .tc := ⟨.hbm, 264, rfl⟩
abbrev main_call6_v3 : Ref sig .tc := ⟨.hbm, 265, rfl⟩
abbrev main_call6_v4 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  slices_S20000x1005_S20000x1_0_0 : S20000x1005.Slices ![0, 0] S20000x1
  shapeCasts_S20000x1_S20000 : S20000x1.ShapeCasts S20000
  bcast_S_S20000 : S_.BroadcastsInDim S20000 (![] : Fin 0 → Fin S20000.rank)
  bcast_S20000_S20000x1_0 : S20000.BroadcastsInDim S20000x1 (![0] : Fin 1 → Fin S20000x1.rank)
  slices_S20000x1005_S20000x1000_0_1 : S20000x1005.Slices ![0, 1] S20000x1000
  slices_S20000x1005_S20000x1_0_1001 : S20000x1005.Slices ![0, 1001] S20000x1
  slices_S20000x1005_S20000x3_0_1002 : S20000x1005.Slices ![0, 1002] S20000x3
  bcast_S_S20000x3 : S_.BroadcastsInDim S20000x3 (![] : Fin 0 → Fin S20000x3.rank)
  bcast_S20000x3_S20000x3x1_0_1 : S20000x3.BroadcastsInDim S20000x3x1 (![0, 1] : Fin 2 → Fin S20000x3x1.rank)
  shapeCasts_S20000x3x85_S20000x255 : S20000x3x85.ShapeCasts S20000x255
  concatenates_S20000x250_S20000x1000_S20000x250_S20000x255_S20000x1755_d1 : Shape.Concatenates [S20000x250, S20000x1000, S20000x250, S20000x255] S20000x1755 1
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x512_0_1 : S320000x1.BroadcastsInDim S320000x512 (![0, 1] : Fin 2 → Fin S320000x512.rank)
  bcast_S_S20000x512 : S_.BroadcastsInDim S20000x512 (![] : Fin 0 → Fin S20000x512.rank)
  bcast_S20000x1_S20000x512_0_1 : S20000x1.BroadcastsInDim S20000x512 (![0, 1] : Fin 2 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S320000x1_S320000x64_0_1 : S320000x1.BroadcastsInDim S320000x64 (![0, 1] : Fin 2 → Fin S320000x64.rank)
  bcast_S_S20000x64 : S_.BroadcastsInDim S20000x64 (![] : Fin 0 → Fin S20000x64.rank)
  bcast_S20000x1_S20000x64_0_1 : S20000x1.BroadcastsInDim S20000x64 (![0, 1] : Fin 2 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S3_S1x3_1 : S3.BroadcastsInDim S1x3 (![1] : Fin 1 → Fin S1x3.rank)
  bcast_S1x3_S20000x3_0_1 : S1x3.BroadcastsInDim S20000x3 (![0, 1] : Fin 2 → Fin S20000x3.rank)
  gather_S3x250_S20000x1_S20000x250_1_0_n_n_0_1_1250_wf : GatherDims.WF S3x250 S20000x1 S20000x250 [1] [0] [] [0] [] 1 ![1, 250]
  gather_S11x250_S20000x1_S20000x250_1_0_n_n_0_1_1250_wf : GatherDims.WF S11x250 S20000x1 S20000x250 [1] [0] [] [0] [] 1 ![1, 250]
  gather_S256x85_S20000x3x1_S20000x3x85_2_0_n_n_0_2_185_wf : GatherDims.WF S256x85 S20000x3x1 S20000x3x85 [2] [0] [] [0] [] 2 ![1, 85]
  dot_S20000x1755_S1755x512_S20000x512_1_0_0_1_n_n_wf : DotDims.WF S20000x1755 S1755x512 S20000x512 [1] [0] [0] [1] [] []
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S20000x512_S512x256_S20000x256_1_0_0_1_n_n_wf : DotDims.WF S20000x512 S512x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x64_S20000x64_1_0_0_1_n_n_wf : DotDims.WF S20000x256 S256x64 S20000x64 [1] [0] [0] [1] [] []
  gather_S20000x64_S320000x1_S320000x64_1_0_n_n_0_1_164_wf : GatherDims.WF S20000x64 S320000x1 S320000x64 [1] [0] [] [0] [] 1 ![1, 64]
  scatter_S20000x64_S320000x1_S320000x64_1_0_0_1_wf : ScatterDims.WF S20000x64 S320000x1 S320000x64 [1] [0] [0] 1
  dot_S20000x64_S64x3_S20000x3_1_0_0_1_n_n_wf : DotDims.WF S20000x64 S64x3 S20000x3 [1] [0] [0] [1] [] []

variable [Facts₀]

def gather_S3x250_S20000x1_S20000x250_1_0_n_n_0_1_1250 : GatherDims S3x250 S20000x1 S20000x250 where
  offsetDims := [1]
  collapsedSliceDims := [0]
  operandBatchingDims := []
  startIndicesBatchingDims := []
  startIndexMap := [0]
  indexVectorDim := 1
  sliceSizes := ![1, 250]
  wf := gather_S3x250_S20000x1_S20000x250_1_0_n_n_0_1_1250_wf
def gather_S11x250_S20000x1_S20000x250_1_0_n_n_0_1_1250 : GatherDims S11x250 S20000x1 S20000x250 where
  offsetDims := [1]
  collapsedSliceDims := [0]
  operandBatchingDims := []
  startIndicesBatchingDims := []
  startIndexMap := [0]
  indexVectorDim := 1
  sliceSizes := ![1, 250]
  wf := gather_S11x250_S20000x1_S20000x250_1_0_n_n_0_1_1250_wf
def gather_S256x85_S20000x3x1_S20000x3x85_2_0_n_n_0_2_185 : GatherDims S256x85 S20000x3x1 S20000x3x85 where
  offsetDims := [2]
  collapsedSliceDims := [0]
  operandBatchingDims := []
  startIndicesBatchingDims := []
  startIndexMap := [0]
  indexVectorDim := 2
  sliceSizes := ![1, 85]
  wf := gather_S256x85_S20000x3x1_S20000x3x85_2_0_n_n_0_2_185_wf
def dot_S20000x1755_S1755x512_S20000x512_1_0_0_1_n_n : DotDims S20000x1755 S1755x512 S20000x512 where
  lhsContracting := [1]
  rhsContracting := [0]
  lhsNonContracting := [0]
  rhsNonContracting := [1]
  lhsBatch := []
  rhsBatch := []
  wf := dot_S20000x1755_S1755x512_S20000x512_1_0_0_1_n_n_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x64_S20000x64_1_0_0_1_n_n : DotDims S20000x256 S256x64 S20000x64 where
  lhsContracting := [1]
  rhsContracting := [0]
  lhsNonContracting := [0]
  rhsNonContracting := [1]
  lhsBatch := []
  rhsBatch := []
  wf := dot_S20000x256_S256x64_S20000x64_1_0_0_1_n_n_wf
def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def scatter_S20000x64_S320000x1_S320000x64_1_0_0_1 : ScatterDims S20000x64 S320000x1 S320000x64 where
  updateWindowDims := [1]
  insertedWindowDims := [0]
  scatterDimsToOperandDims := [0]
  indexVectorDim := 1
  wf := scatter_S20000x64_S320000x1_S320000x64_1_0_0_1_wf
def dot_S20000x64_S64x3_S20000x3_1_0_0_1_n_n : DotDims S20000x64 S64x3 S20000x3 where
  lhsContracting := [1]
  rhsContracting := [0]
  lhsNonContracting := [0]
  rhsNonContracting := [1]
  lhsBatch := []
  rhsBatch := []
  wf := dot_S20000x64_S64x3_S20000x3_1_0_0_1_n_n_wf

class Facts : Prop extends Facts₀ where

variable [Facts]
-- ==== Proof.KernelRun.lean ====
/-
  The idealized kernel's run with its RESULT named. @main is eight pallas regions among stretches of host
  operations; the generated frame follows the TensorCore's buffer contents through every segment boundary
  (the valuations W0 … W19 of Gen/KernelIdeal/Frame.lean) and then keeps only the argument arrays. Here the same
  launch is read once more with the result buffer kept as well: every weakly fair execution terminates,
  nothing faults, the result array ends at the last boundary's contents W19 of it, and the arguments end as
  launched.
-/
import proofs.«102165_j72748156060190_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from a memory with zero counters terminates without a fault; the
    result array then holds the last segment boundary's contents of it, and the fourteen argument arrays are
    as launched. -/
theorem run_result : θ_run defs (onTc (τ := τ) (main (F := F))) ⟨m, fun _ => 0, ρ⟩ (fun r => ∀ c : Dev nD,
      r.2.mem ((c.tc : Thread nD τ).loc main_v144) = W19 m ρ c (Proc.devRef .tc main_v144)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v144 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c)⟩)

end Cert.KernelIdeal.Gen

end
-- ==== Proof.KernelCarry.lean ====
/-
  Which buffers each segment of the idealized kernel's @main leaves alone. Between the launch and the return the
  TensorCore's buffer contents pass nineteen segment boundaries (W0 … W19 of the generated frame): a stretch of host
  operations changes only the buffers its operations write, and a pallas region changes only its own output arrays.
  So an argument array, and the two edge-endpoint arrays the first stretch computes from the edge index, hold at
  every later boundary what they held when first written: the facts below, one per buffer and boundary that the
  value of the result is read through.
-/
import proofs.«102165_j72748156060190_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- A stretch of host operations leaves a buffer none of them writes as it was: the writes of the stretch's
    operations are listed and compared with the buffer one by one. -/
macro "host_keeps" : tactic => `(tactic| (
  refine StableHlo.after_of_forall_not_mem _ _ (List.forall_iff_forall_mem.mp ?_)
  simp only [hostOps0, hostOps2, hostOps2_1, hostOps2_2, hostOps4, hostOps4_1, hostOps4_2, hostOps6, hostOps6_1, hostOps6_2, hostOps7, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

section
variable (c : Dev nD)

/-! ## At the first region's entry: the node features and the three tables -/

theorem W1_arg0 : W1 m ρ c (Proc.devRef .tc main_arg0) = m ((c : Thread nD τ).loc main_arg0) :=
  (show W1 m ρ c (Proc.devRef .tc main_arg0) = W0 m ρ c (Proc.devRef .tc main_arg0) by host_keeps).trans rfl
theorem W1_arg3 : W1 m ρ c (Proc.devRef .tc main_arg3) = m ((c : Thread nD τ).loc main_arg3) :=
  (show W1 m ρ c (Proc.devRef .tc main_arg3) = W0 m ρ c (Proc.devRef .tc main_arg3) by host_keeps).trans rfl
theorem W1_arg4 : W1 m ρ c (Proc.devRef .tc main_arg4) = m ((c : Thread nD τ).loc main_arg4) :=
  (show W1 m ρ c (Proc.devRef .tc main_arg4) = W0 m ρ c (Proc.devRef .tc main_arg4) by host_keeps).trans rfl
theorem W1_arg5 : W1 m ρ c (Proc.devRef .tc main_arg5) = m ((c : Thread nD τ).loc main_arg5) :=
  (show W1 m ρ c (Proc.devRef .tc main_arg5) = W0 m ρ c (Proc.devRef .tc main_arg5) by host_keeps).trans rfl

/-! ## A buffer no region and no stretch touches before a given boundary holds its launch contents there -/

/-- Up to the first layer's projection (region 1's entry). -/
theorem keep2 (b : Ref sig .tc) (h0 : W1 m ρ c (Proc.devRef .tc b) = W0 m ρ c (Proc.devRef .tc b))
    (r0 : ∀ w, Pipeline.arrRef spec0 w ≠ b) : W2 m ρ c (Proc.devRef .tc b) = m ((c : Thread nD τ).loc b) :=
  ((W2_of_ne m ρ c b r0).trans h0).trans rfl

/-- From region 0's entry to the first layer's aggregation stretch. -/
theorem step3 (b : Ref sig .tc) (r0 : ∀ w, Pipeline.arrRef spec0 w ≠ b) (r1 : ∀ w, Pipeline.arrRef spec1 w ≠ b) :
    W3 m ρ c (Proc.devRef .tc b) = W1 m ρ c (Proc.devRef .tc b) :=
  (W3_of_ne m ρ c b r1).trans (W2_of_ne m ρ c b r0)

/-- Across one layer's three host stretches and its two regions, from one projection's exit to the next's. -/
theorem step8 (b : Ref sig .tc)
    (h2 : W4 m ρ c (Proc.devRef .tc b) = W3 m ρ c (Proc.devRef .tc b))
    (h21 : W5 m ρ c (Proc.devRef .tc b) = W4 m ρ c (Proc.devRef .tc b))
    (h22 : W6 m ρ c (Proc.devRef .tc b) = W5 m ρ c (Proc.devRef .tc b))
    (r2 : ∀ w, Pipeline.arrRef spec2 w ≠ b) (r3 : ∀ w, Pipeline.arrRef spec3 w ≠ b) :
    W8 m ρ c (Proc.devRef .tc b) = W3 m ρ c (Proc.devRef .tc b) :=
  (W8_of_ne m ρ c b r3).trans ((W7_of_ne m ρ c b r2).trans (h22.trans (h21.trans h2)))
theorem step13 (b : Ref sig .tc)
    (h4 : W9 m ρ c (Proc.devRef .tc b) = W8 m ρ c (Proc.devRef .tc b))
    (h41 : W10 m ρ c (Proc.devRef .tc b) = W9 m ρ c (Proc.devRef .tc b))
    (h42 : W11 m ρ c (Proc.devRef .tc b) = W10 m ρ c (Proc.devRef .tc b))
    (r4 : ∀ w, Pipeline.arrRef spec4 w ≠ b) (r5 : ∀ w, Pipeline.arrRef spec5 w ≠ b) :
    W13 m ρ c (Proc.devRef .tc b) = W8 m ρ c (Proc.devRef .tc b) :=
  (W13_of_ne m ρ c b r5).trans ((W12_of_ne m ρ c b r4).trans (h42.trans (h41.trans h4)))
theorem step17 (b : Ref sig .tc)
    (h6 : W14 m ρ c (Proc.devRef .tc b) = W13 m ρ c (Proc.devRef .tc b))
    (h61 : W15 m ρ c (Proc.devRef .tc b) = W14 m ρ c (Proc.devRef .tc b))
    (h62 : W16 m ρ c (Proc.devRef .tc b) = W15 m ρ c (Proc.devRef .tc b))
    (r6 : ∀ w, Pipeline.arrRef spec6 w ≠ b) :
    W17 m ρ c (Proc.devRef .tc b) = W13 m ρ c (Proc.devRef .tc b) :=
  (W17_of_ne m ρ c b r6).trans (h62.trans (h61.trans h6))

/-! ## The two edge-endpoint arrays (written by the first stretch only) -/

theorem W3_v1 : W3 m ρ c (Proc.devRef .tc main_v1) = W1 m ρ c (Proc.devRef .tc main_v1) := step3 m ρ c main_v1 (by decide) (by decide)
theorem W3_v3 : W3 m ρ c (Proc.devRef .tc main_v3) = W1 m ρ c (Proc.devRef .tc main_v3) := step3 m ρ c main_v3 (by decide) (by decide)
theorem W8_v1 : W8 m ρ c (Proc.devRef .tc main_v1) = W1 m ρ c (Proc.devRef .tc main_v1) :=
  (step8 m ρ c main_v1 (by host_keeps) (by host_keeps) (by host_keeps) (by decide) (by decide)).trans (W3_v1 m ρ c)
theorem W8_v3 : W8 m ρ c (Proc.devRef .tc main_v3) = W1 m ρ c (Proc.devRef .tc main_v3) :=
  (step8 m ρ c main_v3 (by host_keeps) (by host_keeps) (by host_keeps) (by decide) (by decide)).trans (W3_v3 m ρ c)
theorem W13_v1 : W13 m ρ c (Proc.devRef .tc main_v1) = W1 m ρ c (Proc.devRef .tc main_v1) :=
  (step13 m ρ c main_v1 (by host_keeps) (by host_keeps) (by host_keeps) (by decide) (by decide)).trans (W8_v1 m ρ c)
theorem W13_v3 : W13 m ρ c (Proc.devRef .tc main_v3) = W1 m ρ c (Proc.devRef .tc main_v3) :=
  (step13 m ρ c main_v3 (by host_keeps) (by host_keeps) (by host_keeps) (by decide) (by decide)).trans (W8_v3 m ρ c)

/-! ## The arguments each later segment reads -/

/-- The launch contents at region 1's exit, for an argument no earlier segment touches. -/
theorem W3_arg (b : Ref sig .tc) (h0 : W1 m ρ c (Proc.devRef .tc b) = W0 m ρ c (Proc.devRef .tc b))
    (r0 : ∀ w, Pipeline.arrRef spec0 w ≠ b) (r1 : ∀ w, Pipeline.arrRef spec1 w ≠ b) :
    W3 m ρ c (Proc.devRef .tc b) = m ((c : Thread nD τ).loc b) :=
  ((step3 m ρ c b r0 r1).trans h0).trans rfl

theorem W2_arg6 : W2 m ρ c (Proc.devRef .tc main_arg6) = m ((c : Thread nD τ).loc main_arg6) := keep2 m ρ c main_arg6 (by host_keeps) (by decide)
theorem W3_arg2 : W3 m ρ c (Proc.devRef .tc main_arg2) = m ((c : Thread nD τ).loc main_arg2) := W3_arg m ρ c main_arg2 (by host_keeps) (by decide) (by decide)
theorem W3_arg7 : W3 m ρ c (Proc.devRef .tc main_arg7) = m ((c : Thread nD τ).loc main_arg7) := W3_arg m ρ c main_arg7 (by host_keeps) (by decide) (by decide)
theorem W3_arg8 : W3 m ρ c (Proc.devRef .tc main_arg8) = m ((c : Thread nD τ).loc main_arg8) := W3_arg m ρ c main_arg8 (by host_keeps) (by decide) (by decide)
theorem W3_arg9 : W3 m ρ c (Proc.devRef .tc main_arg9) = m ((c : Thread nD τ).loc main_arg9) := W3_arg m ρ c main_arg9 (by host_keeps) (by decide) (by decide)
theorem W3_arg10 : W3 m ρ c (Proc.devRef .tc main_arg10) = m ((c : Thread nD τ).loc main_arg10) := W3_arg m ρ c main_arg10 (by host_keeps) (by decide) (by decide)
theorem W3_arg11 : W3 m ρ c (Proc.devRef .tc main_arg11) = m ((c : Thread nD τ).loc main_arg11) := W3_arg m ρ c main_arg11 (by host_keeps) (by decide) (by decide)
theorem W3_arg12 : W3 m ρ c (Proc.devRef .tc main_arg12) = m ((c : Thread nD τ).loc main_arg12) := W3_arg m ρ c main_arg12 (by host_keeps) (by decide) (by decide)
theorem W3_arg13 : W3 m ρ c (Proc.devRef .tc main_arg13) = m ((c : Thread nD τ).loc main_arg13) := W3_arg m ρ c main_arg13 (by host_keeps) (by decide) (by decide)

/-- The second layer's weights at its projection's entry (region 2's exit). -/
theorem W7_arg8 : W7 m ρ c (Proc.devRef .tc main_arg8) = m ((c : Thread nD τ).loc main_arg8) :=
  (W7_of_ne m ρ c main_arg8 (by decide)).trans
    ((show W6 m ρ c (Proc.devRef .tc main_arg8) = W5 m ρ c (Proc.devRef .tc main_arg8) by host_keeps).trans
      ((show W5 m ρ c (Proc.devRef .tc main_arg8) = W4 m ρ c (Proc.devRef .tc main_arg8) by host_keeps).trans
        ((show W4 m ρ c (Proc.devRef .tc main_arg8) = W3 m ρ c (Proc.devRef .tc main_arg8) by host_keeps).trans (W3_arg8 m ρ c))))

theorem W8_arg2 : W8 m ρ c (Proc.devRef .tc main_arg2) = m ((c : Thread nD τ).loc main_arg2) :=
  (step8 m ρ c main_arg2 (by host_keeps) (by host_keeps) (by host_keeps) (by decide) (by decide)).trans (W3_arg2 m ρ c)
theorem W8_arg9 : W8 m ρ c (Proc.devRef .tc main_arg9) = m ((c : Thread nD τ).loc main_arg9) :=
  (step8 m ρ c main_arg9 (by host_keeps) (by host_keeps) (by host_keeps) (by decide) (by decide)).trans (W3_arg9 m ρ c)
theorem W8_arg10 : W8 m ρ c (Proc.devRef .tc main_arg10) = m ((c : Thread nD τ).loc main_arg10) :=
  (step8 m ρ c main_arg10 (by host_keeps) (by host_keeps) (by host_keeps) (by decide) (by decide)).trans (W3_arg10 m ρ c)
theorem W8_arg11 : W8 m ρ c (Proc.devRef .tc main_arg11) = m ((c : Thread nD τ).loc main_arg11) :=
  (step8 m ρ c main_arg11 (by host_keeps) (by host_keeps) (by host_keeps) (by decide) (by decide)).trans (W3_arg11 m ρ c)
theorem W8_arg12 : W8 m ρ c (Proc.devRef .tc main_arg12) = m ((c : Thread nD τ).loc main_arg12) :=
  (step8 m ρ c main_arg12 (by host_keeps) (by host_keeps) (by host_keeps) (by decide) (by decide)).trans (W3_arg12 m ρ c)
theorem W8_arg13 : W8 m ρ c (Proc.devRef .tc main_arg13) = m ((c : Thread nD τ).loc main_arg13) :=
  (step8 m ρ c main_arg13 (by host_keeps) (by host_keeps) (by host_keeps) (by decide) (by decide)).trans (W3_arg13 m ρ c)

/-- The third layer's weights at its projection's entry (region 4's exit). -/
theorem W12_arg10 : W12 m ρ c (Proc.devRef .tc main_arg10) = m ((c : Thread nD τ).loc main_arg10) :=
  (W12_of_ne m ρ c main_arg10 (by decide)).trans
    ((show W11 m ρ c (Proc.devRef .tc main_arg10) = W10 m ρ c (Proc.devRef .tc main_arg10) by host_keeps).trans
      ((show W10 m ρ c (Proc.devRef .tc main_arg10) = W9 m ρ c (Proc.devRef .tc main_arg10) by host_keeps).trans
        ((show W9 m ρ c (Proc.devRef .tc main_arg10) = W8 m ρ c (Proc.devRef .tc main_arg10) by host_keeps).trans (W8_arg10 m ρ c))))

theorem W13_arg2 : W13 m ρ c (Proc.devRef .tc main_arg2) = m ((c : Thread nD τ).loc main_arg2) :=
  (step13 m ρ c main_arg2 (by host_keeps) (by host_keeps) (by host_keeps) (by decide) (by decide)).trans (W8_arg2 m ρ c)
theorem W13_arg11 : W13 m ρ c (Proc.devRef .tc main_arg11) = m ((c : Thread nD τ).loc main_arg11) :=
  (step13 m ρ c main_arg11 (by host_keeps) (by host_keeps) (by host_keeps) (by decide) (by decide)).trans (W8_arg11 m ρ c)
theorem W13_arg12 : W13 m ρ c (Proc.devRef .tc main_arg12) = m ((c : Thread nD τ).loc main_arg12) :=
  (step13 m ρ c main_arg12 (by host_keeps) (by host_keeps) (by host_keeps) (by decide) (by decide)).trans (W8_arg12 m ρ c)
theorem W13_arg13 : W13 m ρ c (Proc.devRef .tc main_arg13) = m ((c : Thread nD τ).loc main_arg13) :=
  (step13 m ρ c main_arg13 (by host_keeps) (by host_keeps) (by host_keeps) (by decide) (by decide)).trans (W8_arg13 m ρ c)

/-- The head's weights and bias at the last stretch and the last region's entry. -/
theorem W17_arg12 : W17 m ρ c (Proc.devRef .tc main_arg12) = m ((c : Thread nD τ).loc main_arg12) :=
  (step17 m ρ c main_arg12 (by host_keeps) (by host_keeps) (by host_keeps) (by decide)).trans (W13_arg12 m ρ c)
theorem W17_arg13 : W17 m ρ c (Proc.devRef .tc main_arg13) = m ((c : Thread nD τ).loc main_arg13) :=
  (step17 m ρ c main_arg13 (by host_keeps) (by host_keeps) (by host_keeps) (by decide)).trans (W13_arg13 m ρ c)
theorem W18_arg12 : W18 m ρ c (Proc.devRef .tc main_arg12) = m ((c : Thread nD τ).loc main_arg12) :=
  (show W18 m ρ c (Proc.devRef .tc main_arg12) = W17 m ρ c (Proc.devRef .tc main_arg12) by host_keeps).trans (W17_arg12 m ρ c)

end

end Cert.KernelIdeal.Gen

end
-- ==== Proof.RefStages.lean ====
/- The reference program's value, stage by stage: each definition below is the composed term of a stretch of
   the reference's own host operations (the same shape records, the same literals, the outlined functions
   inlined), over the contents of the buffers the stretch reads. Nothing is proved here. -/
import proofs.«102165_j72748156060190_1_alg».proof.ReferenceIdeal

noncomputable section

namespace Cert.ReferenceIdeal.Stages

open Cert.ReferenceIdeal Cert.ReferenceIdeal.Facts₀ Cert.ReferenceIdeal.Facts Idealize.ShloMosaic

variable {F : FTy → Type} [FloatOps F] [Cert.ReferenceIdeal.Facts]

/-! ## The edge list's two rows -/

/-- The source row of the edge list (%1): row 0 of the 2×E index array, as a vector of length E. -/
def srcTerm (ei : IVec S2x320000 32) : IVec S320000 32 :=
  shapeCast S320000 (extractStridedSlice S1x320000 ![0, 0] ei slices_S2x320000_S1x320000_0_0) shapeCasts_S1x320000_S320000

/-- The destination row of the edge list (%3): row 1 of the 2×E index array. -/
def dstTerm (ei : IVec S2x320000 32) : IVec S320000 32 :=
  shapeCast S320000 (extractStridedSlice S1x320000 ![1, 0] ei slices_S2x320000_S1x320000_1_0) shapeCasts_S1x320000_S320000

/-! ## The embedding -/

/-- The layer-table row index of each node (%14): column 0 of the features minus one, converted to an integer,
    a negative index wrapped by the table's height 3, as an N×1 index array. -/
def layerIdxTerm (x : FVec F S20000x1005 .f32) : IVec S20000x1 32 :=
  broadcastInDim S20000x1 ![0] bcast_S20000_S20000x1_0
    (select
      (cmpi .slt
        (fptosi 32 (subf (shapeCast S20000 (extractStridedSlice S20000x1 ![0, 0] x slices_S20000x1005_S20000x1_0_0) shapeCasts_S20000x1_S20000)
          (broadcastInDim S20000 ![] bcast_S_S20000 (constant S_ .f32 0x3F800000#32 : FVec F S_ .f32))))
        (broadcastInDim S20000 ![] bcast_S_S20000 (constantI S_ 32 0#32)))
      (addi
        (fptosi 32 (subf (shapeCast S20000 (extractStridedSlice S20000x1 ![0, 0] x slices_S20000x1005_S20000x1_0_0) shapeCasts_S20000x1_S20000)
          (broadcastInDim S20000 ![] bcast_S_S20000 (constant S_ .f32 0x3F800000#32 : FVec F S_ .f32))))
        (broadcastInDim S20000 ![] bcast_S_S20000 (constantI S_ 32 3#32)))
      (fptosi 32 (subf (shapeCast S20000 (extractStridedSlice S20000x1 ![0, 0] x slices_S20000x1005_S20000x1_0_0) shapeCasts_S20000x1_S20000)
        (broadcastInDim S20000 ![] bcast_S_S20000 (constant S_ .f32 0x3F800000#32 : FVec F S_ .f32)))))

/-- The relative-size value of each node before the integer conversion (%22): the absolute value of column
    1001 times ten, rounded to the nearest even (the call of @round). -/
def relRoundTerm (x : FVec F S20000x1005 .f32) : FVec F S20000 .f32 :=
  Host.roundeven
    (mulf (Host.absf (shapeCast S20000 (extractStridedSlice S20000x1 ![0, 1001] x slices_S20000x1005_S20000x1_0_1001) shapeCasts_S20000x1_S20000))
      (broadcastInDim S20000 ![] bcast_S_S20000 (constant S_ .f32 0x41200000#32 : FVec F S_ .f32)))

/-- The relative-size table row index of each node (%29): `relRoundTerm` converted to an integer, a negative
    index wrapped by the table's height 11, as an N×1 index array. -/
def relIdxTerm (x : FVec F S20000x1005 .f32) : IVec S20000x1 32 :=
  broadcastInDim S20000x1 ![0] bcast_S20000_S20000x1_0
    (select
      (cmpi .slt (fptosi 32 (relRoundTerm x)) (broadcastInDim S20000 ![] bcast_S_S20000 (constantI S_ 32 0#32)))
      (addi (fptosi 32 (relRoundTerm x)) (broadcastInDim S20000 ![] bcast_S_S20000 (constantI S_ 32 11#32)))
      (fptosi 32 (relRoundTerm x)))

/-- The colour-table row indices of each node (%38): columns 1002 … 1004 converted to integers, a negative
    index wrapped by the table's height 256, as an N×3×1 index array. -/
def colorIdxTerm (x : FVec F S20000x1005 .f32) : IVec S20000x3x1 32 :=
  broadcastInDim S20000x3x1 ![0, 1] bcast_S20000x3_S20000x3x1_0_1
    (select
      (cmpi .slt (fptosi 32 (extractStridedSlice S20000x3 ![0, 1002] x slices_S20000x1005_S20000x3_0_1002))
        (broadcastInDim S20000x3 ![] bcast_S_S20000x3 (constantI S_ 32 0#32)))
      (addi (fptosi 32 (extractStridedSlice S20000x3 ![0, 1002] x slices_S20000x1005_S20000x3_0_1002))
        (broadcastInDim S20000x3 ![] bcast_S_S20000x3 (constantI S_ 32 256#32)))
      (fptosi 32 (extractStridedSlice S20000x3 ![0, 1002] x slices_S20000x1005_S20000x3_0_1002)))

/-- The embedded node features (%41): the layer-table row, the thousand feature columns, the relative-size
    table row and the three colour-table rows side by side. -/
def embedTerm (x : FVec F S20000x1005 .f32) (lt : FVec F S3x250 .f32) (rt : FVec F S11x250 .f32) (ct : FVec F S256x85 .f32) :
    FVec F S20000x1755 .f32 :=
  concatenate S20000x1755 1
    [⟨S20000x250, Host.gather gather_S3x250_S20000x1_S20000x250_1_0_n_n_0_1_1250 lt (layerIdxTerm x)⟩,
     ⟨S20000x1000, extractStridedSlice S20000x1000 ![0, 1] x slices_S20000x1005_S20000x1000_0_1⟩,
     ⟨S20000x250, Host.gather gather_S11x250_S20000x1_S20000x250_1_0_n_n_0_1_1250 rt (relIdxTerm x)⟩,
     ⟨S20000x255, shapeCast S20000x255 (Host.gather gather_S256x85_S20000x3x1_S20000x3x85_2_0_n_n_0_2_185 ct (colorIdxTerm x)) shapeCasts_S20000x3x85_S20000x255⟩]
    concatenates_S20000x250_S20000x1000_S20000x250_S20000x255_S20000x1755_d1

/-! ## The graph normalisation (the same in the three layers) -/

/-- The weighted in-degree plus one of each node (%47): the edge weights scatter-added at the destinations
    onto zero, plus one. -/
def degTerm (dst : IVec S320000 32) (ea : FVec F S320000 .f32) : FVec F S20000 .f32 :=
  addf
    (Host.scatterAdd scatter_S20000_S320000x1_S320000_n_0_0_1
      (broadcastInDim S20000 ![] bcast_S_S20000 (constant S_ .f32 0x00000000#32 : FVec F S_ .f32))
      (broadcastInDim S320000x1 ![0] bcast_S320000_S320000x1_0 dst) ea)
    (broadcastInDim S20000 ![] bcast_S_S20000 (constant S_ .f32 0x3F800000#32 : FVec F S_ .f32))

/-- The inverse square root of the degree where it is positive, zero elsewhere (%51; the select is the call
    of @_where, whose scalar zero is converted, broadcast and selected). -/
def dinvTerm (dst : IVec S320000 32) (ea : FVec F S320000 .f32) : FVec F S20000 .f32 :=
  select
    (cmpf .ogt (degTerm dst ea) (broadcastInDim S20000 ![] bcast_S_S20000 (constant S_ .f32 0x00000000#32 : FVec F S_ .f32)))
    (Host.rsqrt (degTerm dst ea))
    (broadcastInDim S20000 ![] bcast_S_S20000 (id (constant S_ .f32 0x00000000#32 : FVec F S_ .f32)))

/-- An edge-end row as the E×1 gather index (%57, %65, %73): a negative index wrapped by the node count. -/
def wrapTerm (i : IVec S320000 32) : IVec S320000x1 32 :=
  broadcastInDim S320000x1 ![0] bcast_S320000_S320000x1_0
    (select (cmpi .slt i (broadcastInDim S320000 ![] bcast_S_S320000 (constantI S_ 32 0#32)))
      (addi i (broadcastInDim S320000 ![] bcast_S_S320000 (constantI S_ 32 20000#32))) i)

/-- The norm of each edge (%67): the source's inverse root degree times the weight times the destination's. -/
def normTerm (src dst : IVec S320000 32) (ea : FVec F S320000 .f32) : FVec F S320000 .f32 :=
  mulf
    (mulf (Host.gather gather_S20000_S320000x1_S320000_n_0_n_n_0_1_1 (dinvTerm dst ea) (wrapTerm src)) ea)
    (Host.gather gather_S20000_S320000x1_S320000_n_0_n_n_0_1_1 (dinvTerm dst ea) (wrapTerm dst))

/-! ## Layer 1 (width 512) -/

/-- The first layer's feature product (%42). -/
def mmTerm1 (h : FVec F S20000x1755 .f32) (W : FVec F S1755x512 .f32) : FVec F S20000x512 .f32 :=
  Host.dotGeneral dot_S20000x1755_S1755x512_S20000x512_1_0_0_1_n_n none h W

/-- The aggregate of layer 1 (%85): the source rows of `h1` scaled by the edge norm and scatter-added at the
    destinations onto zero, plus the self loop `h1` times the squared inverse root degree. -/
def aggTerm512 (h1 : FVec F S20000x512 .f32) (src dst : IVec S320000 32) (ea : FVec F S320000 .f32) : FVec F S20000x512 .f32 :=
  addf
    (Host.scatterAdd scatter_S20000x512_S320000x1_S320000x512_1_0_0_1
      (broadcastInDim S20000x512 ![] bcast_S_S20000x512 (constant S_ .f32 0x00000000#32 : FVec F S_ .f32))
      (broadcastInDim S320000x1 ![0] bcast_S320000_S320000x1_0 dst)
      (mulf (Host.gather gather_S20000x512_S320000x1_S320000x512_1_0_n_n_0_1_1512 h1 (wrapTerm src))
        (broadcastInDim S320000x512 ![0, 1] bcast_S320000x1_S320000x512_0_1
          (broadcastInDim S320000x1 ![0] bcast_S320000_S320000x1_0 (normTerm src dst ea)))))
    (mulf h1
      (broadcastInDim S20000x512 ![0, 1] bcast_S20000x1_S20000x512_0_1
        (broadcastInDim S20000x1 ![0] bcast_S20000_S20000x1_0 (mulf (dinvTerm dst ea) (dinvTerm dst ea)))))

/-- The bias row added to every node's row (%88). -/
def biasTerm512 (agg : FVec F S20000x512 .f32) (b : FVec F S512 .f32) : FVec F S20000x512 .f32 :=
  addf agg (broadcastInDim S20000x512 ![0, 1] bcast_S1x512_S20000x512_0_1 (broadcastInDim S1x512 ![1] bcast_S512_S1x512_1 b))

/-- The leaky ReLU of slope 0.01 (%89; the call of @leaky_relu, itself calling @_where_0): where the value is
    at least zero the value, elsewhere the slope (converted, broadcast) times the value. -/
def lreluTerm512 (y : FVec F S20000x512 .f32) : FVec F S20000x512 .f32 :=
  select
    (cmpf .oge y (broadcastInDim S20000x512 ![] bcast_S_S20000x512 (constant S_ .f32 0x00000000#32 : FVec F S_ .f32)))
    y
    (mulf (broadcastInDim S20000x512 ![] bcast_S_S20000x512 (id (constant S_ .f32 0x3C23D70A#32 : FVec F S_ .f32))) y)

/-- Bias and activation of layer 1 (%89 from %85 and %arg7). -/
def actTerm512 (agg : FVec F S20000x512 .f32) (b : FVec F S512 .f32) : FVec F S20000x512 .f32 :=
  lreluTerm512 (biasTerm512 agg b)

/-- Layer 1 whole (%89 from %41, %arg6, %arg7 and the graph). -/
def layerTerm1 (h : FVec F S20000x1755 .f32) (W : FVec F S1755x512 .f32) (b : FVec F S512 .f32) (src dst : IVec S320000 32)
    (ea : FVec F S320000 .f32) : FVec F S20000x512 .f32 :=
  actTerm512 (aggTerm512 (mmTerm1 h W) src dst ea) b

/-! ## Layer 2 (width 256) -/

/-- The second layer's feature product (%90). -/
def mmTerm2 (h : FVec F S20000x512 .f32) (W : FVec F S512x256 .f32) : FVec F S20000x256 .f32 :=
  Host.dotGeneral dot_S20000x512_S512x256_S20000x256_1_0_0_1_n_n none h W

/-- The aggregate of layer 2 (%133). -/
def aggTerm256 (h1 : FVec F S20000x256 .f32) (src dst : IVec S320000 32) (ea : FVec F S320000 .f32) : FVec F S20000x256 .f32 :=
  addf
    (Host.scatterAdd scatter_S20000x256_S320000x1_S320000x256_1_0_0_1
      (broadcastInDim S20000x256 ![] bcast_S_S20000x256 (constant S_ .f32 0x00000000#32 : FVec F S_ .f32))
      (broadcastInDim S320000x1 ![0] bcast_S320000_S320000x1_0 dst)
      (mulf (Host.gather gather_S20000x256_S320000x1_S320000x256_1_0_n_n_0_1_1256 h1 (wrapTerm src))
        (broadcastInDim S320000x256 ![0, 1] bcast_S320000x1_S320000x256_0_1
          (broadcastInDim S320000x1 ![0] bcast_S320000_S320000x1_0 (normTerm src dst ea)))))
    (mulf h1
      (broadcastInDim S20000x256 ![0, 1] bcast_S20000x1_S20000x256_0_1
        (broadcastInDim S20000x1 ![0] bcast_S20000_S20000x1_0 (mulf (dinvTerm dst ea) (dinvTerm dst ea)))))

/-- The bias row added to every node's row (%136). -/
def biasTerm256 (agg : FVec F S20000x256 .f32) (b : FVec F S256 .f32) : FVec F S20000x256 .f32 :=
  addf agg (broadcastInDim S20000x256 ![0, 1] bcast_S1x256_S20000x256_0_1 (broadcastInDim S1x256 ![1] bcast_S256_S1x256_1 b))

/-- The leaky ReLU of slope 0.01 (%137; the call of @leaky_relu_1, itself calling @_where_2). -/
def lreluTerm256 (y : FVec F S20000x256 .f32) : FVec F S20000x256 .f32 :=
  select
    (cmpf .oge y (broadcastInDim S20000x256 ![] bcast_S_S20000x256 (constant S_ .f32 0x00000000#32 : FVec F S_ .f32)))
    y
    (mulf (broadcastInDim S20000x256 ![] bcast_S_S20000x256 (id (constant S_ .f32 0x3C23D70A#32 : FVec F S_ .f32))) y)

/-- Bias and activation of layer 2 (%137 from %133 and %arg9). -/
def actTerm256 (agg : FVec F S20000x256 .f32) (b : FVec F S256 .f32) : FVec F S20000x256 .f32 :=
  lreluTerm256 (biasTerm256 agg b)

/-- Layer 2 whole (%137 from %89, %arg8, %arg9 and the graph). -/
def layerTerm2 (h : FVec F S20000x512 .f32) (W : FVec F S512x256 .f32) (b : FVec F S256 .f32) (src dst : IVec S320000 32)
    (ea : FVec F S320000 .f32) : FVec F S20000x256 .f32 :=
  actTerm256 (aggTerm256 (mmTerm2 h W) src dst ea) b

/-! ## Layer 3 (width 64) -/

/-- The third layer's feature product (%138). -/
def mmTerm3 (h : FVec F S20000x256 .f32) (W : FVec F S256x64 .f32) : FVec F S20000x64 .f32 :=
  Host.dotGeneral dot_S20000x256_S256x64_S20000x64_1_0_0_1_n_n none h W

/-- The aggregate of layer 3 (%181). -/
def aggTerm64 (h1 : FVec F S20000x64 .f32) (src dst : IVec S320000 32) (ea : FVec F S320000 .f32) : FVec F S20000x64 .f32 :=
  addf
    (Host.scatterAdd scatter_S20000x64_S320000x1_S320000x64_1_0_0_1
      (broadcastInDim S20000x64 ![] bcast_S_S20000x64 (constant S_ .f32 0x00000000#32 : FVec F S_ .f32))
      (broadcastInDim S320000x1 ![0] bcast_S320000_S320000x1_0 dst)
      (mulf (Host.gather gather_S20000x64_S320000x1_S320000x64_1_0_n_n_0_1_164 h1 (wrapTerm src))
        (broadcastInDim S320000x64 ![0, 1] bcast_S320000x1_S320000x64_0_1
          (broadcastInDim S320000x1 ![0] bcast_S320000_S320000x1_0 (normTerm src dst ea)))))
    (mulf h1
      (broadcastInDim S20000x64 ![0, 1] bcast_S20000x1_S20000x64_0_1
        (broadcastInDim S20000x1 ![0] bcast_S20000_S20000x1_0 (mulf (dinvTerm dst ea) (dinvTerm dst ea)))))

/-- The bias row added to every node's row (%184). -/
def biasTerm64 (agg : FVec F S20000x64 .f32) (b : FVec F S64 .f32) : FVec F S20000x64 .f32 :=
  addf agg (broadcastInDim S20000x64 ![0, 1] bcast_S1x64_S20000x64_0_1 (broadcastInDim S1x64 ![1] bcast_S64_S1x64_1 b))

/-- The leaky ReLU of slope 0.01 (%185; the call of @leaky_relu_3, itself calling @_where_4). -/
def lreluTerm64 (y : FVec F S20000x64 .f32) : FVec F S20000x64 .f32 :=
  select
    (cmpf .oge y (broadcastInDim S20000x64 ![] bcast_S_S20000x64 (constant S_ .f32 0x00000000#32 : FVec F S_ .f32)))
    y
    (mulf (broadcastInDim S20000x64 ![] bcast_S_S20000x64 (id (constant S_ .f32 0x3C23D70A#32 : FVec F S_ .f32))) y)

/-- Bias and activation of layer 3 (%185 from %181 and %arg11). -/
def actTerm64 (agg : FVec F S20000x64 .f32) (b : FVec F S64 .f32) : FVec F S20000x64 .f32 :=
  lreluTerm64 (biasTerm64 agg b)

/-- Layer 3 whole (%185 from %137, %arg10, %arg11 and the graph). -/
def layerTerm3 (h : FVec F S20000x256 .f32) (W : FVec F S256x64 .f32) (b : FVec F S64 .f32) (src dst : IVec S320000 32)
    (ea : FVec F S320000 .f32) : FVec F S20000x64 .f32 :=
  actTerm64 (aggTerm64 (mmTerm3 h W) src dst ea) b

/-! ## The output layer and the whole -/

/-- The final linear layer (%189): the product with the 64×3 matrix plus the bias row. -/
def outTerm (h : FVec F S20000x64 .f32) (Wp : FVec F S64x3 .f32) (bp : FVec F S3 .f32) : FVec F S20000x3 .f32 :=
  addf (Host.dotGeneral dot_S20000x64_S64x3_S20000x3_1_0_0_1_n_n none h Wp)
    (broadcastInDim S20000x3 ![0, 1] bcast_S1x3_S20000x3_0_1 (broadcastInDim S1x3 ![1] bcast_S3_S1x3_1 bp))

/-- The reference's result (%189) from its fourteen arguments. -/
def refTerm (x : FVec F S20000x1005 .f32) (ei : IVec S2x320000 32) (ea : FVec F S320000 .f32) (lt : FVec F S3x250 .f32)
    (rt : FVec F S11x250 .f32) (ct : FVec F S256x85 .f32) (W1 : FVec F S1755x512 .f32) (b1 : FVec F S512 .f32)
    (W2 : FVec F S512x256 .f32) (b2 : FVec F S256 .f32) (W3 : FVec F S256x64 .f32) (b3 : FVec F S64 .f32)
    (Wp : FVec F S64x3 .f32) (bp : FVec F S3 .f32) : FVec F S20000x3 .f32 :=
  outTerm
    (layerTerm3
      (layerTerm2
        (layerTerm1 (embedTerm x lt rt ct) W1 b1 (srcTerm ei) (dstTerm ei) ea)
        W2 b2 (srcTerm ei) (dstTerm ei) ea)
      W3 b3 (srcTerm ei) (dstTerm ei) ea)
    Wp bp

end Cert.ReferenceIdeal.Stages

end
-- ==== Proof.KernelStages.lean ====
/-
  The host stretches of the idealized kernel's @main, read as the reference's own stage terms. Between two pallas
  regions the kernel computes, with plain host operations, exactly what the reference computes there: the two rows
  of the edge list; per layer the weighted in-degree, its inverse square root, the edge norms, the scatter-added
  aggregate plus the self loop; and the bias row reshaped for the next region. Each lemma reads one buffer at a
  stretch's end as the corresponding term of the reference (the operations are the same, one for one) over the
  contents at the stretch's entry.
-/
import proofs.«102165_j72748156060190_1_alg».proof.Proof.Gen.KernelIdeal.Frame
import proofs.«102165_j72748156060190_1_alg».proof.Proof.RefStages
import proofs.«102165_j72748156060190_1_alg».proof.Proof.Gen.ReferenceIdeal

set_option maxRecDepth 16384

noncomputable section

namespace Cert.KernelIdeal.Gen

open Idealize.ShloMosaic Idealize.ShloMosaic.TcCoe Idealize.ShloMosaic.Tactic
open Idealize.SL Idealize.SL.Sem Idealize.ShloMosaic.StableHlo
open Cert.ReferenceIdeal (Stages.srcTerm Stages.dstTerm Stages.aggTerm512 Stages.aggTerm256 Stages.aggTerm64)

variable {F : FTy → Type} [FloatOps F]
variable (m : (ℓ : Loc nD τ sig) → Buf (Elt F) ℓ) (ρ : Dev nD → PrngReg) (c : Dev nD)

/-! ## The edge list's rows (the first stretch) -/

theorem W1_v1 : W1 m ρ c (Proc.devRef .tc main_v1) = Cert.ReferenceIdeal.Stages.srcTerm (m ((c : Thread nD τ).loc main_arg1)) := by
  show StableHlo.after hostOps0 (W0 m ρ c) (Proc.devRef .tc main_v1) = _
  after_results
  rfl

theorem W1_v3 : W1 m ρ c (Proc.devRef .tc main_v3) = Cert.ReferenceIdeal.Stages.dstTerm (m ((c : Thread nD τ).loc main_arg1)) := by
  show StableHlo.after hostOps0 (W0 m ρ c) (Proc.devRef .tc main_v3) = _
  after_results
  rfl

/-! ## Layer 1: the aggregate and the reshaped bias at region 2's entry -/

theorem W6_v48 : W6 m ρ c (Proc.devRef .tc main_v48)
    = Cert.ReferenceIdeal.Stages.aggTerm512 (W3 m ρ c (Proc.devRef .tc main_v5)) (W3 m ρ c (Proc.devRef .tc main_v1))
        (W3 m ρ c (Proc.devRef .tc main_v3)) (W3 m ρ c (Proc.devRef .tc main_arg2)) := by
  show StableHlo.after hostOps2_2 (StableHlo.after hostOps2_1 (StableHlo.after hostOps2 (W3 m ρ c))) (Proc.devRef .tc main_v48) = _
  after_results_simp
  rfl

theorem W6_v49 : W6 m ρ c (Proc.devRef .tc main_v49)
    = shapeCast S1x512 (W3 m ρ c (Proc.devRef .tc main_arg7)) Facts₀.shapeCasts_S512_S1x512 := by
  show StableHlo.after hostOps2_2 (StableHlo.after hostOps2_1 (StableHlo.after hostOps2 (W3 m ρ c))) (Proc.devRef .tc main_v49) = _
  after_results_simp
  rfl

/-! ## Layer 2 -/

theorem W11_v94 : W11 m ρ c (Proc.devRef .tc main_v94)
    = Cert.ReferenceIdeal.Stages.aggTerm256 (W8 m ρ c (Proc.devRef .tc main_v51)) (W8 m ρ c (Proc.devRef .tc main_v1))
        (W8 m ρ c (Proc.devRef .tc main_v3)) (W8 m ρ c (Proc.devRef .tc main_arg2)) := by
  show StableHlo.after hostOps4_2 (StableHlo.after hostOps4_1 (StableHlo.after hostOps4 (W8 m ρ c))) (Proc.devRef .tc main_v94) = _
  after_results_simp
  rfl

theorem W11_v95 : W11 m ρ c (Proc.devRef .tc main_v95)
    = shapeCast S1x256 (W8 m ρ c (Proc.devRef .tc main_arg9)) Facts₀.shapeCasts_S256_S1x256 := by
  show StableHlo.after hostOps4_2 (StableHlo.after hostOps4_1 (StableHlo.after hostOps4 (W8 m ρ c))) (Proc.devRef .tc main_v95) = _
  after_results_simp
  rfl

/-! ## Layer 3 -/

theorem W16_v140 : W16 m ρ c (Proc.devRef .tc main_v140)
    = Cert.ReferenceIdeal.Stages.aggTerm64 (W13 m ρ c (Proc.devRef .tc main_v97)) (W13 m ρ c (Proc.devRef .tc main_v1))
        (W13 m ρ c (Proc.devRef .tc main_v3)) (W13 m ρ c (Proc.devRef .tc main_arg2)) := by
  show StableHlo.after hostOps6_2 (StableHlo.after hostOps6_1 (StableHlo.after hostOps6 (W13 m ρ c))) (Proc.devRef .tc main_v140) = _
  after_results_simp
  rfl

theorem W16_v141 : W16 m ρ c (Proc.devRef .tc main_v141)
    = shapeCast S1x64 (W13 m ρ c (Proc.devRef .tc main_arg11)) Facts₀.shapeCasts_S64_S1x64 := by
  show StableHlo.after hostOps6_2 (StableHlo.after hostOps6_1 (StableHlo.after hostOps6 (W13 m ρ c))) (Proc.devRef .tc main_v141) = _
  after_results_simp
  rfl

/-! ## The head's bias row (the last stretch) -/

theorem W18_v143 : W18 m ρ c (Proc.devRef .tc main_v143)
    = shapeCast S1x3 (W17 m ρ c (Proc.devRef .tc main_arg13)) Facts₀.shapeCasts_S3_S1x3 := by
  show StableHlo.after hostOps7 (W17 m ρ c) (Proc.devRef .tc main_v143) = _
  after_results
  rfl

end Cert.KernelIdeal.Gen

end
-- ==== Proof.RegionEmbedLib.lean ====
/-
  The embedding region's mathematics over abstract row counts, with no program in sight.

  A node row x[p, :] of 1005 entries is [layer | 1000 features | relative size | three colours].
  Three index words are read off it (liW, riW, ciW: a float converted to a signed 32-bit word,
  toward zero and clamped), each selects a row of a table through a ONE-HOT row (hot: lane number
  k compared, as a 32-bit word, with the index word; the bit widened and read as a float) multiplied
  into the table, and the embedded row of 1755 entries is
  [layer row (250) | features (1000) | size row (250) | colour rows (3 x 85)] (embedAt, embedRow).

  Here: the product of a one-hot row with a table is the selected table row, or the zero row when the
  word selects no lane (sum_hot_mul; over the extended reals 0 * t = 0 for every t, so nothing
  is asked of the table); the embedded row read segment by segment (embedAt_layer, embedAt_feat,
  embedAt_size, embedAt_colour) and its collapsed forms under range hypotheses; that the embedded
  row depends only on the node's own row (embedAt_congr); and the layout operations the region uses,
  read at an index given by coordinates (a column broadcast along the lanes, one piece of a
  concatenation along the lanes, a plain matrix product into the zero accumulator).
-/
import Idealize.ShloMosaic.Lib.StackMember
import Idealize.ShloMosaic.Lib.ValueLayout

noncomputable section

open Idealize.ShloMosaic Idealize.ShloMosaic.TcCoe Idealize.SL.Sem
open Idealize.ShloMosaic.ValueIdx
open scoped BigOperators

namespace Cert.KernelIdeal.EmbedVal

/-! ## Layout operations at an index given by coordinates -/

/-- A column [a, 1] broadcast along the lanes to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A plain product [m, k] x [k, n] accumulated into the zero splat, read at (a, b): the sum over the
    contracted coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (congrFun (matmul_zero_eq_dotGeneral (DotDims.plain m k n) prec A B) (ix2 a b)).trans
    (StackMember.dotGeneral_plain_apply prec A B a b)

/-- One piece of a concatenation of matrices along the lanes, read at (p, q): piece k, of w lanes, whose
    span starts at pre (the lanes of the pieces before it), at (p, j) with pre + j = q. -/
theorem concatenate_lanes_apply {α : Type} {n m : Nat} (xs : List ((s : Shape) × (s.Idx → α)))
    (h : Shape.Concatenates (xs.map (·.1)) ⟨2, ![n, m]⟩ (1 : Fin 2)) (p : Fin n) (q : Fin m)
    (k : Nat) (hk : k < xs.length) (w : Nat) (x₁ : (⟨2, ![n, w]⟩ : Shape).Idx → α)
    (hxk : xs[k] = ⟨⟨2, ![n, w]⟩, x₁⟩) (pre : Nat)
    (hpre : (((xs.take k).map (·.1)).map fun s : Shape =>
      if h : s.rank = 2 then s.size ((1 : Fin 2).cast h.symm) else 0).sum = pre)
    (j : Fin w) (ha : pre + j.val = q.val) :
    concatenate ⟨2, ![n, m]⟩ (1 : Fin 2) xs h (ix2 p q) = x₁ (ix2 p j) := by
  refine concatenate_apply_piece (t := ⟨2, ![n, m]⟩) (1 : Fin 2) xs h (ix2 p q) k hk ⟨2, ![n, w]⟩ x₁ hxk rfl pre hpre
    (ix2 p j) (fun b hb => ?_) ha
  match b with
  | ⟨0, _⟩ => rfl
  | ⟨1, _⟩ => exact absurd rfl hb

/-! ## The one-hot row -/

/-- One entry of a one-hot row: lane number k compared, as a 32-bit word, with the index word w; the bit
    widened to 32 bits and read, signed, as a float. -/
def hot (k : Nat) (w : BitVec 32) : EReal :=
  FloatOps.sitofp (F := Ideal) .f32 ((IntOp.cmpi .eq (BitVec.ofNat 32 k) w).setWidth 32)

/-- It is 1 on the lane whose number is the word and 0 elsewhere. -/
theorem hot_eq (k : Nat) (w : BitVec 32) : hot k w = if BitVec.ofNat 32 k = w then 1 else 0 := by
  unfold hot
  show ((((IntOp.cmpi .eq (BitVec.ofNat 32 k) w).setWidth 32).toInt : ℝ) : EReal) = _
  by_cases h : BitVec.ofNat 32 k = w
  · rw [if_pos h]
    have e : IntOp.cmpi .eq (BitVec.ofNat 32 k) w = 1#1 := by simp [IntOp.cmpi, h]
    rw [e]
    have e1 : ((1#1 : BitVec 1).setWidth 32).toInt = 1 := by decide
    rw [e1]; simp
  · rw [if_neg h]
    have e : IntOp.cmpi .eq (BitVec.ofNat 32 k) w = 0#1 := by
      show BitVec.ofBool (BitVec.ofNat 32 k == w) = 0#1
      rw [beq_eq_false_iff_ne.mpr h]; rfl
    rw [e]
    have e1 : ((0#1 : BitVec 1).setWidth 32).toInt = 0 := by decide
    rw [e1]; simp

/-- A lane number below 2 ^ 32 is the word exactly when it is the word's value. -/
theorem ofNat_eq_iff {k : Nat} (hk : k < 2 ^ 32) (w : BitVec 32) : BitVec.ofNat 32 k = w ↔ k = w.toNat := by
  constructor
  · intro h; rw [← h, BitVec.toNat_ofNat, Nat.mod_eq_of_lt hk]
  · intro h; rw [h, BitVec.ofNat_toNat, BitVec.setWidth_eq]

/-- A one-hot row of n lanes against a column T: the entry the word selects, or 0 when it selects none. -/
theorem sum_hot_mul {n : Nat} (hn : n ≤ 2 ^ 32) (w : BitVec 32) (T : Fin n → EReal) :
    ∑ k : Fin n, hot k.val w * T k = if h : w.toNat < n then T ⟨w.toNat, h⟩ else 0 := by
  have hk : ∀ k : Fin n, hot k.val w = if k.val = w.toNat then 1 else 0 := fun k => by
    rw [hot_eq]
    exact if_congr (ofNat_eq_iff (Nat.lt_of_lt_of_le k.isLt hn) w) rfl rfl
  by_cases h : w.toNat < n
  · rw [dif_pos h, Finset.sum_eq_single (⟨w.toNat, h⟩ : Fin n)]
    · rw [hk, if_pos rfl, one_mul]
    · intro b _ hb
      rw [hk, if_neg (fun e => hb (Fin.ext e)), zero_mul]
    · intro hb; exact absurd (Finset.mem_univ _) hb
  · rw [dif_neg h]
    refine Finset.sum_eq_zero fun k _ => ?_
    rw [hk, if_neg (fun e : k.val = w.toNat => h (e ▸ k.isLt)), zero_mul]

/-- The collapsed form: a word in range selects its row. -/
theorem sum_hot_mul_of_lt {n : Nat} (hn : n ≤ 2 ^ 32) (w : BitVec 32) (T : Fin n → EReal) (h : w.toNat < n) :
    ∑ k : Fin n, hot k.val w * T k = T ⟨w.toNat, h⟩ := by
  rw [sum_hot_mul hn, dif_pos h]

/-- A word that, read signed, lies in [0, n) has its unsigned value there too. -/
theorem toNat_lt_of_toInt {w : BitVec 32} {n : Nat} (h0 : 0 ≤ w.toInt) (h1 : w.toInt < (n : Int)) : w.toNat < n := by
  rw [BitVec.toInt_eq_toNat_cond] at h0 h1
  split at h0 <;> omega

/-! ## The index words of a node row -/

section Words
variable {N : Nat} (X : (⟨2, ![N, 1005]⟩ : Shape).Idx → EReal)

/-- The layer index of node p: its first entry less one, converted. -/
def liW (p : Fin N) : BitVec 32 :=
  FloatOps.fptosi (F := Ideal) (φ := .f32) 32 (X (ix2 p (0 : Fin 1005)) - Ideal.ofBits .f32 0x3F800000#32)

/-- The relative-size index of node p: the absolute value of entry 1001 times ten, rounded to nearest even, converted. -/
def riW (p : Fin N) : BitVec 32 :=
  FloatOps.fptosi (F := Ideal) (φ := .f32) 32
    (FloatOps.roundeven (F := Ideal) (φ := .f32)
      (FloatOps.absf (F := Ideal) (φ := .f32) (X (ix2 p (1001 : Fin 1005))) * Ideal.ofBits .f32 0x41200000#32))

/-- The colour index a of node p: entry 1002 + a, converted. -/
def ciW (p : Fin N) (a : Fin 3) : BitVec 32 :=
  FloatOps.fptosi (F := Ideal) (φ := .f32) 32 (X (ix2 p (⟨1002 + a.val, by have := a.isLt; omega⟩ : Fin 1005)))

end Words

/-! ## The region's one-hot rows and index words as its operations spell them -/

/-- A one-hot matrix as the region builds it — the lane numbers compared with a column of index words broadcast
    along the lanes, the bit widened, converted and narrowed — read at (p, c): the one-hot entry of lane c against
    row p's word. -/
theorem onehot_apply {a b : Nat} (col : IVec ⟨2, ![a, 1]⟩ 32) (hb : (⟨2, ![a, 1]⟩ : Shape).Broadcasts ⟨2, ![a, b]⟩)
    (hi : (⟨2, ![a, b]⟩ : Shape).Iotas .tc 32 [(1 : Fin 2)]) (h1 : 1 < 32) (h2 : FTy.bits .bf16 < FTy.bits .f32)
    (p : Fin a) (c : Fin b) :
    (truncf (F := Ideal) .bf16 (sitofp .f32 (extui 32 (cmpi .eq (iota .tc ⟨2, ![a, b]⟩ 32 [(1 : Fin 2)] hi)
      (broadcastTo ⟨2, ![a, b]⟩ col hb)) h1)) h2) (ix2 p c) = hot c.val (col (ix2 p (0 : Fin 1))) := by
  show FloatOps.sitofp (F := Ideal) .f32 ((IntOp.cmpi .eq (iota .tc ⟨2, ![a, b]⟩ 32 [(1 : Fin 2)] hi (ix2 p c))
    (broadcastTo ⟨2, ![a, b]⟩ col hb (ix2 p c))).setWidth 32) = _
  rw [iota_single_apply, broadcastTo_a1_ab_apply]
  rfl

section WordsOfSlices
variable {N : Nat} (X : (⟨2, ![N, 1005]⟩ : Shape).Idx → EReal)

/-- The layer index column: column 0 less one, converted. -/
theorem liW_of_slice (h : (⟨2, ![N, 1005]⟩ : Shape).Slices ![0, 0] ⟨2, ![N, 1]⟩) (p : Fin N) :
    (fptosi (F := Ideal) (φ := .f32) 32 (subf (extractStridedSlice ⟨2, ![N, 1]⟩ ![0, 0] X h)
      (broadcast ⟨2, ![N, 1]⟩ (Scalar.ofBits (F := Ideal) .f32 0x3F800000#32)))) (ix2 p (0 : Fin 1)) = liW X p := by
  show FloatOps.fptosi (F := Ideal) (φ := .f32) 32
    (extractStridedSlice ⟨2, ![N, 1]⟩ ![0, 0] X h (ix2 p (0 : Fin 1)) - Ideal.ofBits .f32 0x3F800000#32) = _
  rw [slice2_axis1_apply 0 X h p (0 : Fin 1) (0 : Fin 1005) rfl]
  rfl

/-- The size index column: the absolute value of column 1001 times ten, rounded, converted. -/
theorem riW_of_slice (h : (⟨2, ![N, 1005]⟩ : Shape).Slices ![0, 1001] ⟨2, ![N, 1]⟩) (p : Fin N) :
    (fptosi (F := Ideal) (φ := .f32) 32 (roundeven (mulf (absf (extractStridedSlice ⟨2, ![N, 1]⟩ ![0, 1001] X h))
      (broadcast ⟨2, ![N, 1]⟩ (Scalar.ofBits (F := Ideal) .f32 0x41200000#32))))) (ix2 p (0 : Fin 1)) = riW X p := by
  show FloatOps.fptosi (F := Ideal) (φ := .f32) 32 (FloatOps.roundeven (F := Ideal) (φ := .f32)
    (FloatOps.absf (F := Ideal) (φ := .f32) (extractStridedSlice ⟨2, ![N, 1]⟩ ![0, 1001] X h (ix2 p (0 : Fin 1)))
      * Ideal.ofBits .f32 0x41200000#32)) = _
  rw [slice2_axis1_apply 1001 X h p (0 : Fin 1) (1001 : Fin 1005) rfl]
  rfl

/-- A colour index column: column a of the converted columns 1002 ... 1004. -/
theorem ciW_of_slice (h : (⟨2, ![N, 1005]⟩ : Shape).Slices ![0, 1002] ⟨2, ![N, 3]⟩) (a : Fin 3) (o : Nat) (ho : o = a.val)
    (h' : (⟨2, ![N, 3]⟩ : Shape).Slices ![0, o] ⟨2, ![N, 1]⟩) (p : Fin N) :
    (extractStridedSlice ⟨2, ![N, 1]⟩ ![0, o] (fptosi (F := Ideal) (φ := .f32) 32
      (extractStridedSlice ⟨2, ![N, 3]⟩ ![0, 1002] X h)) h') (ix2 p (0 : Fin 1)) = ciW X p a := by
  subst ho
  rw [slice2_axis1_apply a.val _ h' p (0 : Fin 1) a rfl]
  show FloatOps.fptosi (F := Ideal) (φ := .f32) 32 (extractStridedSlice ⟨2, ![N, 3]⟩ ![0, 1002] X h (ix2 p a)) = _
  rw [slice2_axis1_apply 1002 X h p a (⟨1002 + a.val, by have := a.isLt; omega⟩ : Fin 1005) rfl]
  rfl

end WordsOfSlices

/-! ## The embedded row -/

section Row
variable {N : Nat} (X : (⟨2, ![N, 1005]⟩ : Shape).Idx → EReal)
  (LT : (⟨2, ![3, 250]⟩ : Shape).Idx → EReal) (RT : (⟨2, ![11, 250]⟩ : Shape).Idx → EReal)
  (CT : (⟨2, ![256, 85]⟩ : Shape).Idx → EReal)

/-- Entry q of node p's embedded row. -/
def embedAt (p : Fin N) (q : Fin 1755) : EReal :=
  if h : q.val < 250 then ∑ k : Fin 3, hot k.val (liW X p) * LT (ix2 k (⟨q.val, h⟩ : Fin 250))
  else if h1 : q.val < 1250 then X (ix2 p (⟨1 + (q.val - 250), by omega⟩ : Fin 1005))
  else if h2 : q.val < 1500 then ∑ k : Fin 11, hot k.val (riW X p) * RT (ix2 k (⟨q.val - 1250, by omega⟩ : Fin 250))
  else ∑ k : Fin 256, hot k.val (ciW X p (⟨(q.val - 1500) / 85, by have := q.isLt; omega⟩ : Fin 3))
        * CT (ix2 k (⟨(q.val - 1500) % 85, Nat.mod_lt _ (by decide)⟩ : Fin 85))

/-- The embedded array, index by index. -/
def embedRow : (⟨2, ![N, 1755]⟩ : Shape).Idx → EReal := fun i => embedAt X LT RT CT (i 0) (i 1)

theorem embedRow_ix2 (p : Fin N) (q : Fin 1755) : embedRow X LT RT CT (ix2 p q) = embedAt X LT RT CT p q := rfl

/-- Lanes 0 ... 249: the layer table against the one-hot row of the layer index. -/
theorem embedAt_layer (p : Fin N) (q : Fin 1755) (j : Fin 250) (hq : q.val = j.val) :
    embedAt X LT RT CT p q = ∑ k : Fin 3, hot k.val (liW X p) * LT (ix2 k j) := by
  have h : q.val < 250 := by have := j.isLt; omega
  unfold embedAt
  rw [dif_pos h]
  have e : (⟨q.val, h⟩ : Fin 250) = j := Fin.ext hq
  rw [e]

/-- Lanes 250 ... 1249: the node's features, entries 1 ... 1000 of its row. -/
theorem embedAt_feat (p : Fin N) (q : Fin 1755) (j : Fin 1000) (hq : q.val = 250 + j.val) :
    embedAt X LT RT CT p q = X (ix2 p (⟨1 + j.val, by have := j.isLt; omega⟩ : Fin 1005)) := by
  have h : ¬ q.val < 250 := by omega
  have h1 : q.val < 1250 := by have := j.isLt; omega
  unfold embedAt
  rw [dif_neg h, dif_pos h1]
  exact congrArg (fun z => X (ix2 p z)) (Fin.ext (by show 1 + (q.val - 250) = 1 + j.val; omega))

/-- Lanes 1250 ... 1499: the size table against the one-hot row of the size index. -/
theorem embedAt_size (p : Fin N) (q : Fin 1755) (j : Fin 250) (hq : q.val = 1250 + j.val) :
    embedAt X LT RT CT p q = ∑ k : Fin 11, hot k.val (riW X p) * RT (ix2 k j) := by
  have h : ¬ q.val < 250 := by omega
  have h1 : ¬ q.val < 1250 := by omega
  have h2 : q.val < 1500 := by have := j.isLt; omega
  unfold embedAt
  rw [dif_neg h, dif_neg h1, dif_pos h2]
  have e : (⟨q.val - 1250, by omega⟩ : Fin 250) = j := Fin.ext (by show q.val - 1250 = j.val; omega)
  rw [e]

/-- Lanes 1500 + 85 a ... 1500 + 85 a + 84: the colour table against the one-hot row of colour index a. -/
theorem embedAt_colour (p : Fin N) (q : Fin 1755) (a : Fin 3) (j : Fin 85) (hq : q.val = 1500 + 85 * a.val + j.val) :
    embedAt X LT RT CT p q = ∑ k : Fin 256, hot k.val (ciW X p a) * CT (ix2 k j) := by
  have h : ¬ q.val < 250 := by omega
  have h1 : ¬ q.val < 1250 := by omega
  have h2 : ¬ q.val < 1500 := by omega
  have hj := j.isLt
  have ha := a.isLt
  unfold embedAt
  rw [dif_neg h, dif_neg h1, dif_neg h2]
  have e1 : (⟨(q.val - 1500) / 85, by have := q.isLt; omega⟩ : Fin 3) = a := Fin.ext (by show (q.val - 1500) / 85 = a.val; omega)
  have e2 : (⟨(q.val - 1500) % 85, Nat.mod_lt _ (by decide)⟩ : Fin 85) = j := Fin.ext (by show (q.val - 1500) % 85 = j.val; omega)
  rw [e1, e2]

/-! ### The collapsed forms: an index word in range selects its table row -/

theorem embedAt_layer_of_lt (p : Fin N) (q : Fin 1755) (j : Fin 250) (hq : q.val = j.val) (hr : (liW X p).toNat < 3) :
    embedAt X LT RT CT p q = LT (ix2 (⟨(liW X p).toNat, hr⟩ : Fin 3) j) := by
  rw [embedAt_layer X LT RT CT p q j hq]
  exact sum_hot_mul_of_lt (by decide) (liW X p) (fun k : Fin 3 => LT (ix2 k j)) hr

theorem embedAt_size_of_lt (p : Fin N) (q : Fin 1755) (j : Fin 250) (hq : q.val = 1250 + j.val) (hr : (riW X p).toNat < 11) :
    embedAt X LT RT CT p q = RT (ix2 (⟨(riW X p).toNat, hr⟩ : Fin 11) j) := by
  rw [embedAt_size X LT RT CT p q j hq]
  exact sum_hot_mul_of_lt (by decide) (riW X p) (fun k : Fin 11 => RT (ix2 k j)) hr

theorem embedAt_colour_of_lt (p : Fin N) (q : Fin 1755) (a : Fin 3) (j : Fin 85) (hq : q.val = 1500 + 85 * a.val + j.val)
    (hr : (ciW X p a).toNat < 256) :
    embedAt X LT RT CT p q = CT (ix2 (⟨(ciW X p a).toNat, hr⟩ : Fin 256) j) := by
  rw [embedAt_colour X LT RT CT p q a j hq]
  exact sum_hot_mul_of_lt (by decide) (ciW X p a) (fun k : Fin 256 => CT (ix2 k j)) hr

end Row

/-! ## The embedded row depends only on the node's own row -/

theorem embedAt_congr {N N' : Nat} (X : (⟨2, ![N, 1005]⟩ : Shape).Idx → EReal) (X' : (⟨2, ![N', 1005]⟩ : Shape).Idx → EReal)
    (LT : (⟨2, ![3, 250]⟩ : Shape).Idx → EReal) (RT : (⟨2, ![11, 250]⟩ : Shape).Idx → EReal)
    (CT : (⟨2, ![256, 85]⟩ : Shape).Idx → EReal) (p : Fin N) (p' : Fin N')
    (hX : ∀ z : Fin 1005, X (ix2 p z) = X' (ix2 p' z)) (q : Fin 1755) :
    embedAt X LT RT CT p q = embedAt X' LT RT CT p' q := by
  have hl : liW X p = liW X' p' := by unfold liW; rw [hX]
  have hr : riW X p = riW X' p' := by unfold riW; rw [hX]
  have hc : ∀ a, ciW X p a = ciW X' p' a := fun a => by unfold ciW; rw [hX]
  unfold embedAt
  simp only [hl, hr, hc, hX]

end Cert.KernelIdeal.EmbedVal

end
-- ==== Proof.LibGatherRows.lean ====
/-
  A gather of whole rows, read at an index. For a table x : [N, D] and one row number per result row,
  idx : [R, 1], the gather with one offset axis (the result's axis 1), the table's axis 0 collapsed and named by
  the start index, and slices [1, D], produces the [R, D] array whose row t is the table's row idx[t, 0]: the
  start index is read as a signed integer and clamped into [0, N − 1], and the column is the result's own column.
  The same with one more batch axis: idx : [R, A, 1] and result [R, A, D], row (t, a) being the table's row
  idx[t, a, 0].
-/
import Idealize.ShloMosaic.Lib.ValueIdx

noncomputable section

namespace Idealize.ShloMosaic.ValueIdx

open Idealize.ShloMosaic

section Rows
variable {α : Type}

/-- The dimension numbers of a row gather: operand [N, D], start indices [R, 1], result [R, D]. -/
abbrev rowsDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices index [t, 0] of result index (t, j). -/
abbrev rowsIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- The row gather at (t, j): the table at row idx[t, 0] (signed, clamped into [0, N − 1]) and column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowsDims N D R wf) x idx y
      = x (ix2 ⟨min (idx (rowsIdx y)).toInt.toNat (N - 1), by omega⟩ ⟨(y 1).val, idx2_lt1 y⟩) := by
  unfold Host.gather
  congr 1
  funext a
  refine Fin.ext ?_
  show (rowsDims N D R wf).start y idx a + (rowsDims N D R wf).batchCoord y a + (rowsDims N D R wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowsDims N D R wf).startIndexMap from List.mem_singleton.mpr rfl)]
    have hsi : (rowsDims N D R wf).siIdx y ⟨List.idxOf (⟨0, by decide⟩ : Fin 2) (rowsDims N D R wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  | ⟨1, _⟩ =>
    unfold GatherDims.start
    rw [dif_neg (show (⟨1, by decide⟩ : Fin 2) ∉ (rowsDims N D R wf).startIndexMap from
      fun h => absurd (congrArg Fin.val (List.mem_singleton.mp h)) Nat.one_ne_zero)]
    simp only [Nat.zero_add]
    rfl

end Rows

section Rows3
variable {α : Type}

/-- The dimension numbers of a row gather with two batch axes: operand [N, D], start indices [R, A, 1], result
    [R, A, D]. -/
abbrev rows3Dims (N D R A : Nat) (wf : GatherDims.WF ⟨2, ![N, D]⟩ ⟨3, ![R, A, 1]⟩ ⟨3, ![R, A, D]⟩ [2] [0] [] [0] [] 2 ![1, D]) :
    GatherDims ⟨2, ![N, D]⟩ ⟨3, ![R, A, 1]⟩ ⟨3, ![R, A, D]⟩ where
  offsetDims := [2]
  collapsedSliceDims := [0]
  operandBatchingDims := []
  startIndicesBatchingDims := []
  startIndexMap := [0]
  indexVectorDim := 2
  sliceSizes := ![1, D]
  wf := wf

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The start-indices index [t, a, 0] of result index (t, a, j). -/
abbrev rows3Idx {R A D : Nat} (y : (⟨3, ![R, A, D]⟩ : Shape).Idx) : (⟨3, ![R, A, 1]⟩ : Shape).Idx :=
  fun b => match b with | ⟨0, _⟩ => ⟨(y 0).val, idx3_lt0 y⟩ | ⟨1, _⟩ => ⟨(y 1).val, idx3_lt1 y⟩ | ⟨2, _⟩ => ⟨0, Nat.one_pos⟩

/-- The row gather at (t, a, j): the table at row idx[t, a, 0] (signed, clamped into [0, N − 1]) and column j. -/
theorem gather_rows3_apply {N D R A w : Nat} (hN : 0 < N)
    (wf : GatherDims.WF ⟨2, ![N, D]⟩ ⟨3, ![R, A, 1]⟩ ⟨3, ![R, A, D]⟩ [2] [0] [] [0] [] 2 ![1, D])
    (x : (⟨2, ![N, D]⟩ : Shape).Idx → α) (idx : IVec ⟨3, ![R, A, 1]⟩ w) (y : (⟨3, ![R, A, D]⟩ : Shape).Idx) :
    Host.gather (rows3Dims N D R A wf) x idx y
      = x (ix2 ⟨min (idx (rows3Idx y)).toInt.toNat (N - 1), by omega⟩ ⟨(y 2).val, idx3_lt2 y⟩) := by
  unfold Host.gather
  congr 1
  funext a
  refine Fin.ext ?_
  show (rows3Dims N D R A wf).start y idx a + (rows3Dims N D R A wf).batchCoord y a + (rows3Dims N D R A wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rows3Dims N D R A wf).startIndexMap from List.mem_singleton.mpr rfl)]
    have hsi : (rows3Dims N D R A wf).siIdx y ⟨List.idxOf (⟨0, by decide⟩ : Fin 2) (rows3Dims N D R A wf).startIndexMap,
        List.idxOf_lt_length_iff.2 (List.mem_singleton.mpr rfl)⟩ = rows3Idx y := by
      funext b; refine Fin.ext ?_
      match b with
      | ⟨0, _⟩ => rfl
      | ⟨1, _⟩ => rfl
      | ⟨2, _⟩ => rfl
    rw [hsi]
    rfl
  | ⟨1, _⟩ =>
    unfold GatherDims.start
    rw [dif_neg (show (⟨1, by decide⟩ : Fin 2) ∉ (rows3Dims N D R A wf).startIndexMap from
      fun h => absurd (congrArg Fin.val (List.mem_singleton.mp h)) Nat.one_ne_zero)]
    simp only [Nat.zero_add]
    rfl

end Rows3

/-! ## Looking a row up by a signed word in range

jnp's indexing first wraps a negative index by the table's height, select (i < 0) (i + n) i: for an index that is
not negative this is the index itself. The gather then clamps the start index, read as a signed integer, into
[0, N − 1]: for a word w with 0 ≤ w (signed) and w < N the clamped start is w itself. -/

/-- A signed word that is not negative is not below zero in the signed order. -/
theorem cmpi_slt_zero_of_nonneg (w : BitVec 32) (h : 0 ≤ w.toInt) : IntOp.cmpi .slt w (0#32) = 0#1 := by
  unfold IntOp.cmpi
  have : w.slt (0#32) = false := by
    simp only [BitVec.slt, BitVec.toInt_zero, decide_eq_false_iff_not, not_lt]
    exact h
  simp [this]

/-- The negative-index wrap leaves a non-negative index alone. -/
theorem wrap_of_nonneg {α : Type} (w : BitVec 32) (h : 0 ≤ w.toInt) (a b : α) :
    Scalar.select (IntOp.cmpi .slt w (0#32)) a b = b := by
  rw [cmpi_slt_zero_of_nonneg w h]; exact select_zero a b

/-- For a signed word in [0, N) the clamp of a gather's start index is the word's own value. -/
theorem clamp_of_range (w : BitVec 32) (N : Nat) (h0 : 0 ≤ w.toInt) (hlt : w.toNat < N) :
    min w.toInt.toNat (N - 1) = w.toNat := by
  have e : w.toInt.toNat = w.toNat := by
    have := BitVec.toInt_eq_toNat_cond w
    split at this <;> omega
  rw [e]; omega

section
variable {α : Type}

/-- A row gather whose start index at row t is a signed word in [0, N) reads that row of the table. -/
theorem gather_rows_of_word {N D R : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ 32) (y : (⟨2, ![R, D]⟩ : Shape).Idx)
    (w : BitVec 32) (hw : idx (rowsIdx y) = w) (h0 : 0 ≤ w.toInt) (hlt : w.toNat < N) :
    Host.gather (rowsDims N D R wf) x idx y = x (ix2 ⟨w.toNat, hlt⟩ ⟨(y 1).val, idx2_lt1 y⟩) := by
  rw [gather_rows_apply hN wf x idx y]
  refine congrArg x ?_
  refine congrArg (fun r => ix2 r (⟨(y 1).val, idx2_lt1 y⟩ : Fin D)) (Fin.ext ?_)
  show min (idx (rowsIdx y)).toInt.toNat (N - 1) = w.toNat
  rw [hw]; exact clamp_of_range w N h0 hlt

/-- The same with two batch axes. -/
theorem gather_rows3_of_word {N D R A : Nat} (hN : 0 < N)
    (wf : GatherDims.WF ⟨2, ![N, D]⟩ ⟨3, ![R, A, 1]⟩ ⟨3, ![R, A, D]⟩ [2] [0] [] [0] [] 2 ![1, D])
    (x : (⟨2, ![N, D]⟩ : Shape).Idx → α) (idx : IVec ⟨3, ![R, A, 1]⟩ 32) (y : (⟨3, ![R, A, D]⟩ : Shape).Idx)
    (w : BitVec 32) (hw : idx (rows3Idx y) = w) (h0 : 0 ≤ w.toInt) (hlt : w.toNat < N) :
    Host.gather (rows3Dims N D R A wf) x idx y = x (ix2 ⟨w.toNat, hlt⟩ ⟨(y 2).val, idx3_lt2 y⟩) := by
  rw [gather_rows3_apply hN wf x idx y]
  refine congrArg x ?_
  refine congrArg (fun r => ix2 r (⟨(y 2).val, idx3_lt2 y⟩ : Fin D)) (Fin.ext ?_)
  show min (idx (rows3Idx y)).toInt.toNat (N - 1) = w.toNat
  rw [hw]; exact clamp_of_range w N h0 hlt

end

end Idealize.ShloMosaic.ValueIdx

end
-- ==== Proof.RefEmbedIdx.lean ====
/-
  The reference's embedding, read index by index. The reference looks each node's three kinds of table rows up
  with gathers (after wrapping a negative index by the table's height, and with the gather's own clamp) and lays
  [layer row | features | size row | three colour rows] side by side. When every computed index lies inside its
  table — 0 ≤ li < 3, 0 ≤ ri < 11, 0 ≤ ci < 256 as signed words — the wrap and the clamp do nothing, each gather
  reads the row the index names, and that row is also what a one-hot row multiplied into the table gives: the
  reference's embedded array is the array whose entry (p, q) is the one written with one-hot sums.
-/
import proofs.«102165_j72748156060190_1_alg».proof.Proof.RefStages
import proofs.«102165_j72748156060190_1_alg».proof.Proof.RegionEmbedLib
import proofs.«102165_j72748156060190_1_alg».proof.Proof.LibGatherRows

set_option maxRecDepth 16384

noncomputable section

namespace Cert.ReferenceIdeal.EmbedIdx

open Cert.ReferenceIdeal Cert.ReferenceIdeal.Facts₀ Cert.ReferenceIdeal.Facts Cert.ReferenceIdeal.Stages
open Cert.KernelIdeal.EmbedVal
open Idealize.ShloMosaic Idealize.ShloMosaic.ValueIdx
open scoped BigOperators

variable [Cert.ReferenceIdeal.Facts]
variable (x : FVec Ideal S20000x1005 .f32) (lt : FVec Ideal S3x250 .f32) (rt : FVec Ideal S11x250 .f32) (ct : FVec Ideal S256x85 .f32)

/-- The one index of a rank-0 array. -/
def i0 : S_.Idx := fun d => d.elim0

/-! ## The three index words, as the reference's own terms compute them -/

/-- Column c of the node features as a length-N vector (slice, then reshape), at node p. -/
theorem col_at (c : Nat) (hc : c < 1005) (hs : S20000x1005.Slices ![0, c] S20000x1) (p : Fin 20000) :
    shapeCast S20000 (extractStridedSlice S20000x1 ![0, c] x hs) shapeCasts_S20000x1_S20000 (ix1 p)
      = x (ix2 p (⟨c, hc⟩ : Fin 1005)) := by
  rw [shapeCast_apply _ _ (ix1 p) (ix2 p (0 : Fin 1)) (by
        rw [Shape.rowMajor_val_two, Shape.rowMajor_val_one]
        show p.val * 1 + 0 = p.val
        omega),
    extractStridedSlice_apply ![0, c] x hs (ix2 p (0 : Fin 1)) (ix2 p (⟨c, hc⟩ : Fin 1005)) (fun a => by
        match a with
        | ⟨0, _⟩ => show p.val = 0 + p.val; omega
        | ⟨1, _⟩ => show c = c + 0; omega)]

/-- A scalar constant broadcast to any shape, at any index. -/
theorem splat_at {s : Shape} (h : S_.BroadcastsInDim s (![] : Fin 0 → Fin s.rank)) (w : BitVec 32) (j : s.Idx) :
    broadcastInDim s ![] h (constant (F := Ideal) S_ .f32 w) j = Ideal.ofBits .f32 w := by
  rw [broadcastInDim_apply ![] h _ j i0 (fun a => a.elim0)]; rfl

theorem splatI_at {s : Shape} (h : S_.BroadcastsInDim s (![] : Fin 0 → Fin s.rank)) (w : BitVec 32) (j : s.Idx) :
    broadcastInDim s ![] h (constantI S_ 32 w) j = w := by
  rw [broadcastInDim_apply ![] h _ j i0 (fun a => a.elim0)]; rfl

/-- The layer index array at node p is the layer index word of p's row, when that word is not negative. -/
theorem layerIdx_at (p : Fin 20000) (h0 : 0 ≤ (liW x p).toInt) : layerIdxTerm x (ix2 p (0 : Fin 1)) = liW x p := by
  unfold layerIdxTerm
  rw [broadcastInDim_apply ![0] bcast_S20000_S20000x1_0 _ (ix2 p (0 : Fin 1)) (ix1 p) (fun a => by
        match a with
        | ⟨0, _⟩ => show p.val = if (20000 : ℕ) = 1 then 0 else p.val; rw [if_neg (by decide)])]
  rw [select_apply]
  have hW : (fptosi 32 (subf (shapeCast S20000 (extractStridedSlice S20000x1 ![0, 0] x slices_S20000x1005_S20000x1_0_0) shapeCasts_S20000x1_S20000)
      (broadcastInDim S20000 ![] bcast_S_S20000 (constant (F := Ideal) S_ .f32 0x3F800000#32)))) (ix1 p) = liW x p := by
    show FloatOps.fptosi (F := Ideal) (φ := .f32) 32
      (shapeCast S20000 (extractStridedSlice S20000x1 ![0, 0] x slices_S20000x1005_S20000x1_0_0) shapeCasts_S20000x1_S20000 (ix1 p)
        - broadcastInDim S20000 ![] bcast_S_S20000 (constant (F := Ideal) S_ .f32 0x3F800000#32) (ix1 p)) = _
    rw [col_at x 0 (by decide) _ p, splat_at]
    rfl
  show Scalar.select (IntOp.cmpi .slt _ _) _ _ = _
  rw [hW, splatI_at]
  exact wrap_of_nonneg _ h0 _ _

/-- The relative-size index array at node p is the relative-size index word of p's row, when not negative. -/
theorem relIdx_at (p : Fin 20000) (h0 : 0 ≤ (riW x p).toInt) : relIdxTerm x (ix2 p (0 : Fin 1)) = riW x p := by
  unfold relIdxTerm
  rw [broadcastInDim_apply ![0] bcast_S20000_S20000x1_0 _ (ix2 p (0 : Fin 1)) (ix1 p) (fun a => by
        match a with
        | ⟨0, _⟩ => show p.val = if (20000 : ℕ) = 1 then 0 else p.val; rw [if_neg (by decide)])]
  rw [select_apply]
  have hW : (fptosi 32 (relRoundTerm x)) (ix1 p) = riW x p := by
    unfold relRoundTerm
    show FloatOps.fptosi (F := Ideal) (φ := .f32) 32 (FloatOps.roundeven (F := Ideal) (φ := .f32)
      (FloatOps.absf (F := Ideal) (φ := .f32)
          (shapeCast S20000 (extractStridedSlice S20000x1 ![0, 1001] x slices_S20000x1005_S20000x1_0_1001) shapeCasts_S20000x1_S20000 (ix1 p))
        * broadcastInDim S20000 ![] bcast_S_S20000 (constant (F := Ideal) S_ .f32 0x41200000#32) (ix1 p))) = _
    rw [col_at x 1001 (by decide) _ p, splat_at]
    rfl
  show Scalar.select (IntOp.cmpi .slt _ _) _ _ = _
  rw [hW, splatI_at]
  exact wrap_of_nonneg _ h0 _ _

/-- The colour index array at (p, a) is colour index word a of p's row, when not negative. -/
theorem colorIdx_at (p : Fin 20000) (a : Fin 3) (h0 : 0 ≤ (ciW x p a).toInt) :
    colorIdxTerm x (ix3 p a (0 : Fin 1)) = ciW x p a := by
  unfold colorIdxTerm
  rw [broadcastInDim_apply ![0, 1] bcast_S20000x3_S20000x3x1_0_1 _ (ix3 p a (0 : Fin 1)) (ix2 p a) (fun ax => by
        match ax with
        | ⟨0, _⟩ => show p.val = if (20000 : ℕ) = 1 then 0 else p.val; rw [if_neg (by decide)]
        | ⟨1, _⟩ => show a.val = if (3 : ℕ) = 1 then 0 else a.val; rw [if_neg (by decide)])]
  rw [select_apply]
  have hW : (fptosi 32 (extractStridedSlice S20000x3 ![0, 1002] x slices_S20000x1005_S20000x3_0_1002)) (ix2 p a) = ciW x p a := by
    show FloatOps.fptosi (F := Ideal) (φ := .f32) 32
      (extractStridedSlice S20000x3 ![0, 1002] x slices_S20000x1005_S20000x3_0_1002 (ix2 p a)) = _
    rw [extractStridedSlice_apply ![0, 1002] x _ (ix2 p a) (ix2 p (⟨1002 + a.val, by have := a.isLt; omega⟩ : Fin 1005)) (fun ax => by
        match ax with
        | ⟨0, _⟩ => show p.val = 0 + p.val; omega
        | ⟨1, _⟩ => show 1002 + a.val = 1002 + a.val; rfl)]
    rfl
  show Scalar.select (IntOp.cmpi .slt _ _) _ _ = _
  rw [hW, splatI_at]
  exact wrap_of_nonneg _ h0 _ _

/-! ## The three gathers at an index -/

theorem layer_gather_at (p : Fin 20000) (j : Fin 250) (h0 : 0 ≤ (liW x p).toInt) (hlt : (liW x p).toNat < 3) :
    Host.gather gather_S3x250_S20000x1_S20000x250_1_0_n_n_0_1_1250 lt (layerIdxTerm x) (ix2 p j)
      = lt (ix2 (⟨(liW x p).toNat, hlt⟩ : Fin 3) j) := by
  have hidx : layerIdxTerm x (rowsIdx (ix2 p j)) = liW x p := by
    rw [show rowsIdx (ix2 p j) = ix2 p (0 : Fin 1) from funext fun b => by
      match b with
      | ⟨0, _⟩ => rfl
      | ⟨1, _⟩ => rfl]
    exact layerIdx_at x p h0
  exact gather_rows_of_word (N := 3) (D := 250) (R := 20000) (by decide)
    gather_S3x250_S20000x1_S20000x250_1_0_n_n_0_1_1250_wf lt (layerIdxTerm x) (ix2 p j) (liW x p) hidx h0 hlt

theorem size_gather_at (p : Fin 20000) (j : Fin 250) (h0 : 0 ≤ (riW x p).toInt) (hlt : (riW x p).toNat < 11) :
    Host.gather gather_S11x250_S20000x1_S20000x250_1_0_n_n_0_1_1250 rt (relIdxTerm x) (ix2 p j)
      = rt (ix2 (⟨(riW x p).toNat, hlt⟩ : Fin 11) j) := by
  have hidx : relIdxTerm x (rowsIdx (ix2 p j)) = riW x p := by
    rw [show rowsIdx (ix2 p j) = ix2 p (0 : Fin 1) from funext fun b => by
      match b with
      | ⟨0, _⟩ => rfl
      | ⟨1, _⟩ => rfl]
    exact relIdx_at x p h0
  exact gather_rows_of_word (N := 11) (D := 250) (R := 20000) (by decide)
    gather_S11x250_S20000x1_S20000x250_1_0_n_n_0_1_1250_wf rt (relIdxTerm x) (ix2 p j) (riW x p) hidx h0 hlt

theorem colour_gather_at (p : Fin 20000) (a : Fin 3) (j : Fin 85) (h0 : 0 ≤ (ciW x p a).toInt) (hlt : (ciW x p a).toNat < 256) :
    Host.gather gather_S256x85_S20000x3x1_S20000x3x85_2_0_n_n_0_2_185 ct (colorIdxTerm x) (ix3 p a j)
      = ct (ix2 (⟨(ciW x p a).toNat, hlt⟩ : Fin 256) j) := by
  have hidx : colorIdxTerm x (rows3Idx (ix3 p a j)) = ciW x p a := by
    rw [show rows3Idx (ix3 p a j) = ix3 p a (0 : Fin 1) from funext fun b => by
      match b with
      | ⟨0, _⟩ => rfl
      | ⟨1, _⟩ => rfl
      | ⟨2, _⟩ => rfl]
    exact colorIdx_at x p a h0
  exact gather_rows3_of_word (N := 256) (D := 85) (R := 20000) (A := 3) (by decide)
    gather_S256x85_S20000x3x1_S20000x3x85_2_0_n_n_0_2_185_wf ct (colorIdxTerm x) (ix3 p a j) (ciW x p a) hidx h0 hlt

/-! ## The embedded array -/

/-- With every computed index inside its table, the reference's embedded array is the array of one-hot sums. -/
theorem embedTerm_eq
    (hl : ∀ p, 0 ≤ (liW x p).toInt ∧ (liW x p).toNat < 3)
    (hr : ∀ p, 0 ≤ (riW x p).toInt ∧ (riW x p).toNat < 11)
    (hc : ∀ p a, 0 ≤ (ciW x p a).toInt ∧ (ciW x p a).toNat < 256) :
    embedTerm (F := Ideal) x lt rt ct = embedRow x lt rt ct := by
  funext i
  obtain ⟨p, q, rfl⟩ : ∃ (p : Fin 20000) (q : Fin 1755), i = ix2 p q := ⟨i 0, i 1, eq_ix2 i⟩
  rw [embedRow_ix2]
  unfold embedTerm
  by_cases h1 : q.val < 250
  · rw [concatenate_lanes_apply _ _ p q 0 (by simp) 250 _ rfl 0 (by rfl) (⟨q.val, h1⟩ : Fin 250) (by simp)]
    rw [embedAt_layer_of_lt x lt rt ct p q (⟨q.val, h1⟩ : Fin 250) rfl (hl p).2]
    exact layer_gather_at x lt p (⟨q.val, h1⟩ : Fin 250) (hl p).1 (hl p).2
  · by_cases h2 : q.val < 1250
    · rw [concatenate_lanes_apply _ _ p q 1 (by simp) 1000 _ rfl 250 (by rfl) (⟨q.val - 250, by omega⟩ : Fin 1000) (by show 250 + (q.val - 250) = q.val; omega)]
      rw [embedAt_feat x lt rt ct p q (⟨q.val - 250, by omega⟩ : Fin 1000) (by show q.val = 250 + (q.val - 250); omega)]
      exact extractStridedSlice_apply ![0, 1] x _ (ix2 p (⟨q.val - 250, by omega⟩ : Fin 1000))
        (ix2 p (⟨1 + (q.val - 250), by omega⟩ : Fin 1005)) (fun ax => by
          match ax with
          | ⟨0, _⟩ => show p.val = 0 + p.val; omega
          | ⟨1, _⟩ => show 1 + (q.val - 250) = 1 + (q.val - 250); rfl)
    · by_cases h3 : q.val < 1500
      · rw [concatenate_lanes_apply _ _ p q 2 (by simp) 250 _ rfl 1250 (by rfl) (⟨q.val - 1250, by omega⟩ : Fin 250) (by show 1250 + (q.val - 1250) = q.val; omega)]
        rw [embedAt_size_of_lt x lt rt ct p q (⟨q.val - 1250, by omega⟩ : Fin 250) (by show q.val = 1250 + (q.val - 1250); omega) (hr p).2]
        exact size_gather_at x rt p (⟨q.val - 1250, by omega⟩ : Fin 250) (hr p).1 (hr p).2
      · have hq := q.isLt
        have ha : (q.val - 1500) / 85 < 3 := by omega
        have hj : (q.val - 1500) % 85 < 85 := Nat.mod_lt _ (by decide)
        rw [concatenate_lanes_apply _ _ p q 3 (by simp) 255 _ rfl 1500 (by rfl) (⟨q.val - 1500, by omega⟩ : Fin 255) (by show 1500 + (q.val - 1500) = q.val; omega)]
        rw [embedAt_colour_of_lt x lt rt ct p q (⟨(q.val - 1500) / 85, ha⟩ : Fin 3) (⟨(q.val - 1500) % 85, hj⟩ : Fin 85)
          (by show q.val = 1500 + 85 * ((q.val - 1500) / 85) + (q.val - 1500) % 85; have := Nat.div_add_mod (q.val - 1500) 85; omega)
          (hc p _).2]
        rw [shapeCast_apply _ shapeCasts_S20000x3x85_S20000x255 (ix2 p (⟨q.val - 1500, by omega⟩ : Fin 255))
          (ix3 p (⟨(q.val - 1500) / 85, ha⟩ : Fin 3) (⟨(q.val - 1500) % 85, hj⟩ : Fin 85)) (by
            rw [Shape.rowMajor_val_three, Shape.rowMajor_val_two]
            show (p.val * 3 + (q.val - 1500) / 85) * 85 + (q.val - 1500) % 85 = p.val * 255 + (q.val - 1500)
            have := Nat.div_add_mod (q.val - 1500) 85
            omega)]
        exact colour_gather_at x ct p (⟨(q.val - 1500) / 85, ha⟩ : Fin 3) (⟨(q.val - 1500) % 85, hj⟩ : Fin 85) (hc p _).1 (hc p _).2

end Cert.ReferenceIdeal.EmbedIdx

end
-- ==== Proof.TileLemmas.lean ====
/- Elementary facts used to read the kernel's tiled regions at an index, at the ideal values: a plain rank-2 matrix
   product accumulated into the zero splat is the sum over the contracted coordinate of the products of the entries; the
   leaky rectifier as the body computes it at one element; the row tile that holds a given row. Nothing here mentions a program. -/
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.TcCoe Idealize.SL.Sem
open Idealize.ShloMosaic.ValueIdx
open scoped BigOperators

namespace Cert.KernelIdeal.RegionVal

/-! ## A plain matrix product at an index -/

/-- The product of an m×k by a k×n matrix — one contracting axis, the left operand's columns against the right
    operand's rows, no batch axis — accumulated into the zero splat, read at row `a` and column `b`: the sum over
    the contracted coordinate of the products of the entries. -/
theorem matmul_zero_ix2 {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The matrix-product body at an index: the operands pass a same-shape cast and a narrowing format change, both the
    identity at the ideal values, before the product. -/
theorem tile_matmul_ix2 {m k n : Nat}
    (w : DotDims.WF ⟨2, ![m, k]⟩ ⟨2, ![k, n]⟩ ⟨2, ![m, n]⟩ [1] [0] [0] [1] [] [])
    (x0 : FVec Ideal ⟨2, ![m, k]⟩ .f32) (x1 : FVec Ideal ⟨2, ![k, n]⟩ .f32)
    (h0 : (⟨2, ![m, k]⟩ : Shape).ShapeCasts ⟨2, ![m, k]⟩) (hb : FTy.bits .bf16 < FTy.bits .f32)
    (p : Fin m) (q : Fin n) :
    matmul (⟨[1], [0], [0], [1], [], [], w⟩ : DotDims ⟨2, ![m, k]⟩ ⟨2, ![k, n]⟩ ⟨2, ![m, n]⟩) none
        (truncf .bf16 (shapeCast ⟨2, ![m, k]⟩ x0 h0) hb) (truncf .bf16 x1 hb)
        (constant (F := Ideal) ⟨2, ![m, n]⟩ .f32 0x00000000#32) (ix2 p q)
      = ∑ c : Fin k, x0 (ix2 p c) * x1 (ix2 c q) := by
  rw [shapeCast_self]
  exact matmul_zero_ix2 w none (truncf .bf16 x0 hb) (truncf .bf16 x1 hb) p q

/-- The linear body at an index: the product above plus the one-row bias broadcast down the rows. -/
theorem tile_linear_ix2 {m k n : Nat}
    (w : DotDims.WF ⟨2, ![m, k]⟩ ⟨2, ![k, n]⟩ ⟨2, ![m, n]⟩ [1] [0] [0] [1] [] [])
    (x0 : FVec Ideal ⟨2, ![m, k]⟩ .f32) (x1 : FVec Ideal ⟨2, ![k, n]⟩ .f32) (x2 : FVec Ideal ⟨2, ![1, n]⟩ .f32)
    (h0 : (⟨2, ![m, k]⟩ : Shape).ShapeCasts ⟨2, ![m, k]⟩) (hb : FTy.bits .bf16 < FTy.bits .f32)
    (h2 : (⟨2, ![1, n]⟩ : Shape).ShapeCasts ⟨2, ![1, n]⟩) (hbr : (⟨2, ![1, n]⟩ : Shape).Broadcasts ⟨2, ![m, n]⟩)
    (p : Fin m) (q : Fin n) :
    addf (matmul (⟨[1], [0], [0], [1], [], [], w⟩ : DotDims ⟨2, ![m, k]⟩ ⟨2, ![k, n]⟩ ⟨2, ![m, n]⟩) none
          (truncf .bf16 (shapeCast ⟨2, ![m, k]⟩ x0 h0) hb) (truncf .bf16 x1 hb)
          (constant (F := Ideal) ⟨2, ![m, n]⟩ .f32 0x00000000#32))
        (broadcastTo ⟨2, ![m, n]⟩ (shapeCast ⟨2, ![1, n]⟩ x2 h2) hbr) (ix2 p q)
      = (∑ c : Fin k, x0 (ix2 p c) * x1 (ix2 c q)) + x2 (ix2 (0 : Fin 1) q) := by
  rw [addf_apply, tile_matmul_ix2, shapeCast_self, broadcastTo_1b_ab_apply]

/-! ## The leaky rectifier at one element -/

/-- The leaky rectifier as the body computes it on one element: `v` where `v` is above the zero word's value, the
    slope word's value times `v` elsewhere. The two words are kept as words. -/
def leaky (v : EReal) : EReal :=
  Scalar.select (Ideal.cmp .ogt v (Ideal.ofBits .f32 0x00000000#32)) v (Ideal.ofBits .f32 0x3C23D70A#32 * v)

/-- The same by the order of the extended reals. -/
theorem leaky_eq_ite (v : EReal) : leaky v = if 0 < v then v else Ideal.ofBits .f32 0x3C23D70A#32 * v := by
  unfold leaky Scalar.select Ideal.cmp
  rw [Ideal.ofBits_zero_f32]
  by_cases h : (0 : EReal) < v
  · simp [h]
  · simp [h]

/-- The bias-and-rectifier body at an index: the one-row bias broadcast down the rows and added, then the rectifier. -/
theorem tile_bias_leaky_ix2 {m n : Nat} (x0 : FVec Ideal ⟨2, ![m, n]⟩ .f32) (x1 : FVec Ideal ⟨2, ![1, n]⟩ .f32)
    (h0 : (⟨2, ![m, n]⟩ : Shape).ShapeCasts ⟨2, ![m, n]⟩) (h1 : (⟨2, ![1, n]⟩ : Shape).ShapeCasts ⟨2, ![1, n]⟩)
    (hbr : (⟨2, ![1, n]⟩ : Shape).Broadcasts ⟨2, ![m, n]⟩) (p : Fin m) (q : Fin n) :
    select
        (cmpf .ogt (addf (shapeCast ⟨2, ![m, n]⟩ x0 h0) (broadcastTo ⟨2, ![m, n]⟩ (shapeCast ⟨2, ![1, n]⟩ x1 h1) hbr))
          (broadcast ⟨2, ![m, n]⟩ (Scalar.ofBits (F := Ideal) .f32 0x00000000#32)))
        (addf (shapeCast ⟨2, ![m, n]⟩ x0 h0) (broadcastTo ⟨2, ![m, n]⟩ (shapeCast ⟨2, ![1, n]⟩ x1 h1) hbr))
        (mulf (broadcast ⟨2, ![m, n]⟩ (Scalar.ofBits (F := Ideal) .f32 0x3C23D70A#32))
          (addf (shapeCast ⟨2, ![m, n]⟩ x0 h0) (broadcastTo ⟨2, ![m, n]⟩ (shapeCast ⟨2, ![1, n]⟩ x1 h1) hbr)))
        (ix2 p q)
      = leaky (x0 (ix2 p q) + x1 (ix2 (0 : Fin 1) q)) := by
  rw [shapeCast_self, shapeCast_self]
  have hbq := broadcastTo_1b_ab_apply x1 hbr p q
  show Scalar.select
      (Ideal.cmp .ogt (x0 (ix2 p q) + broadcastTo ⟨2, ![m, n]⟩ x1 hbr (ix2 p q)) (Ideal.ofBits .f32 0x00000000#32))
      (x0 (ix2 p q) + broadcastTo ⟨2, ![m, n]⟩ x1 hbr (ix2 p q))
      (Ideal.ofBits .f32 0x3C23D70A#32 * (x0 (ix2 p q) + broadcastTo ⟨2, ![m, n]⟩ x1 hbr (ix2 p q))) = _
  rw [hbq]
  rfl

/-! ## Whole-array functions: what each region leaves, index by index -/

/-- The product of an M×K array by a K×N array. -/
def mm (M K N : Nat) (A : (⟨2, ![M, K]⟩ : Shape).Idx → EReal) (B : (⟨2, ![K, N]⟩ : Shape).Idx → EReal) :
    (⟨2, ![M, N]⟩ : Shape).Idx → EReal :=
  fun i => ∑ k : Fin K, A (ix2 (⟨(i 0).val, idx2_lt0 i⟩ : Fin M) k) * B (ix2 k (⟨(i 1).val, idx2_lt1 i⟩ : Fin N))

/-- An M×N array plus a one-row bias, through the leaky rectifier. -/
def biasLeaky (M N : Nat) (A : (⟨2, ![M, N]⟩ : Shape).Idx → EReal) (b : (⟨2, ![1, N]⟩ : Shape).Idx → EReal) :
    (⟨2, ![M, N]⟩ : Shape).Idx → EReal :=
  fun i => leaky (A (ix2 (⟨(i 0).val, idx2_lt0 i⟩ : Fin M) (⟨(i 1).val, idx2_lt1 i⟩ : Fin N))
    + b (ix2 (0 : Fin 1) (⟨(i 1).val, idx2_lt1 i⟩ : Fin N)))

/-- The product of an M×K array by a K×N array plus a one-row bias. -/
def mmBias (M K N : Nat) (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun i => (∑ k : Fin K, A (ix2 (⟨(i 0).val, idx2_lt0 i⟩ : Fin M) k) * B (ix2 k (⟨(i 1).val, idx2_lt1 i⟩ : Fin N)))
    + b (ix2 (0 : Fin 1) (⟨(i 1).val, idx2_lt1 i⟩ : Fin N))

/-- An array's contents as a function on the literal rank-2 index type into the extended reals: the identity, written
    so that a statement about an entry is typed over the extended reals themselves. -/
abbrev arr2 (M N : Nat) (A : (⟨2, ![M, N]⟩ : Shape).Idx → EReal) : (⟨2, ![M, N]⟩ : Shape).Idx → EReal := A

/-- The product at row `n`, column `j`. -/
theorem mm_ix2 (M K N : Nat) (A : (⟨2, ![M, K]⟩ : Shape).Idx → EReal) (B : (⟨2, ![K, N]⟩ : Shape).Idx → EReal)
    (n : Fin M) (j : Fin N) : mm M K N A B (ix2 n j) = ∑ k : Fin K, A (ix2 n k) * B (ix2 k j) := rfl

/-- The rectified sum at row `n`, column `j`. -/
theorem biasLeaky_ix2 (M N : Nat) (A : (⟨2, ![M, N]⟩ : Shape).Idx → EReal) (b : (⟨2, ![1, N]⟩ : Shape).Idx → EReal)
    (n : Fin M) (j : Fin N) : biasLeaky M N A b (ix2 n j) = leaky (A (ix2 n j) + b (ix2 (0 : Fin 1) j)) := rfl

/-- The product plus the bias row at row `n`, column `j`. -/
theorem mmBias_ix2 (M K N : Nat) (A : (⟨2, ![M, K]⟩ : Shape).Idx → EReal) (B : (⟨2, ![K, N]⟩ : Shape).Idx → EReal)
    (b : (⟨2, ![1, N]⟩ : Shape).Idx → EReal) (n : Fin M) (j : Fin N) :
    mmBias M K N A B b (ix2 n j) = (∑ k : Fin K, A (ix2 n k) * B (ix2 k j)) + b (ix2 (0 : Fin 1) j) := rfl

/-- The zero offsets of a whole-buffer access, however spelt. -/
theorem hz : (![0, 0] : Fin 2 → Nat) = fun _ => 0 := funext fun a => by fin_cases a <;> rfl

/-! ## Row tiles -/

/-- Row `r` of a 20000-row array lies in the 1000-row tile number `r / 1000`, one of twenty. -/
theorem tile_of_row (r : Nat) (h : r < 20000) : r / 1000 < 20 ∧ r / 1000 * 1000 ≤ r ∧ r < r / 1000 * 1000 + 1000 := by
  omega

end Cert.KernelIdeal.RegionVal

end
-- ==== Proof.StageLaws.lean ====
/-
  The reference's "add the bias row, then the leaky rectifier" and its final "product plus bias row", index by
  index, over any row count M and width N. The reference broadcasts the bias vector b : [N] first to one row
  [1, N] and then down the M rows, adds, and selects: where the sum y is at least zero, y; elsewhere slope · y.
  The kernel's rectifier tests y > 0 instead; the two agree, because at y = 0 both branches are 0.
-/
import proofs.«102165_j72748156060190_1_alg».proof.Proof.TileLemmas
import Idealize.ShloMosaic.Lib.ValueLayout
import Idealize.ShloMosaic.Lib.StackMember

noncomputable section

namespace Cert.KernelIdeal.RegionVal

open Idealize.ShloMosaic Idealize.ShloMosaic.ValueIdx
open scoped BigOperators

/-- The one index of a rank-0 array. -/
def i00 : (⟨0, ![]⟩ : Shape).Idx := fun d => d.elim0

/-- A scalar float constant broadcast to any shape, at any index. -/
theorem splat_at {s : Shape} (h : (⟨0, ![]⟩ : Shape).BroadcastsInDim s (![] : Fin 0 → Fin s.rank)) (w : BitVec 32) (j : s.Idx) :
    broadcastInDim s ![] h (constant (F := Ideal) ⟨0, ![]⟩ .f32 w) j = Ideal.ofBits .f32 w := by
  rw [broadcastInDim_apply ![] h _ j i00 (fun a => a.elim0)]; rfl

/-- A bias vector broadcast to one row and then down the rows, at (p, q): the vector's entry q. -/
theorem bias_rows_at {M N : Nat} (b : (⟨1, ![N]⟩ : Shape).Idx → EReal)
    (h1 : (⟨2, ![1, N]⟩ : Shape).BroadcastsInDim ⟨2, ![M, N]⟩ ![0, 1])
    (h2 : (⟨1, ![N]⟩ : Shape).BroadcastsInDim ⟨2, ![1, N]⟩ ![1]) (p : Fin M) (q : Fin N) :
    broadcastInDim ⟨2, ![M, N]⟩ ![0, 1] h1 (broadcastInDim ⟨2, ![1, N]⟩ ![1] h2 b) (ix2 p q) = b (ix1 q) := by
  rw [broadcastInDim_apply ![0, 1] h1 _ (ix2 p q) (ix2 (0 : Fin 1) q) (fun a => by
        match a with
        | ⟨0, _⟩ => show (0 : ℕ) = if (1 : ℕ) = 1 then 0 else p.val; rw [if_pos rfl]
        | ⟨1, _⟩ =>
          show q.val = if N = 1 then 0 else q.val
          split
          · have := q.isLt; omega
          · rfl)]
  rw [broadcastInDim_apply ![1] h2 _ (ix2 (0 : Fin 1) q) (ix1 q) (fun a => by
        match a with
        | ⟨0, _⟩ =>
          show q.val = if N = 1 then 0 else q.val
          split
          · have := q.isLt; omega
          · rfl)]

/-- The rectifier with the test "at least zero" is the rectifier with the test "above zero". -/
theorem leaky_of_oge (v : EReal) :
    Scalar.select (Ideal.cmp .oge v (Ideal.ofBits .f32 0x00000000#32)) v (Ideal.ofBits .f32 0x3C23D70A#32 * v) = leaky v := by
  rw [leaky_eq_ite]
  unfold Scalar.select Ideal.cmp
  rw [Ideal.ofBits_zero_f32]
  rcases lt_trichotomy (0 : EReal) v with h | h | h
  · have h' : (0 : EReal) ≤ v := le_of_lt h
    simp [h, h']
  · subst h; simp
  · have h1 : ¬ (0 : EReal) ≤ v := not_le.mpr h
    have h2 : ¬ (0 : EReal) < v := not_lt.mpr (le_of_lt h)
    simp [h1, h2]

/-- The reference's bias-and-rectifier stage is `biasLeaky` of the aggregate and the bias reshaped to one row. -/
theorem bias_leaky_ref {M N : Nat} (agg : FVec Ideal ⟨2, ![M, N]⟩ .f32) (b : FVec Ideal ⟨1, ![N]⟩ .f32)
    (hz : (⟨0, ![]⟩ : Shape).BroadcastsInDim ⟨2, ![M, N]⟩ (![] : Fin 0 → Fin 2))
    (h1 : (⟨2, ![1, N]⟩ : Shape).BroadcastsInDim ⟨2, ![M, N]⟩ ![0, 1])
    (h2 : (⟨1, ![N]⟩ : Shape).BroadcastsInDim ⟨2, ![1, N]⟩ ![1])
    (hsc : (⟨1, ![N]⟩ : Shape).ShapeCasts ⟨2, ![1, N]⟩) :
    select
      (cmpf .oge (addf agg (broadcastInDim ⟨2, ![M, N]⟩ ![0, 1] h1 (broadcastInDim ⟨2, ![1, N]⟩ ![1] h2 b)))
        (broadcastInDim ⟨2, ![M, N]⟩ ![] hz (constant (F := Ideal) ⟨0, ![]⟩ .f32 0x00000000#32)))
      (addf agg (broadcastInDim ⟨2, ![M, N]⟩ ![0, 1] h1 (broadcastInDim ⟨2, ![1, N]⟩ ![1] h2 b)))
      (mulf (broadcastInDim ⟨2, ![M, N]⟩ ![] hz (id (constant (F := Ideal) ⟨0, ![]⟩ .f32 0x3C23D70A#32)))
        (addf agg (broadcastInDim ⟨2, ![M, N]⟩ ![0, 1] h1 (broadcastInDim ⟨2, ![1, N]⟩ ![1] h2 b))))
      = biasLeaky M N agg (shapeCast ⟨2, ![1, N]⟩ b hsc) := by
  funext i
  obtain ⟨p, q, rfl⟩ : ∃ (p : Fin M) (q : Fin N), i = ix2 p q := ⟨i 0, i 1, eq_ix2 i⟩
  rw [select_apply, cmpf_apply, mulf_apply, addf_apply, bias_rows_at, splat_at]
  show Scalar.select (Ideal.cmp .oge _ _) _ (broadcastInDim ⟨2, ![M, N]⟩ ![] hz (constant (F := Ideal) ⟨0, ![]⟩ .f32 0x3C23D70A#32) (ix2 p q) * _) = _
  rw [splat_at, leaky_of_oge]
  show leaky (agg (ix2 p q) + b (ix1 q)) = leaky (agg (ix2 p q) + shapeCast ⟨2, ![1, N]⟩ b hsc (ix2 (0 : Fin 1) q))
  rw [shapeCast_a_1a_apply]

/-- The reference's product stage is `mm`. -/
theorem mm_ref {M K N : Nat} (A : FVec Ideal ⟨2, ![M, K]⟩ .f32) (B : FVec Ideal ⟨2, ![K, N]⟩ .f32) :
    Host.dotGeneral (DotDims.plain M K N) none A B = mm M K N A B := by
  funext i
  obtain ⟨p, q, rfl⟩ : ∃ (p : Fin M) (q : Fin N), i = ix2 p q := ⟨i 0, i 1, eq_ix2 i⟩
  exact StackMember.dotGeneral_plain_apply none A B p q

/-- The reference's final stage, product plus bias row, is `mmBias` with the bias reshaped to one row. -/
theorem mm_bias_ref {M K N : Nat} (A : FVec Ideal ⟨2, ![M, K]⟩ .f32) (B : FVec Ideal ⟨2, ![K, N]⟩ .f32) (b : FVec Ideal ⟨1, ![N]⟩ .f32)
    (h1 : (⟨2, ![1, N]⟩ : Shape).BroadcastsInDim ⟨2, ![M, N]⟩ ![0, 1])
    (h2 : (⟨1, ![N]⟩ : Shape).BroadcastsInDim ⟨2, ![1, N]⟩ ![1])
    (hsc : (⟨1, ![N]⟩ : Shape).ShapeCasts ⟨2, ![1, N]⟩) :
    addf (Host.dotGeneral (DotDims.plain M K N) none A B)
      (broadcastInDim ⟨2, ![M, N]⟩ ![0, 1] h1 (broadcastInDim ⟨2, ![1, N]⟩ ![1] h2 b))
      = mmBias M K N A B (shapeCast ⟨2, ![1, N]⟩ b hsc) := by
  funext i
  obtain ⟨p, q, rfl⟩ : ∃ (p : Fin M) (q : Fin N), i = ix2 p q := ⟨i 0, i 1, eq_ix2 i⟩
  rw [addf_apply, bias_rows_at, StackMember.dotGeneral_plain_apply none A B p q]
  show _ = (∑ k : Fin K, A (ix2 p k) * B (ix2 k q)) + shapeCast ⟨2, ![1, N]⟩ b hsc (ix2 (0 : Fin 1) q)
  rw [shapeCast_a_1a_apply]

end Cert.KernelIdeal.RegionVal

end
-- ==== Proof.RegionEmbedPay.lean ====
/-
  The embedding region's payload read at an index: entry (p, q) of the block the body stores is entry q of
  the embedded row (RegionEmbedLib's embedAt) of row p of its node block, against its three table blocks —
  over any four blocks. The one-hot matrices at an index (pay4_apply ... pay8_apply), the five products
  into the zero accumulator as sums over the table rows (layer_apply, size_apply, colour_apply), the
  concatenation piece by piece (pay_apply), and the same against any array whose row is the block's row (pay_at).
-/
import proofs.«102165_j72748156060190_1_alg».proof.Proof.Gen.KernelIdeal.Skeleton
import proofs.«102165_j72748156060190_1_alg».proof.Proof.RegionEmbedLib

noncomputable section

open Idealize.ShloMosaic Idealize.ShloMosaic.TcCoe Idealize.SL.Sem
open Idealize.ShloMosaic.ValueIdx
open scoped BigOperators

namespace Cert.KernelIdeal.EmbedVal

open Cert.KernelIdeal Cert.KernelIdeal.Gen

variable (x0 : Vec Ideal S1000x1005 .f32) (x1 : Vec Ideal S3x250 .f32) (x2 : Vec Ideal S11x250 .f32)
  (x3 : Vec Ideal S256x85 .f32)

/-! ## The one-hot matrices at an index -/

/-- The layer one-hot matrix at (p, c). -/
theorem pay4_apply (p : Fin 1000) (c : Fin 3) : k0_pay4 x0 (ix2 p c) = hot c.val (liW x0 p) := by
  unfold k0_pay4
  exact (onehot_apply _ broadcasts_S1000x1_S1000x3 iota_S1000x3_d1_w32 natLt_1_32 bitsLt_bf16_f32 p c).trans
    (congrArg (hot c.val) (liW_of_slice x0 slices_S1000x1005_o0_0_S1000x1 p))

/-- The size one-hot matrix at (p, c). -/
theorem pay5_apply (p : Fin 1000) (c : Fin 11) : k0_pay5 x0 (ix2 p c) = hot c.val (riW x0 p) := by
  unfold k0_pay5
  exact (onehot_apply _ broadcasts_S1000x1_S1000x11 iota_S1000x11_d1_w32 natLt_1_32 bitsLt_bf16_f32 p c).trans
    (congrArg (hot c.val) (riW_of_slice x0 slices_S1000x1005_o0_1001_S1000x1 p))

/-- The three colour one-hot matrices at (p, c). -/
theorem pay6_apply (p : Fin 1000) (c : Fin 256) : k0_pay6 x0 (ix2 p c) = hot c.val (ciW x0 p 0) := by
  unfold k0_pay6 k0_pay3
  exact (onehot_apply _ broadcasts_S1000x1_S1000x256 iota_S1000x256_d1_w32 natLt_1_32 bitsLt_bf16_f32 p c).trans
    (congrArg (hot c.val) (ciW_of_slice x0 slices_S1000x1005_o0_1002_S1000x3 0 0 rfl slices_S1000x3_o0_0_S1000x1 p))

theorem pay7_apply (p : Fin 1000) (c : Fin 256) : k0_pay7 x0 (ix2 p c) = hot c.val (ciW x0 p 1) := by
  unfold k0_pay7 k0_pay3
  exact (onehot_apply _ broadcasts_S1000x1_S1000x256 iota_S1000x256_d1_w32 natLt_1_32 bitsLt_bf16_f32 p c).trans
    (congrArg (hot c.val) (ciW_of_slice x0 slices_S1000x1005_o0_1002_S1000x3 1 1 rfl slices_S1000x3_o0_1_S1000x1 p))

theorem pay8_apply (p : Fin 1000) (c : Fin 256) : k0_pay8 x0 (ix2 p c) = hot c.val (ciW x0 p 2) := by
  unfold k0_pay8 k0_pay3
  exact (onehot_apply _ broadcasts_S1000x1_S1000x256 iota_S1000x256_d1_w32 natLt_1_32 bitsLt_bf16_f32 p c).trans
    (congrArg (hot c.val) (ciW_of_slice x0 slices_S1000x1005_o0_1002_S1000x3 2 2 rfl slices_S1000x3_o0_2_S1000x1 p))

/-! ## The five products at an index -/

theorem layer_apply (p : Fin 1000) (j : Fin 250) :
    matmul dot_S1000x3_S3x250_S1000x250_1_0_0_1_n_n none (k0_pay4 x0) (k0_pay9 x1)
      (constant (F := Ideal) S1000x250 .f32 0x00000000#32) (ix2 p j)
      = ∑ k : Fin 3, hot k.val (liW x0 p) * x1 (ix2 k j) := by
  refine (matmul_plain_zero_apply none (k0_pay4 x0) (k0_pay9 x1) p j).trans ?_
  refine Finset.sum_congr rfl fun k _ => ?_
  rw [pay4_apply]
  rfl

theorem size_apply (p : Fin 1000) (j : Fin 250) :
    matmul dot_S1000x11_S11x250_S1000x250_1_0_0_1_n_n none (k0_pay5 x0) (k0_pay10 x2)
      (constant (F := Ideal) S1000x250 .f32 0x00000000#32) (ix2 p j)
      = ∑ k : Fin 11, hot k.val (riW x0 p) * x2 (ix2 k j) := by
  refine (matmul_plain_zero_apply none (k0_pay5 x0) (k0_pay10 x2) p j).trans ?_
  refine Finset.sum_congr rfl fun k _ => ?_
  rw [pay5_apply]
  rfl

theorem colour_apply (oh : FVec Ideal S1000x256 .bf16) (w : BitVec 32) (p : Fin 1000)
    (hoh : ∀ c : Fin 256, oh (ix2 p c) = hot c.val w) (j : Fin 85) :
    matmul dot_S1000x256_S256x85_S1000x85_1_0_0_1_n_n none oh (truncf (F := Ideal) .bf16 x3 bitsLt_bf16_f32)
      (constant (F := Ideal) S1000x85 .f32 0x00000000#32) (ix2 p j)
      = ∑ k : Fin 256, hot k.val w * x3 (ix2 k j) := by
  refine (matmul_plain_zero_apply none oh (truncf (F := Ideal) .bf16 x3 bitsLt_bf16_f32) p j).trans ?_
  refine Finset.sum_congr rfl fun k _ => ?_
  rw [hoh]
  rfl

/-! ## The payload at an index -/

/-- What the body stores into its output block, from its four input blocks. -/
abbrev pay : Vec Ideal S1000x1755 .f32 :=
  k0_pay1 (k0_pay2 x0) (k0_pay4 x0) (k0_pay5 x0) (k0_pay6 x0) (k0_pay7 x0) (k0_pay8 x0) (k0_pay9 x1) (k0_pay10 x2) x3

/-- Entry (p, q) of the stored block is entry q of the embedded row of row p of the input block. -/
theorem pay_apply (p : Fin 1000) (q : Fin 1755) : pay x0 x1 x2 x3 (ix2 p q) = embedAt x0 x1 x2 x3 p q := by
  have hq := q.isLt
  show k0_pay1 (k0_pay2 x0) (k0_pay4 x0) (k0_pay5 x0) (k0_pay6 x0) (k0_pay7 x0) (k0_pay8 x0) (k0_pay9 x1) (k0_pay10 x2) x3 (ix2 p q) = _
  unfold k0_pay1
  by_cases c0 : q.val < 250
  · rw [embedAt_layer x0 x1 x2 x3 p q ⟨q.val, c0⟩ rfl]
    refine (concatenate_lanes_apply _ _ p q 0 (by simp) 250 _ rfl 0 rfl ⟨q.val, c0⟩ (by simp)).trans ?_
    exact layer_apply x0 x1 p _
  by_cases c1 : q.val < 1250
  · rw [embedAt_feat x0 x1 x2 x3 p q ⟨q.val - 250, by omega⟩ (by show q.val = 250 + (q.val - 250); omega)]
    refine (concatenate_lanes_apply _ _ p q 1 (by simp) 1000 _ rfl 250 rfl ⟨q.val - 250, by omega⟩ (by show 250 + (q.val - 250) = q.val; omega)).trans ?_
    unfold k0_pay2
    exact slice2_axis1_eq 1 x0 slices_S1000x1005_o0_1_S1000x1000 p _
  by_cases c2 : q.val < 1500
  · rw [embedAt_size x0 x1 x2 x3 p q ⟨q.val - 1250, by omega⟩ (by show q.val = 1250 + (q.val - 1250); omega)]
    refine (concatenate_lanes_apply _ _ p q 2 (by simp) 250 _ rfl 1250 rfl ⟨q.val - 1250, by omega⟩ (by show 1250 + (q.val - 1250) = q.val; omega)).trans ?_
    exact size_apply x0 x2 p _
  by_cases c3 : q.val < 1585
  · rw [embedAt_colour x0 x1 x2 x3 p q 0 ⟨q.val - 1500, by omega⟩ (by show q.val = 1500 + 85 * 0 + (q.val - 1500); omega)]
    refine (concatenate_lanes_apply _ _ p q 3 (by simp) 85 _ rfl 1500 rfl ⟨q.val - 1500, by omega⟩ (by show 1500 + (q.val - 1500) = q.val; omega)).trans ?_
    exact colour_apply x3 (k0_pay6 x0) (ciW x0 p 0) p (pay6_apply x0 p) _
  by_cases c4 : q.val < 1670
  · rw [embedAt_colour x0 x1 x2 x3 p q 1 ⟨q.val - 1585, by omega⟩ (by show q.val = 1500 + 85 * 1 + (q.val - 1585); omega)]
    refine (concatenate_lanes_apply _ _ p q 4 (by simp) 85 _ rfl 1585 rfl ⟨q.val - 1585, by omega⟩ (by show 1585 + (q.val - 1585) = q.val; omega)).trans ?_
    exact colour_apply x3 (k0_pay7 x0) (ciW x0 p 1) p (pay7_apply x0 p) _
  · rw [embedAt_colour x0 x1 x2 x3 p q 2 ⟨q.val - 1670, by omega⟩ (by show q.val = 1500 + 85 * 2 + (q.val - 1670); omega)]
    refine (concatenate_lanes_apply _ _ p q 5 (by simp) 85 _ rfl 1670 rfl ⟨q.val - 1670, by omega⟩ (by show 1670 + (q.val - 1670) = q.val; omega)).trans ?_
    exact colour_apply x3 (k0_pay8 x0) (ciW x0 p 2) p (pay8_apply x0 p) _

/-- The same at any index of the block, against any array whose row i 0 is the block's row y 0. -/
theorem pay_at {N : Nat} (y : S1000x1755.Idx) (X : (⟨2, ![N, 1005]⟩ : Shape).Idx → EReal)
    (i : (⟨2, ![N, 1755]⟩ : Shape).Idx) (hi : (i 1).val = (y 1).val)
    (hX : ∀ z : Fin 1005, x0 (ix2 (y 0) z) = X (ix2 (i 0) z)) :
    pay x0 x1 x2 x3 y = embedRow X x1 x2 x3 i := by
  obtain ⟨p, q, rfl⟩ : ∃ (p : Fin 1000) (q : Fin 1755), y = ix2 p q := ⟨y 0, y 1, eq_ix2 y⟩
  obtain ⟨n, r, rfl⟩ : ∃ (n : Fin N) (r : Fin 1755), i = ix2 n r := ⟨i 0, i 1, eq_ix2 i⟩
  obtain rfl : r = q := Fin.ext hi
  rw [pay_apply, embedRow_ix2]
  exact embedAt_congr x0 X x1 x2 x3 p n hX r

end Cert.KernelIdeal.EmbedVal

end
-- ==== Proof.RegionEmbedArr.lean ====
/-
  The VALUE of the embedding region, read off its frame: after the region its output array holds, node by node,
  the embedded row of the node's row of the node array against the three tables, as the region finds them
  (final, embedded_eq), and so, segment by segment, the one-hot products and the feature copy
  (embedded_layer, embedded_feat, embedded_size, embedded_colour) and, for index words in range, the selected
  table rows (embedded_layer_of_lt ... embedded_colour_of_range).
  Each point's node block is its thousand rows of the node array and each table's block the whole table
  (iblk_x, iblk_layer, iblk_size, iblk_colour); what point t writes back is block t of the result (flushed_eq);
  the blocks cover the array (mem_blk, cover).
-/
import proofs.«102165_j72748156060190_1_alg».proof.Proof.Gen.KernelIdeal.Frame
import proofs.«102165_j72748156060190_1_alg».proof.Proof.RegionEmbedPay
import Idealize.ShloMosaic.Lib.Pipeline.Value

noncomputable section

open Idealize.ShloMosaic Idealize.ShloMosaic.TcCoe Idealize.SL.Sem
open Idealize.ShloMosaic.ValueIdx
open Idealize.ShloMosaic.Pipeline (Dat)
open scoped BigOperators

namespace Cert.KernelIdeal.EmbedVal

open Cert.KernelIdeal Cert.KernelIdeal.Gen

section Arr
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the node blocks and the output blocks move with the point,
    row block t at point t; the three tables' one block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The node block at point t is rows 1000 t ... 1000 t + 999 of the node array. -/
theorem iblk_x (c : Dev nD) (t : Fin cfg0.N) (p : Fin 1000) (z : Fin 1005) (n : Fin 20000)
    (hn : n.val = 1000 * t.val + p.val) :
    (iblk0 V c 0 t : Vec Ideal S1000x1005 .f32) (ix2 p z)
      = (V c (Pipeline.arrRef spec0 0) : S20000x1005.Idx → EReal) (ix2 n z) := by
  obtain ⟨e0, e1, -⟩ := idx_facts t
  unfold iblk0
  rw [View.read_apply]
  refine congrArg (V c (Pipeline.arrRef spec0 0)) (funext fun a => Fin.ext ?_)
  match a with
  | ⟨0, _⟩ => show win0_0.index t (0 : Fin 2) * 1000 + 1 * p.val = n.val; rw [e0, hn]; omega
  | ⟨1, _⟩ => show win0_0.index t (1 : Fin 2) * 1005 + 1 * z.val = z.val; rw [e1]; omega

/-- Each table's block, at every point, is the whole table. -/
theorem iblk_layer (c : Dev nD) (t : Fin cfg0.N) :
    (iblk0 V c 1 t : Vec Ideal S3x250 .f32) = (V c (Pipeline.arrRef spec0 1) : S3x250.Idx → EReal) := by
  obtain ⟨-, -, e0, e1, -⟩ := idx_facts t
  funext y
  unfold iblk0
  rw [View.read_apply]
  refine congrArg (V c (Pipeline.arrRef spec0 1)) (funext fun a => Fin.ext ?_)
  match a with
  | ⟨0, _⟩ => show win0_1.index t (0 : Fin 2) * 3 + 1 * (y 0).val = (y 0).val; rw [e0]; omega
  | ⟨1, _⟩ => show win0_1.index t (1 : Fin 2) * 250 + 1 * (y 1).val = (y 1).val; rw [e1]; omega

theorem iblk_size (c : Dev nD) (t : Fin cfg0.N) :
    (iblk0 V c 2 t : Vec Ideal S11x250 .f32) = (V c (Pipeline.arrRef spec0 2) : S11x250.Idx → EReal) := by
  obtain ⟨-, -, -, -, e0, e1, -⟩ := idx_facts t
  funext y
  unfold iblk0
  rw [View.read_apply]
  refine congrArg (V c (Pipeline.arrRef spec0 2)) (funext fun a => Fin.ext ?_)
  match a with
  | ⟨0, _⟩ => show win0_2.index t (0 : Fin 2) * 11 + 1 * (y 0).val = (y 0).val; rw [e0]; omega
  | ⟨1, _⟩ => show win0_2.index t (1 : Fin 2) * 250 + 1 * (y 1).val = (y 1).val; rw [e1]; omega

theorem iblk_colour (c : Dev nD) (t : Fin cfg0.N) :
    (iblk0 V c 3 t : Vec Ideal S256x85 .f32) = (V c (Pipeline.arrRef spec0 3) : S256x85.Idx → EReal) := by
  obtain ⟨-, -, -, -, -, -, e0, e1, -⟩ := idx_facts t
  funext y
  unfold iblk0
  rw [View.read_apply]
  refine congrArg (V c (Pipeline.arrRef spec0 3)) (funext fun a => Fin.ext ?_)
  match a with
  | ⟨0, _⟩ => show win0_3.index t (0 : Fin 2) * 256 + 1 * (y 0).val = (y 0).val; rw [e0]; omega
  | ⟨1, _⟩ => show win0_3.index t (1 : Fin 2) * 85 + 1 * (y 1).val = (y 1).val; rw [e1]; omega

/-- The region's four input arrays as it finds them — the node array and the layer, size and colour tables — -/
abbrev nodes (c : Dev nD) : S20000x1005.Idx → EReal := V c (Pipeline.arrRef spec0 0)
abbrev layerT (c : Dev nD) : S3x250.Idx → EReal := V c (Pipeline.arrRef spec0 1)
abbrev sizeT (c : Dev nD) : S11x250.Idx → EReal := V c (Pipeline.arrRef spec0 2)
abbrev colourT (c : Dev nD) : S256x85.Idx → EReal := V c (Pipeline.arrRef spec0 3)
/-- and its output array after the region. -/
abbrev embedded (c : Dev nD) : S20000x1755.Idx → EReal := (dat0 (F := Ideal) V c).arrAt 4 cfg0.N

/-- What the region leaves in its output array: the embedded rows of the node array against the three tables. -/
abbrev result (c : Dev nD) : S20000x1755.Idx → EReal :=
  embedRow (nodes V c) (layerT V c) (sizeT V c) (colourT V c)

/-- WHAT POINT t WRITES BACK is block t of the result. -/
theorem flushed_eq (c : Dev nD) (t : Fin cfg0.N) :
    (dat0 (F := Ideal) V c).flushed 4 t = ((cfg0.win 4).blk t).view.read (Elt Ideal) (result V c) := by
  show (cfg0.win 4).cut (grid0.coords t) ((dat0 (F := Ideal) V c).after 4 t) = _
  rw [after0_4]
  unfold out0_4
  rw [View.canon_unit_zero hz]
  simp only [View.ld_unit_zero (S := S1000x1005) hz, View.ld_unit_zero (S := S3x250) hz,
    View.ld_unit_zero (S := S11x250) hz, View.ld_unit_zero (S := S256x85) hz]
  rw [iblk_layer, iblk_size, iblk_colour]
  obtain ⟨-, -, -, -, -, -, -, -, e8, e9⟩ := idx_facts t
  funext j
  rw [View.read_apply]
  refine pay_at (iblk0 V c 0 t) _ _ _ _ (V c (Pipeline.arrRef spec0 0) : S20000x1005.Idx → EReal) _ ?_ ?_
  · show win0_4.index t (1 : Fin 2) * 1755 + 1 * (j 1).val = (j 1).val
    rw [e9]; omega
  · intro z
    refine iblk_x V c t _ z _ ?_
    show win0_4.index t (0 : Fin 2) * 1000 + 1 * (j 0).val = 1000 * t.val + (j 0).val
    rw [e8]; omega

/-- An index of the array is in point t's block iff each coordinate is in the block's range on its axis. -/
theorem mem_blk (t : Fin cfg0.N) (i : S20000x1755.Idx) :
    i ∈ ((cfg0.win 4).blk t).view.set ↔ ∀ a : Fin 2, win0_4.index t a * S1000x1755.size a ≤ (i a).val
      ∧ (i a).val < win0_4.index t a * S1000x1755.size a + S1000x1755.size a := by
  show i ∈ ((View.whole main_v4).slice (win0_4.rect t)).set ↔ _
  rw [View.set_slice_whole, Rect.mem_set_unit]
  exact Iff.rfl

/-- Every row of the array is in some point's block: row r in point r / 1000's. -/
theorem cover (i : S20000x1755.Idx) :
    ∃ t : Fin cfg0.N, (cfg0.win 4).flush t = true ∧ i ∈ ((cfg0.win 4).blk t).view.set := by
  have hi0 : (i 0).val < 20000 := (i 0).isLt
  have hi1 : (i 1).val < 1755 := (i 1).isLt
  have hN : cfg0.N = 20 := N_0
  let t : Fin cfg0.N := ⟨(i 0).val / 1000, by rw [hN]; omega⟩
  obtain ⟨-, -, -, -, -, -, -, -, e8, e9⟩ := idx_facts t
  have ht : t.val = (i 0).val / 1000 := rfl
  refine ⟨t, flush0_4 t, ?_⟩
  rw [mem_blk]
  intro a
  match a with
  | ⟨0, _⟩ =>
    show win0_4.index t (0 : Fin 2) * 1000 ≤ (i 0).val ∧ (i 0).val < win0_4.index t (0 : Fin 2) * 1000 + 1000
    rw [e8, ht]; omega
  | ⟨1, _⟩ =>
    show win0_4.index t (1 : Fin 2) * 1755 ≤ (i 1).val ∧ (i 1).val < win0_4.index t (1 : Fin 2) * 1755 + 1755
    rw [e9]; omega

/-- THE ARRAY after the region: the embedded rows. -/
theorem final (c : Dev nD) : embedded V c = result V c :=
  (dat0 (F := Ideal) V c).arrAt_eq_of_cover 4 (result V c) (fun t _ => flushed_eq V c t) cover

theorem embedded_eq (c : Dev nD) : embedded V c = embedRow (nodes V c) (layerT V c) (sizeT V c) (colourT V c) :=
  final V c

/-! ## The output array read segment by segment, node by node -/

section Read
variable (c : Dev nD) (n : Fin 20000)

/-- Lanes 0 ... 249 of node n: the layer table against the one-hot row of its layer index. -/
theorem embedded_layer (j : Fin 250) :
    embedded V c (ix2 n (⟨j.val, by have := j.isLt; omega⟩ : Fin 1755))
      = ∑ k : Fin 3, hot k.val (liW (nodes V c) n) * layerT V c (ix2 k j) := by
  rw [embedded_eq]
  exact embedAt_layer (nodes V c) (layerT V c) (sizeT V c) (colourT V c) n _ j rfl

/-- Lanes 250 ... 1249 of node n: its features. -/
theorem embedded_feat (j : Fin 1000) :
    embedded V c (ix2 n (⟨250 + j.val, by have := j.isLt; omega⟩ : Fin 1755))
      = nodes V c (ix2 n (⟨1 + j.val, by have := j.isLt; omega⟩ : Fin 1005)) := by
  rw [embedded_eq]
  exact embedAt_feat (nodes V c) (layerT V c) (sizeT V c) (colourT V c) n _ j rfl

/-- Lanes 1250 ... 1499 of node n: the size table against the one-hot row of its size index. -/
theorem embedded_size (j : Fin 250) :
    embedded V c (ix2 n (⟨1250 + j.val, by have := j.isLt; omega⟩ : Fin 1755))
      = ∑ k : Fin 11, hot k.val (riW (nodes V c) n) * sizeT V c (ix2 k j) := by
  rw [embedded_eq]
  exact embedAt_size (nodes V c) (layerT V c) (sizeT V c) (colourT V c) n _ j rfl

/-- Lanes 1500 + 85 a ... of node n: the colour table against the one-hot row of its colour index a. -/
theorem embedded_colour (a : Fin 3) (j : Fin 85) :
    embedded V c (ix2 n (⟨1500 + 85 * a.val + j.val, by have := j.isLt; have := a.isLt; omega⟩ : Fin 1755))
      = ∑ k : Fin 256, hot k.val (ciW (nodes V c) n a) * colourT V c (ix2 k j) := by
  rw [embedded_eq]
  exact embedAt_colour (nodes V c) (layerT V c) (sizeT V c) (colourT V c) n _ a j rfl

/-! ### Collapsed: an index word in range selects its table row -/

theorem embedded_layer_of_lt (j : Fin 250) (hr : (liW (nodes V c) n).toNat < 3) :
    embedded V c (ix2 n (⟨j.val, by have := j.isLt; omega⟩ : Fin 1755))
      = layerT V c (ix2 (⟨(liW (nodes V c) n).toNat, hr⟩ : Fin 3) j) := by
  rw [embedded_eq]
  exact embedAt_layer_of_lt (nodes V c) (layerT V c) (sizeT V c) (colourT V c) n _ j rfl hr

theorem embedded_size_of_lt (j : Fin 250) (hr : (riW (nodes V c) n).toNat < 11) :
    embedded V c (ix2 n (⟨1250 + j.val, by have := j.isLt; omega⟩ : Fin 1755))
      = sizeT V c (ix2 (⟨(riW (nodes V c) n).toNat, hr⟩ : Fin 11) j) := by
  rw [embedded_eq]
  exact embedAt_size_of_lt (nodes V c) (layerT V c) (sizeT V c) (colourT V c) n _ j rfl hr

theorem embedded_colour_of_lt (a : Fin 3) (j : Fin 85) (hr : (ciW (nodes V c) n a).toNat < 256) :
    embedded V c (ix2 n (⟨1500 + 85 * a.val + j.val, by have := j.isLt; have := a.isLt; omega⟩ : Fin 1755))
      = colourT V c (ix2 (⟨(ciW (nodes V c) n a).toNat, hr⟩ : Fin 256) j) := by
  rw [embedded_eq]
  exact embedAt_colour_of_lt (nodes V c) (layerT V c) (sizeT V c) (colourT V c) n _ a j rfl hr

/-- The same under the signed reading of the words: 0 ≤ word < rows. -/
theorem embedded_layer_of_range (j : Fin 250) (h0 : 0 ≤ (liW (nodes V c) n).toInt) (h1 : (liW (nodes V c) n).toInt < 3) :
    embedded V c (ix2 n (⟨j.val, by have := j.isLt; omega⟩ : Fin 1755))
      = layerT V c (ix2 (⟨(liW (nodes V c) n).toNat, toNat_lt_of_toInt h0 (by omega)⟩ : Fin 3) j) :=
  embedded_layer_of_lt V c n j _

theorem embedded_size_of_range (j : Fin 250) (h0 : 0 ≤ (riW (nodes V c) n).toInt) (h1 : (riW (nodes V c) n).toInt < 11) :
    embedded V c (ix2 n (⟨1250 + j.val, by have := j.isLt; omega⟩ : Fin 1755))
      = sizeT V c (ix2 (⟨(riW (nodes V c) n).toNat, toNat_lt_of_toInt h0 (by omega)⟩ : Fin 11) j) :=
  embedded_size_of_lt V c n j _

theorem embedded_colour_of_range (a : Fin 3) (j : Fin 85) (h0 : 0 ≤ (ciW (nodes V c) n a).toInt)
    (h1 : (ciW (nodes V c) n a).toInt < 256) :
    embedded V c (ix2 n (⟨1500 + 85 * a.val + j.val, by have := j.isLt; have := a.isLt; omega⟩ : Fin 1755))
      = colourT V c (ix2 (⟨(ciW (nodes V c) n a).toNat, toNat_lt_of_toInt h0 (by omega)⟩ : Fin 256) j) :=
  embedded_colour_of_lt V c n a j _

end Read

end Arr

end Cert.KernelIdeal.EmbedVal

end
-- ==== Proof.Payloads.lean ====
/- The kernel's seven tiled bodies read at an index of their output tile, at the ideal values: a matrix-product body
   is the sum over the contracted coordinate of the products of its two loaded tiles' entries; a bias-and-rectifier body
   is the leaky rectifier of the loaded tile's entry plus the bias row's entry; the linear body is the product's sum
   plus the bias row's entry. Each is stated at explicit coordinates and again at an arbitrary tile index. -/
import proofs.«102165_j72748156060190_1_alg».proof.Proof.Gen.KernelIdeal.Skeleton
import proofs.«102165_j72748156060190_1_alg».proof.Proof.TileLemmas

noncomputable section

open Idealize.ShloMosaic Idealize.ShloMosaic.TcCoe Idealize.SL.Sem
open Idealize.ShloMosaic.ValueIdx
open scoped BigOperators

namespace Cert.KernelIdeal.RegionVal

open Cert.KernelIdeal Cert.KernelIdeal.Gen

/-! ## The matrix-product bodies (regions 1, 3, 5) -/

theorem pay1_apply (x0 : Vec Ideal S1000x1755 .f32) (x1 : Vec Ideal S1755x512 .f32) (p : Fin 1000) (q : Fin 512) :
    k1_pay1 x0 x1 (ix2 p q) = ∑ k : Fin 1755, x0 (ix2 p k) * x1 (ix2 k q) := by
  unfold k1_pay1
  exact tile_matmul_ix2 dot_S1000x1755_S1755x512_S1000x512_1_0_0_1_n_n_wf x0 x1 _ _ p q

theorem pay1_at (x0 : Vec Ideal S1000x1755 .f32) (x1 : Vec Ideal S1755x512 .f32) (y : S1000x512.Idx) :
    k1_pay1 x0 x1 y = ∑ k : Fin 1755, x0 (ix2 (⟨(y 0).val, idx2_lt0 y⟩ : Fin 1000) k)
      * x1 (ix2 k (⟨(y 1).val, idx2_lt1 y⟩ : Fin 512)) := by
  obtain ⟨p, q, rfl⟩ : ∃ (p : Fin 1000) (q : Fin 512), y = ix2 p q := ⟨y 0, y 1, eq_ix2 y⟩
  exact pay1_apply x0 x1 p q

theorem pay3_apply (x0 : Vec Ideal S1000x512 .f32) (x1 : Vec Ideal S512x256 .f32) (p : Fin 1000) (q : Fin 256) :
    k3_pay1 x0 x1 (ix2 p q) = ∑ k : Fin 512, x0 (ix2 p k) * x1 (ix2 k q) := by
  unfold k3_pay1
  exact tile_matmul_ix2 dot_S1000x512_S512x256_S1000x256_1_0_0_1_n_n_wf x0 x1 _ _ p q

theorem pay3_at (x0 : Vec Ideal S1000x512 .f32) (x1 : Vec Ideal S512x256 .f32) (y : S1000x256.Idx) :
    k3_pay1 x0 x1 y = ∑ k : Fin 512, x0 (ix2 (⟨(y 0).val, idx2_lt0 y⟩ : Fin 1000) k)
      * x1 (ix2 k (⟨(y 1).val, idx2_lt1 y⟩ : Fin 256)) := by
  obtain ⟨p, q, rfl⟩ : ∃ (p : Fin 1000) (q : Fin 256), y = ix2 p q := ⟨y 0, y 1, eq_ix2 y⟩
  exact pay3_apply x0 x1 p q

theorem pay5_apply (x0 : Vec Ideal S1000x256 .f32) (x1 : Vec Ideal S256x64 .f32) (p : Fin 1000) (q : Fin 64) :
    k5_pay1 x0 x1 (ix2 p q) = ∑ k : Fin 256, x0 (ix2 p k) * x1 (ix2 k q) := by
  unfold k5_pay1
  exact tile_matmul_ix2 dot_S1000x256_S256x64_S1000x64_1_0_0_1_n_n_wf x0 x1 _ _ p q

theorem pay5_at (x0 : Vec Ideal S1000x256 .f32) (x1 : Vec Ideal S256x64 .f32) (y : S1000x64.Idx) :
    k5_pay1 x0 x1 y = ∑ k : Fin 256, x0 (ix2 (⟨(y 0).val, idx2_lt0 y⟩ : Fin 1000) k)
      * x1 (ix2 k (⟨(y 1).val, idx2_lt1 y⟩ : Fin 64)) := by
  obtain ⟨p, q, rfl⟩ : ∃ (p : Fin 1000) (q : Fin 64), y = ix2 p q := ⟨y 0, y 1, eq_ix2 y⟩
  exact pay5_apply x0 x1 p q

/-! ## The bias-and-rectifier bodies (regions 2, 4, 6) -/

theorem pay2_apply (x0 : Vec Ideal S1000x512 .f32) (x1 : Vec Ideal S1x512 .f32) (p : Fin 1000) (q : Fin 512) :
    k2_pay1 x0 x1 (ix2 p q) = leaky (x0 (ix2 p q) + x1 (ix2 (0 : Fin 1) q)) := by
  unfold k2_pay1
  exact tile_bias_leaky_ix2 x0 x1 _ _ _ p q

theorem pay2_at (x0 : Vec Ideal S1000x512 .f32) (x1 : Vec Ideal S1x512 .f32) (y : S1000x512.Idx) :
    k2_pay1 x0 x1 y = leaky (x0 (ix2 (⟨(y 0).val, idx2_lt0 y⟩ : Fin 1000) (⟨(y 1).val, idx2_lt1 y⟩ : Fin 512))
      + x1 (ix2 (0 : Fin 1) (⟨(y 1).val, idx2_lt1 y⟩ : Fin 512))) := by
  obtain ⟨p, q, rfl⟩ : ∃ (p : Fin 1000) (q : Fin 512), y = ix2 p q := ⟨y 0, y 1, eq_ix2 y⟩
  exact pay2_apply x0 x1 p q

theorem pay4_apply (x0 : Vec Ideal S1000x256 .f32) (x1 : Vec Ideal S1x256 .f32) (p : Fin 1000) (q : Fin 256) :
    k4_pay1 x0 x1 (ix2 p q) = leaky (x0 (ix2 p q) + x1 (ix2 (0 : Fin 1) q)) := by
  unfold k4_pay1
  exact tile_bias_leaky_ix2 x0 x1 _ _ _ p q

theorem pay4_at (x0 : Vec Ideal S1000x256 .f32) (x1 : Vec Ideal S1x256 .f32) (y : S1000x256.Idx) :
    k4_pay1 x0 x1 y = leaky (x0 (ix2 (⟨(y 0).val, idx2_lt0 y⟩ : Fin 1000) (⟨(y 1).val, idx2_lt1 y⟩ : Fin 256))
      + x1 (ix2 (0 : Fin 1) (⟨(y 1).val, idx2_lt1 y⟩ : Fin 256))) := by
  obtain ⟨p, q, rfl⟩ : ∃ (p : Fin 1000) (q : Fin 256), y = ix2 p q := ⟨y 0, y 1, eq_ix2 y⟩
  exact pay4_apply x0 x1 p q

theorem pay6_apply (x0 : Vec Ideal S1000x64 .f32) (x1 : Vec Ideal S1x64 .f32) (p : Fin 1000) (q : Fin 64) :
    k6_pay1 x0 x1 (ix2 p q) = leaky (x0 (ix2 p q) + x1 (ix2 (0 : Fin 1) q)) := by
  unfold k6_pay1
  exact tile_bias_leaky_ix2 x0 x1 _ _ _ p q

theorem pay6_at (x0 : Vec Ideal S1000x64 .f32) (x1 : Vec Ideal S1x64 .f32) (y : S1000x64.Idx) :
    k6_pay1 x0 x1 y = leaky (x0 (ix2 (⟨(y 0).val, idx2_lt0 y⟩ : Fin 1000) (⟨(y 1).val, idx2_lt1 y⟩ : Fin 64))
      + x1 (ix2 (0 : Fin 1) (⟨(y 1).val, idx2_lt1 y⟩ : Fin 64))) := by
  obtain ⟨p, q, rfl⟩ : ∃ (p : Fin 1000) (q : Fin 64), y = ix2 p q := ⟨y 0, y 1, eq_ix2 y⟩
  exact pay6_apply x0 x1 p q

/-! ## The linear body (region 7) -/

theorem pay7_apply (x0 : Vec Ideal S1000x64 .f32) (x1 : Vec Ideal S64x3 .f32) (x2 : Vec Ideal S1x3 .f32)
    (p : Fin 1000) (q : Fin 3) :
    k7_pay1 x0 x1 x2 (ix2 p q) = (∑ k : Fin 64, x0 (ix2 p k) * x1 (ix2 k q)) + x2 (ix2 (0 : Fin 1) q) := by
  unfold k7_pay1
  exact tile_linear_ix2 dot_S1000x64_S64x3_S1000x3_1_0_0_1_n_n_wf x0 x1 x2 _ _ _ _ p q

theorem pay7_at (x0 : Vec Ideal S1000x64 .f32) (x1 : Vec Ideal S64x3 .f32) (x2 : Vec Ideal S1x3 .f32) (y : S1000x3.Idx) :
    k7_pay1 x0 x1 x2 y = (∑ k : Fin 64, x0 (ix2 (⟨(y 0).val, idx2_lt0 y⟩ : Fin 1000) k)
      * x1 (ix2 k (⟨(y 1).val, idx2_lt1 y⟩ : Fin 3))) + x2 (ix2 (0 : Fin 1) (⟨(y 1).val, idx2_lt1 y⟩ : Fin 3)) := by
  obtain ⟨p, q, rfl⟩ : ∃ (p : Fin 1000) (q : Fin 3), y = ix2 p q := ⟨y 0, y 1, eq_ix2 y⟩
  exact pay7_apply x0 x1 x2 p q

end Cert.KernelIdeal.RegionVal

end
-- ==== Proof.RegionMatmul1.lean ====
/- The value of the kernel's first matrix-product region (custom call 1), read off the generated frame at the ideal
   values: after the region its output array is, index by index, the product of the two entry arrays — the sum over
   the contracted coordinate of the products of their entries. The grid's twenty points each write one 1000-row tile;
   the tiles cover the 20000 rows. -/
import proofs.«102165_j72748156060190_1_alg».proof.Proof.Gen.KernelIdeal.Frame
import proofs.«102165_j72748156060190_1_alg».proof.Proof.TileLemmas
import proofs.«102165_j72748156060190_1_alg».proof.Proof.Payloads
import Idealize.ShloMosaic.Lib.Pipeline.Value

noncomputable section

open Idealize.ShloMosaic Idealize.ShloMosaic.TcCoe Idealize.SL.Sem
open Idealize.ShloMosaic.Pipeline (Dat)
open Idealize.ShloMosaic.ValueIdx
open scoped BigOperators

namespace Cert.KernelIdeal.RegionVal

open Cert.KernelIdeal Cert.KernelIdeal.Gen

-- the TensorCore's buffer contents when the region is entered, at the ideal values
variable (V : (c : Dev nD) → (b : Ref sig .tc) → Buf (Elt Ideal) ((c : Thread nD τ).loc b))

/-! # Region 1: [20000, 1755] × [1755, 512] -/

/-- The printed index maps over the grid: the left operand's and the output's tiles move down the rows with the
    point, the right operand is one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's tile at point `t` is rows `1000 t … 1000 t + 999` of its array. -/
theorem iblk1_0_apply (c : Dev nD) (t : Fin cfg1.N) (p : Fin 1000) (k : Fin 1755) (r : Fin 20000)
    (hr : r.val = t.val * 1000 + p.val) :
    (iblk1 V c 0 t : S1000x1755.Idx → EReal) (ix2 p k)
      = (V c (Pipeline.arrRef spec1 0) : S20000x1755.Idx → EReal) (ix2 r k) := by
  obtain ⟨e0, e1, -⟩ := idx1 t
  unfold iblk1
  rw [View.read_apply]
  show (V c (Pipeline.arrRef spec1 0) : S20000x1755.Idx → EReal) _ = _
  refine congrArg _ ?_
  funext a
  apply Fin.ext
  match a with
  | ⟨0, _⟩ => show win1_0.index t (0 : Fin 2) * 1000 + 1 * p.val = r.val; rw [e0, hr]; omega
  | ⟨1, _⟩ => show win1_0.index t (1 : Fin 2) * 1755 + 1 * k.val = k.val; rw [e1]; omega

/-- The right operand's block at every point is its whole array. -/
theorem iblk1_1_apply (c : Dev nD) (t : Fin cfg1.N) (k : Fin 1755) (q q' : Fin 512) (hq : q'.val = q.val) :
    (iblk1 V c 1 t : S1755x512.Idx → EReal) (ix2 k q)
      = (V c (Pipeline.arrRef spec1 1) : S1755x512.Idx → EReal) (ix2 k q') := by
  obtain ⟨-, -, e0, e1, -⟩ := idx1 t
  unfold iblk1
  rw [View.read_apply]
  show (V c (Pipeline.arrRef spec1 1) : S1755x512.Idx → EReal) _ = _
  refine congrArg _ ?_
  funext a
  apply Fin.ext
  match a with
  | ⟨0, _⟩ => show win1_1.index t (0 : Fin 2) * 1755 + 1 * k.val = k.val; rw [e0]; omega
  | ⟨1, _⟩ => show win1_1.index t (1 : Fin 2) * 512 + 1 * q.val = q'.val; rw [e1, hq]; omega

/-- What point `t` writes back is its tile of the product of the two entry arrays. -/
theorem flushed1 (c : Dev nD) (t : Fin cfg1.N) :
    (dat1 V c).flushed 2 t = ((cfg1.win 2).blk t).view.read (Elt Ideal)
      (mm 20000 1755 512 (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S1000x1755) hz, View.ld_unit_zero (S := S1755x512) hz]
  obtain ⟨-, -, -, -, e0, e1⟩ := idx1 t
  funext y
  show k1_pay1 (iblk1 V c 0 t) (iblk1 V c 1 t) ((cfg1.win 2).xinj (grid1.coords t) y) = _
  refine (pay1_at (iblk1 V c 0 t) (iblk1 V c 1 t) _).trans ?_
  show _ = mm 20000 1755 512 (V c (Pipeline.arrRef spec1 0)) (V c (Pipeline.arrRef spec1 1)) (((cfg1.win 2).blk t).view.emb y)
  unfold mm
  refine Finset.sum_congr rfl fun k _ => ?_
  congr 1
  · refine iblk1_0_apply V c t _ k _ ?_
    show win1_2.index t (0 : Fin 2) * 1000 + 1 * (y 0).val = t.val * 1000 + (y 0).val
    rw [e0]; omega
  · refine iblk1_1_apply V c t k _ _ ?_
    show win1_2.index t (1 : Fin 2) * 512 + 1 * (y 1).val = (y 1).val
    rw [e1]; omega

/-- An index of the output array is in point `t`'s tile iff each coordinate is in the tile's range on its axis. -/
theorem mem_blk1 (t : Fin cfg1.N) (i : S20000x512.Idx) :
    i ∈ ((cfg1.win 2).blk t).view.set ↔ ∀ a : Fin 2, win1_2.index t a * S1000x512.size a ≤ (i a).val
      ∧ (i a).val < win1_2.index t a * S1000x512.size a + S1000x512.size a := by
  show i ∈ ((View.whole main_v5).slice (win1_2.rect t)).set ↔ _
  rw [View.set_slice_whole, Rect.mem_set_unit]
  exact Iff.rfl

/-- Every index of the output array is in some point's tile: row `r` in tile `r / 1000`. -/
theorem cover1 (i : S20000x512.Idx) :
    ∃ t : Fin cfg1.N, (cfg1.win 2).flush t = true ∧ i ∈ ((cfg1.win 2).blk t).view.set := by
  have hi0 : (i 0).val < 20000 := idx2_lt0 i
  have hi1 : (i 1).val < 512 := idx2_lt1 i
  have hN : cfg1.N = 20 := N_1
  obtain ⟨h20, hlo, hhi⟩ := tile_of_row (i 0).val hi0
  have ht : (i 0).val / 1000 < cfg1.N := by rw [hN]; exact h20
  obtain ⟨-, -, -, -, e0, e1⟩ := idx1 ⟨(i 0).val / 1000, ht⟩
  have e0' : win1_2.index ⟨(i 0).val / 1000, ht⟩ (0 : Fin 2) = (i 0).val / 1000 := e0
  refine ⟨⟨(i 0).val / 1000, ht⟩, flush1_2 _, ?_⟩
  rw [mem_blk1]
  intro a
  match a with
  | ⟨0, _⟩ =>
    show win1_2.index ⟨(i 0).val / 1000, ht⟩ (0 : Fin 2) * 1000 ≤ (i 0).val
      ∧ (i 0).val < win1_2.index ⟨(i 0).val / 1000, ht⟩ (0 : Fin 2) * 1000 + 1000
    rw [e0']; exact ⟨hlo, hhi⟩
  | ⟨1, _⟩ =>
    show win1_2.index ⟨(i 0).val / 1000, ht⟩ (1 : Fin 2) * 512 ≤ (i 1).val
      ∧ (i 1).val < win1_2.index ⟨(i 0).val / 1000, ht⟩ (1 : Fin 2) * 512 + 512
    rw [e1]; omega

/-- The output array after the region is the product of the two entry arrays. -/
theorem final1 (c : Dev nD) :
    (dat1 V c).arrAt 2 cfg1.N = mm 20000 1755 512 (V c (Pipeline.arrRef spec1 0)) (V c (Pipeline.arrRef spec1 1)) :=
  (dat1 V c).arrAt_eq_of_cover 2 _ (fun t _ => flushed1 V c t) cover1

/-- REGION 1 AT AN INDEX: row `n`, column `j` of the output array after the region is the sum over the contracted
    coordinate of the products of the entry arrays' entries. -/
theorem region1_val (c : Dev nD) (n : Fin 20000) (j : Fin 512) :
    arr2 20000 512 ((dat1 V c).arrAt 2 cfg1.N) (ix2 n j)
      = ∑ k : Fin 1755, arr2 20000 1755 (V c (Pipeline.arrRef spec1 0)) (ix2 n k)
          * arr2 1755 512 (V c (Pipeline.arrRef spec1 1)) (ix2 k j) :=
  (congrFun (final1 V c) (ix2 n j)).trans (mm_ix2 20000 1755 512 _ _ n j)

end Cert.KernelIdeal.RegionVal

end
-- ==== Proof.RegionMatmul3.lean ====
/- The value of the kernel's second matrix-product region (custom call 3), read off the generated frame at the ideal
   values: after the region its output array is, index by index, the product of the two entry arrays — the sum over
   the contracted coordinate of the products of their entries. Twenty points, one 1000-row tile each, cover the 20000
   rows. -/
import proofs.«102165_j72748156060190_1_alg».proof.Proof.Gen.KernelIdeal.Frame
import proofs.«102165_j72748156060190_1_alg».proof.Proof.TileLemmas
import Idealize.ShloMosaic.Lib.Pipeline.Value
import proofs.«102165_j72748156060190_1_alg».proof.Proof.Payloads

noncomputable section

open Idealize.ShloMosaic Idealize.ShloMosaic.TcCoe Idealize.SL.Sem
open Idealize.ShloMosaic.Pipeline (Dat)
open Idealize.ShloMosaic.ValueIdx
open scoped BigOperators

namespace Cert.KernelIdeal.RegionVal

open Cert.KernelIdeal Cert.KernelIdeal.Gen

-- the TensorCore's buffer contents when the region is entered, at the ideal values
variable (V : (c : Dev nD) → (b : Ref sig .tc) → Buf (Elt Ideal) ((c : Thread nD τ).loc b))

/-! # Region 3: [20000, 512] × [512, 256] -/

/-- The printed index maps over the grid: the left operand's and the output's tiles move down the rows with the
    point, the right operand is one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left operand's tile at point `t` is rows `1000 t … 1000 t + 999` of its array. -/
theorem iblk3_0_apply (c : Dev nD) (t : Fin cfg3.N) (p : Fin 1000) (k : Fin 512) (r : Fin 20000)
    (hr : r.val = t.val * 1000 + p.val) :
    (iblk3 V c 0 t : S1000x512.Idx → EReal) (ix2 p k)
      = (V c (Pipeline.arrRef spec3 0) : S20000x512.Idx → EReal) (ix2 r k) := by
  obtain ⟨e0, e1, -⟩ := idx3 t
  unfold iblk3
  rw [View.read_apply]
  show (V c (Pipeline.arrRef spec3 0) : S20000x512.Idx → EReal) _ = _
  refine congrArg _ ?_
  funext a
  apply Fin.ext
  match a with
  | ⟨0, _⟩ => show win3_0.index t (0 : Fin 2) * 1000 + 1 * p.val = r.val; rw [e0, hr]; omega
  | ⟨1, _⟩ => show win3_0.index t (1 : Fin 2) * 512 + 1 * k.val = k.val; rw [e1]; omega

/-- The right operand's block at every point is its whole array. -/
theorem iblk3_1_apply (c : Dev nD) (t : Fin cfg3.N) (k : Fin 512) (q q' : Fin 256) (hq : q'.val = q.val) :
    (iblk3 V c 1 t : S512x256.Idx → EReal) (ix2 k q)
      = (V c (Pipeline.arrRef spec3 1) : S512x256.Idx → EReal) (ix2 k q') := by
  obtain ⟨-, -, e0, e1, -⟩ := idx3 t
  unfold iblk3
  rw [View.read_apply]
  show (V c (Pipeline.arrRef spec3 1) : S512x256.Idx → EReal) _ = _
  refine congrArg _ ?_
  funext a
  apply Fin.ext
  match a with
  | ⟨0, _⟩ => show win3_1.index t (0 : Fin 2) * 512 + 1 * k.val = k.val; rw [e0]; omega
  | ⟨1, _⟩ => show win3_1.index t (1 : Fin 2) * 256 + 1 * q.val = q'.val; rw [e1, hq]; omega

/-- What point `t` writes back is its tile of the product of the two entry arrays. -/
theorem flushed3 (c : Dev nD) (t : Fin cfg3.N) :
    (dat3 V c).flushed 2 t = ((cfg3.win 2).blk t).view.read (Elt Ideal)
      (mm 20000 512 256 (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S1000x512) hz, View.ld_unit_zero (S := S512x256) hz]
  obtain ⟨-, -, -, -, e0, e1⟩ := idx3 t
  funext y
  show k3_pay1 (iblk3 V c 0 t) (iblk3 V c 1 t) ((cfg3.win 2).xinj (grid3.coords t) y) = _
  refine (pay3_at (iblk3 V c 0 t) (iblk3 V c 1 t) _).trans ?_
  show _ = mm 20000 512 256 (V c (Pipeline.arrRef spec3 0)) (V c (Pipeline.arrRef spec3 1)) (((cfg3.win 2).blk t).view.emb y)
  unfold mm
  refine Finset.sum_congr rfl fun k _ => ?_
  congr 1
  · refine iblk3_0_apply V c t _ k _ ?_
    show win3_2.index t (0 : Fin 2) * 1000 + 1 * (y 0).val = t.val * 1000 + (y 0).val
    rw [e0]; omega
  · refine iblk3_1_apply V c t k _ _ ?_
    show win3_2.index t (1 : Fin 2) * 256 + 1 * (y 1).val = (y 1).val
    rw [e1]; omega

/-- An index of the output array is in point `t`'s tile iff each coordinate is in the tile's range on its axis. -/
theorem mem_blk3 (t : Fin cfg3.N) (i : S20000x256.Idx) :
    i ∈ ((cfg3.win 2).blk t).view.set ↔ ∀ a : Fin 2, win3_2.index t a * S1000x256.size a ≤ (i a).val
      ∧ (i a).val < win3_2.index t a * S1000x256.size a + S1000x256.size a := by
  show i ∈ ((View.whole main_v51).slice (win3_2.rect t)).set ↔ _
  rw [View.set_slice_whole, Rect.mem_set_unit]
  exact Iff.rfl

/-- Every index of the output array is in some point's tile: row `r` in tile `r / 1000`. -/
theorem cover3 (i : S20000x256.Idx) :
    ∃ t : Fin cfg3.N, (cfg3.win 2).flush t = true ∧ i ∈ ((cfg3.win 2).blk t).view.set := by
  have hi0 : (i 0).val < 20000 := idx2_lt0 i
  have hi1 : (i 1).val < 256 := idx2_lt1 i
  have hN : cfg3.N = 20 := N_3
  obtain ⟨h20, hlo, hhi⟩ := tile_of_row (i 0).val hi0
  have ht : (i 0).val / 1000 < cfg3.N := by rw [hN]; exact h20
  obtain ⟨-, -, -, -, e0, e1⟩ := idx3 ⟨(i 0).val / 1000, ht⟩
  have e0' : win3_2.index ⟨(i 0).val / 1000, ht⟩ (0 : Fin 2) = (i 0).val / 1000 := e0
  refine ⟨⟨(i 0).val / 1000, ht⟩, flush3_2 _, ?_⟩
  rw [mem_blk3]
  intro a
  match a with
  | ⟨0, _⟩ =>
    show win3_2.index ⟨(i 0).val / 1000, ht⟩ (0 : Fin 2) * 1000 ≤ (i 0).val
      ∧ (i 0).val < win3_2.index ⟨(i 0).val / 1000, ht⟩ (0 : Fin 2) * 1000 + 1000
    rw [e0']; exact ⟨hlo, hhi⟩
  | ⟨1, _⟩ =>
    show win3_2.index ⟨(i 0).val / 1000, ht⟩ (1 : Fin 2) * 256 ≤ (i 1).val
      ∧ (i 1).val < win3_2.index ⟨(i 0).val / 1000, ht⟩ (1 : Fin 2) * 256 + 256
    rw [e1]; omega

/-- The output array after the region is the product of the two entry arrays. -/
theorem final3 (c : Dev nD) :
    (dat3 V c).arrAt 2 cfg3.N = mm 20000 512 256 (V c (Pipeline.arrRef spec3 0)) (V c (Pipeline.arrRef spec3 1)) :=
  (dat3 V c).arrAt_eq_of_cover 2 _ (fun t _ => flushed3 V c t) cover3

/-- REGION 3 AT AN INDEX: row `n`, column `j` of the output array after the region is the sum over the contracted
    coordinate of the products of the entry arrays' entries. -/
theorem region3_val (c : Dev nD) (n : Fin 20000) (j : Fin 256) :
    arr2 20000 256 ((dat3 V c).arrAt 2 cfg3.N) (ix2 n j)
      = ∑ k : Fin 512, arr2 20000 512 (V c (Pipeline.arrRef spec3 0)) (ix2 n k)
          * arr2 512 256 (V c (Pipeline.arrRef spec3 1)) (ix2 k j) :=
  (congrFun (final3 V c) (ix2 n j)).trans (mm_ix2 20000 512 256 _ _ n j)

end Cert.KernelIdeal.RegionVal

end
-- ==== Proof.RegionMatmul5.lean ====
/- The value of the kernel's third matrix-product region (custom call 5), read off the generated frame at the ideal
   values: after the region its output array is, index by index, the product of the two entry arrays — the sum over
   the contracted coordinate of the products of their entries. Twenty points, one 1000-row tile each, cover the 20000
   rows. -/
import proofs.«102165_j72748156060190_1_alg».proof.Proof.Gen.KernelIdeal.Frame
import proofs.«102165_j72748156060190_1_alg».proof.Proof.TileLemmas
import Idealize.ShloMosaic.Lib.Pipeline.Value
import proofs.«102165_j72748156060190_1_alg».proof.Proof.Payloads

noncomputable section

open Idealize.ShloMosaic Idealize.ShloMosaic.TcCoe Idealize.SL.Sem
open Idealize.ShloMosaic.Pipeline (Dat)
open Idealize.ShloMosaic.ValueIdx
open scoped BigOperators

namespace Cert.KernelIdeal.RegionVal

open Cert.KernelIdeal Cert.KernelIdeal.Gen

-- the TensorCore's buffer contents when the region is entered, at the ideal values
variable (V : (c : Dev nD) → (b : Ref sig .tc) → Buf (Elt Ideal) ((c : Thread nD τ).loc b))

/-! # Region 5: [20000, 256] × [256, 64] -/

/-- The printed index maps over the grid: the left operand's and the output's tiles move down the rows with the
    point, the right operand is one block. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The left operand's tile at point `t` is rows `1000 t … 1000 t + 999` of its array. -/
theorem iblk5_0_apply (c : Dev nD) (t : Fin cfg5.N) (p : Fin 1000) (k : Fin 256) (r : Fin 20000)
    (hr : r.val = t.val * 1000 + p.val) :
    (iblk5 V c 0 t : S1000x256.Idx → EReal) (ix2 p k)
      = (V c (Pipeline.arrRef spec5 0) : S20000x256.Idx → EReal) (ix2 r k) := by
  obtain ⟨e0, e1, -⟩ := idx5 t
  unfold iblk5
  rw [View.read_apply]
  show (V c (Pipeline.arrRef spec5 0) : S20000x256.Idx → EReal) _ = _
  refine congrArg _ ?_
  funext a
  apply Fin.ext
  match a with
  | ⟨0, _⟩ => show win5_0.index t (0 : Fin 2) * 1000 + 1 * p.val = r.val; rw [e0, hr]; omega
  | ⟨1, _⟩ => show win5_0.index t (1 : Fin 2) * 256 + 1 * k.val = k.val; rw [e1]; omega

/-- The right operand's block at every point is its whole array. -/
theorem iblk5_1_apply (c : Dev nD) (t : Fin cfg5.N) (k : Fin 256) (q q' : Fin 64) (hq : q'.val = q.val) :
    (iblk5 V c 1 t : S256x64.Idx → EReal) (ix2 k q)
      = (V c (Pipeline.arrRef spec5 1) : S256x64.Idx → EReal) (ix2 k q') := by
  obtain ⟨-, -, e0, e1, -⟩ := idx5 t
  unfold iblk5
  rw [View.read_apply]
  show (V c (Pipeline.arrRef spec5 1) : S256x64.Idx → EReal) _ = _
  refine congrArg _ ?_
  funext a
  apply Fin.ext
  match a with
  | ⟨0, _⟩ => show win5_1.index t (0 : Fin 2) * 256 + 1 * k.val = k.val; rw [e0]; omega
  | ⟨1, _⟩ => show win5_1.index t (1 : Fin 2) * 64 + 1 * q.val = q'.val; rw [e1, hq]; omega

/-- What point `t` writes back is its tile of the product of the two entry arrays. -/
theorem flushed5 (c : Dev nD) (t : Fin cfg5.N) :
    (dat5 V c).flushed 2 t = ((cfg5.win 2).blk t).view.read (Elt Ideal)
      (mm 20000 256 64 (V c (Pipeline.arrRef spec5 0)) (V c (Pipeline.arrRef spec5 1))) := by
  show (cfg5.win 2).cut (grid5.coords t) ((dat5 V c).after 2 t) = _
  rw [after5_2]
  unfold out5_2
  rw [View.canon_unit_zero hz]
  simp only [View.ld_unit_zero (S := S1000x256) hz, View.ld_unit_zero (S := S256x64) hz]
  obtain ⟨-, -, -, -, e0, e1⟩ := idx5 t
  funext y
  show k5_pay1 (iblk5 V c 0 t) (iblk5 V c 1 t) ((cfg5.win 2).xinj (grid5.coords t) y) = _
  refine (pay5_at (iblk5 V c 0 t) (iblk5 V c 1 t) _).trans ?_
  show _ = mm 20000 256 64 (V c (Pipeline.arrRef spec5 0)) (V c (Pipeline.arrRef spec5 1)) (((cfg5.win 2).blk t).view.emb y)
  unfold mm
  refine Finset.sum_congr rfl fun k _ => ?_
  congr 1
  · refine iblk5_0_apply V c t _ k _ ?_
    show win5_2.index t (0 : Fin 2) * 1000 + 1 * (y 0).val = t.val * 1000 + (y 0).val
    rw [e0]; omega
  · refine iblk5_1_apply V c t k _ _ ?_
    show win5_2.index t (1 : Fin 2) * 64 + 1 * (y 1).val = (y 1).val
    rw [e1]; omega

/-- An index of the output array is in point `t`'s tile iff each coordinate is in the tile's range on its axis. -/
theorem mem_blk5 (t : Fin cfg5.N) (i : S20000x64.Idx) :
    i ∈ ((cfg5.win 2).blk t).view.set ↔ ∀ a : Fin 2, win5_2.index t a * S1000x64.size a ≤ (i a).val
      ∧ (i a).val < win5_2.index t a * S1000x64.size a + S1000x64.size a := by
  show i ∈ ((View.whole main_v97).slice (win5_2.rect t)).set ↔ _
  rw [View.set_slice_whole, Rect.mem_set_unit]
  exact Iff.rfl

/-- Every index of the output array is in some point's tile: row `r` in tile `r / 1000`. -/
theorem cover5 (i : S20000x64.Idx) :
    ∃ t : Fin cfg5.N, (cfg5.win 2).flush t = true ∧ i ∈ ((cfg5.win 2).blk t).view.set := by
  have hi0 : (i 0).val < 20000 := idx2_lt0 i
  have hi1 : (i 1).val < 64 := idx2_lt1 i
  have hN : cfg5.N = 20 := N_5
  obtain ⟨h20, hlo, hhi⟩ := tile_of_row (i 0).val hi0
  have ht : (i 0).val / 1000 < cfg5.N := by rw [hN]; exact h20
  obtain ⟨-, -, -, -, e0, e1⟩ := idx5 ⟨(i 0).val / 1000, ht⟩
  have e0' : win5_2.index ⟨(i 0).val / 1000, ht⟩ (0 : Fin 2) = (i 0).val / 1000 := e0
  refine ⟨⟨(i 0).val / 1000, ht⟩, flush5_2 _, ?_⟩
  rw [mem_blk5]
  intro a
  match a with
  | ⟨0, _⟩ =>
    show win5_2.index ⟨(i 0).val / 1000, ht⟩ (0 : Fin 2) * 1000 ≤ (i 0).val
      ∧ (i 0).val < win5_2.index ⟨(i 0).val / 1000, ht⟩ (0 : Fin 2) * 1000 + 1000
    rw [e0']; exact ⟨hlo, hhi⟩
  | ⟨1, _⟩ =>
    show win5_2.index ⟨(i 0).val / 1000, ht⟩ (1 : Fin 2) * 64 ≤ (i 1).val
      ∧ (i 1).val < win5_2.index ⟨(i 0).val / 1000, ht⟩ (1 : Fin 2) * 64 + 64
    rw [e1]; omega

/-- The output array after the region is the product of the two entry arrays. -/
theorem final5 (c : Dev nD) :
    (dat5 V c).arrAt 2 cfg5.N = mm 20000 256 64 (V c (Pipeline.arrRef spec5 0)) (V c (Pipeline.arrRef spec5 1)) :=
  (dat5 V c).arrAt_eq_of_cover 2 _ (fun t _ => flushed5 V c t) cover5

/-- REGION 5 AT AN INDEX: row `n`, column `j` of the output array after the region is the sum over the contracted
    coordinate of the products of the entry arrays' entries. -/
theorem region5_val (c : Dev nD) (n : Fin 20000) (j : Fin 64) :
    arr2 20000 64 ((dat5 V c).arrAt 2 cfg5.N) (ix2 n j)
      = ∑ k : Fin 256, arr2 20000 256 (V c (Pipeline.arrRef spec5 0)) (ix2 n k)
          * arr2 256 64 (V c (Pipeline.arrRef spec5 1)) (ix2 k j) :=
  (congrFun (final5 V c) (ix2 n j)).trans (mm_ix2 20000 256 64 _ _ n j)

end Cert.KernelIdeal.RegionVal

end
-- ==== Proof.RegionBiasAct2.lean ====
/- The value of the kernel's first bias-and-rectifier region (custom call 2), read off the generated frame at the ideal
   values: after the region its output array is, index by index, the leaky rectifier of the first entry array's entry
   plus the one-row bias array's entry in that column. Twenty points, one 1000-row tile each, cover the 20000 rows. -/
import proofs.«102165_j72748156060190_1_alg».proof.Proof.Gen.KernelIdeal.Frame
import proofs.«102165_j72748156060190_1_alg».proof.Proof.TileLemmas
import Idealize.ShloMosaic.Lib.Pipeline.Value
import proofs.«102165_j72748156060190_1_alg».proof.Proof.Payloads

noncomputable section

open Idealize.ShloMosaic Idealize.ShloMosaic.TcCoe Idealize.SL.Sem
open Idealize.ShloMosaic.Pipeline (Dat)
open Idealize.ShloMosaic.ValueIdx
open scoped BigOperators

namespace Cert.KernelIdeal.RegionVal

open Cert.KernelIdeal Cert.KernelIdeal.Gen

-- the TensorCore's buffer contents when the region is entered, at the ideal values
variable (V : (c : Dev nD) → (b : Ref sig .tc) → Buf (Elt Ideal) ((c : Thread nD τ).loc b))

/-! # Region 2: [20000, 512] plus the row [1, 512], through the leaky rectifier -/

/-- The printed index maps over the grid: the operand's and the output's tiles move down the rows with the point, the
    bias row is one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The operand's tile at point `t` is rows `1000 t … 1000 t + 999` of its array. -/
theorem iblk2_0_apply (c : Dev nD) (t : Fin cfg2.N) (p : Fin 1000) (q : Fin 512) (r : Fin 20000) (q' : Fin 512)
    (hr : r.val = t.val * 1000 + p.val) (hq : q'.val = q.val) :
    (iblk2 V c 0 t : S1000x512.Idx → EReal) (ix2 p q)
      = (V c (Pipeline.arrRef spec2 0) : S20000x512.Idx → EReal) (ix2 r q') := by
  obtain ⟨e0, e1, -⟩ := idx2 t
  unfold iblk2
  rw [View.read_apply]
  show (V c (Pipeline.arrRef spec2 0) : S20000x512.Idx → EReal) _ = _
  refine congrArg _ ?_
  funext a
  apply Fin.ext
  match a with
  | ⟨0, _⟩ => show win2_0.index t (0 : Fin 2) * 1000 + 1 * p.val = r.val; rw [e0, hr]; omega
  | ⟨1, _⟩ => show win2_0.index t (1 : Fin 2) * 512 + 1 * q.val = q'.val; rw [e1, hq]; omega

/-- The bias row's block at every point is its whole array. -/
theorem iblk2_1_apply (c : Dev nD) (t : Fin cfg2.N) (q q' : Fin 512) (hq : q'.val = q.val) :
    (iblk2 V c 1 t : S1x512.Idx → EReal) (ix2 (0 : Fin 1) q)
      = (V c (Pipeline.arrRef spec2 1) : S1x512.Idx → EReal) (ix2 (0 : Fin 1) q') := by
  obtain ⟨-, -, e0, e1, -⟩ := idx2 t
  unfold iblk2
  rw [View.read_apply]
  show (V c (Pipeline.arrRef spec2 1) : S1x512.Idx → EReal) _ = _
  refine congrArg _ ?_
  funext a
  apply Fin.ext
  match a with
  | ⟨0, _⟩ => show win2_1.index t (0 : Fin 2) * 1 + 1 * 0 = 0; rw [e0]
  | ⟨1, _⟩ => show win2_1.index t (1 : Fin 2) * 512 + 1 * q.val = q'.val; rw [e1, hq]; omega

/-- What point `t` writes back is its tile of the rectified sum of the two entry arrays. -/
theorem flushed2 (c : Dev nD) (t : Fin cfg2.N) :
    (dat2 V c).flushed 2 t = ((cfg2.win 2).blk t).view.read (Elt Ideal)
      (biasLeaky 20000 512 (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S1000x512) hz, View.ld_unit_zero (S := S1x512) hz]
  obtain ⟨-, -, -, -, e0, e1⟩ := idx2 t
  funext y
  show k2_pay1 (iblk2 V c 0 t) (iblk2 V c 1 t) ((cfg2.win 2).xinj (grid2.coords t) y) = _
  refine (pay2_at (iblk2 V c 0 t) (iblk2 V c 1 t) _).trans ?_
  show _ = biasLeaky 20000 512 (V c (Pipeline.arrRef spec2 0)) (V c (Pipeline.arrRef spec2 1)) (((cfg2.win 2).blk t).view.emb y)
  unfold biasLeaky
  refine congrArg leaky ?_
  congr 1
  · refine iblk2_0_apply V c t _ _ _ _ ?_ ?_
    · show win2_2.index t (0 : Fin 2) * 1000 + 1 * (y 0).val = t.val * 1000 + (y 0).val
      rw [e0]; omega
    · show win2_2.index t (1 : Fin 2) * 512 + 1 * (y 1).val = (y 1).val
      rw [e1]; omega
  · refine iblk2_1_apply V c t _ _ ?_
    show win2_2.index t (1 : Fin 2) * 512 + 1 * (y 1).val = (y 1).val
    rw [e1]; omega

/-- An index of the output array is in point `t`'s tile iff each coordinate is in the tile's range on its axis. -/
theorem mem_blk2 (t : Fin cfg2.N) (i : S20000x512.Idx) :
    i ∈ ((cfg2.win 2).blk t).view.set ↔ ∀ a : Fin 2, win2_2.index t a * S1000x512.size a ≤ (i a).val
      ∧ (i a).val < win2_2.index t a * S1000x512.size a + S1000x512.size a := by
  show i ∈ ((View.whole main_v50).slice (win2_2.rect t)).set ↔ _
  rw [View.set_slice_whole, Rect.mem_set_unit]
  exact Iff.rfl

/-- Every index of the output array is in some point's tile: row `r` in tile `r / 1000`. -/
theorem cover2 (i : S20000x512.Idx) :
    ∃ t : Fin cfg2.N, (cfg2.win 2).flush t = true ∧ i ∈ ((cfg2.win 2).blk t).view.set := by
  have hi0 : (i 0).val < 20000 := idx2_lt0 i
  have hi1 : (i 1).val < 512 := idx2_lt1 i
  have hN : cfg2.N = 20 := N_2
  obtain ⟨h20, hlo, hhi⟩ := tile_of_row (i 0).val hi0
  have ht : (i 0).val / 1000 < cfg2.N := by rw [hN]; exact h20
  obtain ⟨-, -, -, -, e0, e1⟩ := idx2 ⟨(i 0).val / 1000, ht⟩
  have e0' : win2_2.index ⟨(i 0).val / 1000, ht⟩ (0 : Fin 2) = (i 0).val / 1000 := e0
  refine ⟨⟨(i 0).val / 1000, ht⟩, flush2_2 _, ?_⟩
  rw [mem_blk2]
  intro a
  match a with
  | ⟨0, _⟩ =>
    show win2_2.index ⟨(i 0).val / 1000, ht⟩ (0 : Fin 2) * 1000 ≤ (i 0).val
      ∧ (i 0).val < win2_2.index ⟨(i 0).val / 1000, ht⟩ (0 : Fin 2) * 1000 + 1000
    rw [e0']; exact ⟨hlo, hhi⟩
  | ⟨1, _⟩ =>
    show win2_2.index ⟨(i 0).val / 1000, ht⟩ (1 : Fin 2) * 512 ≤ (i 1).val
      ∧ (i 1).val < win2_2.index ⟨(i 0).val / 1000, ht⟩ (1 : Fin 2) * 512 + 512
    rw [e1]; omega

/-- The output array after the region is the rectified sum of the two entry arrays. -/
theorem final2 (c : Dev nD) :
    (dat2 V c).arrAt 2 cfg2.N
      = biasLeaky 20000 512 (V c (Pipeline.arrRef spec2 0)) (V c (Pipeline.arrRef spec2 1)) :=
  (dat2 V c).arrAt_eq_of_cover 2 _ (fun t _ => flushed2 V c t) cover2

/-- REGION 2 AT AN INDEX: row `n`, column `j` of the output array after the region is the leaky rectifier of the
    operand's entry there plus the bias row's entry in column `j`. -/
theorem region2_val (c : Dev nD) (n : Fin 20000) (j : Fin 512) :
    arr2 20000 512 ((dat2 V c).arrAt 2 cfg2.N) (ix2 n j)
      = leaky (arr2 20000 512 (V c (Pipeline.arrRef spec2 0)) (ix2 n j)
          + arr2 1 512 (V c (Pipeline.arrRef spec2 1)) (ix2 (0 : Fin 1) j)) :=
  (congrFun (final2 V c) (ix2 n j)).trans (biasLeaky_ix2 20000 512 _ _ n j)

end Cert.KernelIdeal.RegionVal

end
-- ==== Proof.RegionBiasAct4.lean ====
/- The value of the kernel's second bias-and-rectifier region (custom call 4), read off the generated frame at the
   ideal values: after the region its output array is, index by index, the leaky rectifier of the first entry array's
   entry plus the one-row bias array's entry in that column. Twenty points, one 1000-row tile each, cover the 20000
   rows. -/
import proofs.«102165_j72748156060190_1_alg».proof.Proof.Gen.KernelIdeal.Frame
import proofs.«102165_j72748156060190_1_alg».proof.Proof.TileLemmas
import Idealize.ShloMosaic.Lib.Pipeline.Value
import proofs.«102165_j72748156060190_1_alg».proof.Proof.Payloads

noncomputable section

open Idealize.ShloMosaic Idealize.ShloMosaic.TcCoe Idealize.SL.Sem
open Idealize.ShloMosaic.Pipeline (Dat)
open Idealize.ShloMosaic.ValueIdx
open scoped BigOperators

namespace Cert.KernelIdeal.RegionVal

open Cert.KernelIdeal Cert.KernelIdeal.Gen

-- the TensorCore's buffer contents when the region is entered, at the ideal values
variable (V : (c : Dev nD) → (b : Ref sig .tc) → Buf (Elt Ideal) ((c : Thread nD τ).loc b))

/-! # Region 4: [20000, 256] plus the row [1, 256], through the leaky rectifier -/

/-- The printed index maps over the grid: the operand's and the output's tiles move down the rows with the point, the
    bias row is one block. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The operand's tile at point `t` is rows `1000 t … 1000 t + 999` of its array. -/
theorem iblk4_0_apply (c : Dev nD) (t : Fin cfg4.N) (p : Fin 1000) (q : Fin 256) (r : Fin 20000) (q' : Fin 256)
    (hr : r.val = t.val * 1000 + p.val) (hq : q'.val = q.val) :
    (iblk4 V c 0 t : S1000x256.Idx → EReal) (ix2 p q)
      = (V c (Pipeline.arrRef spec4 0) : S20000x256.Idx → EReal) (ix2 r q') := by
  obtain ⟨e0, e1, -⟩ := idx4 t
  unfold iblk4
  rw [View.read_apply]
  show (V c (Pipeline.arrRef spec4 0) : S20000x256.Idx → EReal) _ = _
  refine congrArg _ ?_
  funext a
  apply Fin.ext
  match a with
  | ⟨0, _⟩ => show win4_0.index t (0 : Fin 2) * 1000 + 1 * p.val = r.val; rw [e0, hr]; omega
  | ⟨1, _⟩ => show win4_0.index t (1 : Fin 2) * 256 + 1 * q.val = q'.val; rw [e1, hq]; omega

/-- The bias row's block at every point is its whole array. -/
theorem iblk4_1_apply (c : Dev nD) (t : Fin cfg4.N) (q q' : Fin 256) (hq : q'.val = q.val) :
    (iblk4 V c 1 t : S1x256.Idx → EReal) (ix2 (0 : Fin 1) q)
      = (V c (Pipeline.arrRef spec4 1) : S1x256.Idx → EReal) (ix2 (0 : Fin 1) q') := by
  obtain ⟨-, -, e0, e1, -⟩ := idx4 t
  unfold iblk4
  rw [View.read_apply]
  show (V c (Pipeline.arrRef spec4 1) : S1x256.Idx → EReal) _ = _
  refine congrArg _ ?_
  funext a
  apply Fin.ext
  match a with
  | ⟨0, _⟩ => show win4_1.index t (0 : Fin 2) * 1 + 1 * 0 = 0; rw [e0]
  | ⟨1, _⟩ => show win4_1.index t (1 : Fin 2) * 256 + 1 * q.val = q'.val; rw [e1, hq]; omega

/-- What point `t` writes back is its tile of the rectified sum of the two entry arrays. -/
theorem flushed4 (c : Dev nD) (t : Fin cfg4.N) :
    (dat4 V c).flushed 2 t = ((cfg4.win 2).blk t).view.read (Elt Ideal)
      (biasLeaky 20000 256 (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S1000x256) hz, View.ld_unit_zero (S := S1x256) hz]
  obtain ⟨-, -, -, -, e0, e1⟩ := idx4 t
  funext y
  show k4_pay1 (iblk4 V c 0 t) (iblk4 V c 1 t) ((cfg4.win 2).xinj (grid4.coords t) y) = _
  refine (pay4_at (iblk4 V c 0 t) (iblk4 V c 1 t) _).trans ?_
  show _ = biasLeaky 20000 256 (V c (Pipeline.arrRef spec4 0)) (V c (Pipeline.arrRef spec4 1)) (((cfg4.win 2).blk t).view.emb y)
  unfold biasLeaky
  refine congrArg leaky ?_
  congr 1
  · refine iblk4_0_apply V c t _ _ _ _ ?_ ?_
    · show win4_2.index t (0 : Fin 2) * 1000 + 1 * (y 0).val = t.val * 1000 + (y 0).val
      rw [e0]; omega
    · show win4_2.index t (1 : Fin 2) * 256 + 1 * (y 1).val = (y 1).val
      rw [e1]; omega
  · refine iblk4_1_apply V c t _ _ ?_
    show win4_2.index t (1 : Fin 2) * 256 + 1 * (y 1).val = (y 1).val
    rw [e1]; omega

/-- An index of the output array is in point `t`'s tile iff each coordinate is in the tile's range on its axis. -/
theorem mem_blk4 (t : Fin cfg4.N) (i : S20000x256.Idx) :
    i ∈ ((cfg4.win 2).blk t).view.set ↔ ∀ a : Fin 2, win4_2.index t a * S1000x256.size a ≤ (i a).val
      ∧ (i a).val < win4_2.index t a * S1000x256.size a + S1000x256.size a := by
  show i ∈ ((View.whole main_v96).slice (win4_2.rect t)).set ↔ _
  rw [View.set_slice_whole, Rect.mem_set_unit]
  exact Iff.rfl

/-- Every index of the output array is in some point's tile: row `r` in tile `r / 1000`. -/
theorem cover4 (i : S20000x256.Idx) :
    ∃ t : Fin cfg4.N, (cfg4.win 2).flush t = true ∧ i ∈ ((cfg4.win 2).blk t).view.set := by
  have hi0 : (i 0).val < 20000 := idx2_lt0 i
  have hi1 : (i 1).val < 256 := idx2_lt1 i
  have hN : cfg4.N = 20 := N_4
  obtain ⟨h20, hlo, hhi⟩ := tile_of_row (i 0).val hi0
  have ht : (i 0).val / 1000 < cfg4.N := by rw [hN]; exact h20
  obtain ⟨-, -, -, -, e0, e1⟩ := idx4 ⟨(i 0).val / 1000, ht⟩
  have e0' : win4_2.index ⟨(i 0).val / 1000, ht⟩ (0 : Fin 2) = (i 0).val / 1000 := e0
  refine ⟨⟨(i 0).val / 1000, ht⟩, flush4_2 _, ?_⟩
  rw [mem_blk4]
  intro a
  match a with
  | ⟨0, _⟩ =>
    show win4_2.index ⟨(i 0).val / 1000, ht⟩ (0 : Fin 2) * 1000 ≤ (i 0).val
      ∧ (i 0).val < win4_2.index ⟨(i 0).val / 1000, ht⟩ (0 : Fin 2) * 1000 + 1000
    rw [e0']; exact ⟨hlo, hhi⟩
  | ⟨1, _⟩ =>
    show win4_2.index ⟨(i 0).val / 1000, ht⟩ (1 : Fin 2) * 256 ≤ (i 1).val
      ∧ (i 1).val < win4_2.index ⟨(i 0).val / 1000, ht⟩ (1 : Fin 2) * 256 + 256
    rw [e1]; omega

/-- The output array after the region is the rectified sum of the two entry arrays. -/
theorem final4 (c : Dev nD) :
    (dat4 V c).arrAt 2 cfg4.N
      = biasLeaky 20000 256 (V c (Pipeline.arrRef spec4 0)) (V c (Pipeline.arrRef spec4 1)) :=
  (dat4 V c).arrAt_eq_of_cover 2 _ (fun t _ => flushed4 V c t) cover4

/-- REGION 4 AT AN INDEX: row `n`, column `j` of the output array after the region is the leaky rectifier of the
    operand's entry there plus the bias row's entry in column `j`. -/
theorem region4_val (c : Dev nD) (n : Fin 20000) (j : Fin 256) :
    arr2 20000 256 ((dat4 V c).arrAt 2 cfg4.N) (ix2 n j)
      = leaky (arr2 20000 256 (V c (Pipeline.arrRef spec4 0)) (ix2 n j)
          + arr2 1 256 (V c (Pipeline.arrRef spec4 1)) (ix2 (0 : Fin 1) j)) :=
  (congrFun (final4 V c) (ix2 n j)).trans (biasLeaky_ix2 20000 256 _ _ n j)

end Cert.KernelIdeal.RegionVal

end
-- ==== Proof.RegionBiasAct6.lean ====
/- The value of the kernel's third bias-and-rectifier region (custom call 6), read off the generated frame at the ideal
   values: after the region its output array is, index by index, the leaky rectifier of the first entry array's entry
   plus the one-row bias array's entry in that column. Twenty points, one 1000-row tile each, cover the 20000 rows. -/
import proofs.«102165_j72748156060190_1_alg».proof.Proof.Gen.KernelIdeal.Frame
import proofs.«102165_j72748156060190_1_alg».proof.Proof.TileLemmas
import Idealize.ShloMosaic.Lib.Pipeline.Value
import proofs.«102165_j72748156060190_1_alg».proof.Proof.Payloads

noncomputable section

open Idealize.ShloMosaic Idealize.ShloMosaic.TcCoe Idealize.SL.Sem
open Idealize.ShloMosaic.Pipeline (Dat)
open Idealize.ShloMosaic.ValueIdx
open scoped BigOperators

namespace Cert.KernelIdeal.RegionVal

open Cert.KernelIdeal Cert.KernelIdeal.Gen

-- the TensorCore's buffer contents when the region is entered, at the ideal values
variable (V : (c : Dev nD) → (b : Ref sig .tc) → Buf (Elt Ideal) ((c : Thread nD τ).loc b))

/-! # Region 6: [20000, 64] plus the row [1, 64], through the leaky rectifier -/

/-- The printed index maps over the grid: the operand's and the output's tiles move down the rows with the point, the
    bias row is one block. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The operand's tile at point `t` is rows `1000 t … 1000 t + 999` of its array. -/
theorem iblk6_0_apply (c : Dev nD) (t : Fin cfg6.N) (p : Fin 1000) (q : Fin 64) (r : Fin 20000) (q' : Fin 64)
    (hr : r.val = t.val * 1000 + p.val) (hq : q'.val = q.val) :
    (iblk6 V c 0 t : S1000x64.Idx → EReal) (ix2 p q)
      = (V c (Pipeline.arrRef spec6 0) : S20000x64.Idx → EReal) (ix2 r q') := by
  obtain ⟨e0, e1, -⟩ := idx6 t
  unfold iblk6
  rw [View.read_apply]
  show (V c (Pipeline.arrRef spec6 0) : S20000x64.Idx → EReal) _ = _
  refine congrArg _ ?_
  funext a
  apply Fin.ext
  match a with
  | ⟨0, _⟩ => show win6_0.index t (0 : Fin 2) * 1000 + 1 * p.val = r.val; rw [e0, hr]; omega
  | ⟨1, _⟩ => show win6_0.index t (1 : Fin 2) * 64 + 1 * q.val = q'.val; rw [e1, hq]; omega

/-- The bias row's block at every point is its whole array. -/
theorem iblk6_1_apply (c : Dev nD) (t : Fin cfg6.N) (q q' : Fin 64) (hq : q'.val = q.val) :
    (iblk6 V c 1 t : S1x64.Idx → EReal) (ix2 (0 : Fin 1) q)
      = (V c (Pipeline.arrRef spec6 1) : S1x64.Idx → EReal) (ix2 (0 : Fin 1) q') := by
  obtain ⟨-, -, e0, e1, -⟩ := idx6 t
  unfold iblk6
  rw [View.read_apply]
  show (V c (Pipeline.arrRef spec6 1) : S1x64.Idx → EReal) _ = _
  refine congrArg _ ?_
  funext a
  apply Fin.ext
  match a with
  | ⟨0, _⟩ => show win6_1.index t (0 : Fin 2) * 1 + 1 * 0 = 0; rw [e0]
  | ⟨1, _⟩ => show win6_1.index t (1 : Fin 2) * 64 + 1 * q.val = q'.val; rw [e1, hq]; omega

/-- What point `t` writes back is its tile of the rectified sum of the two entry arrays. -/
theorem flushed6 (c : Dev nD) (t : Fin cfg6.N) :
    (dat6 V c).flushed 2 t = ((cfg6.win 2).blk t).view.read (Elt Ideal)
      (biasLeaky 20000 64 (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S1000x64) hz, View.ld_unit_zero (S := S1x64) hz]
  obtain ⟨-, -, -, -, e0, e1⟩ := idx6 t
  funext y
  show k6_pay1 (iblk6 V c 0 t) (iblk6 V c 1 t) ((cfg6.win 2).xinj (grid6.coords t) y) = _
  refine (pay6_at (iblk6 V c 0 t) (iblk6 V c 1 t) _).trans ?_
  show _ = biasLeaky 20000 64 (V c (Pipeline.arrRef spec6 0)) (V c (Pipeline.arrRef spec6 1)) (((cfg6.win 2).blk t).view.emb y)
  unfold biasLeaky
  refine congrArg leaky ?_
  congr 1
  · refine iblk6_0_apply V c t _ _ _ _ ?_ ?_
    · show win6_2.index t (0 : Fin 2) * 1000 + 1 * (y 0).val = t.val * 1000 + (y 0).val
      rw [e0]; omega
    · show win6_2.index t (1 : Fin 2) * 64 + 1 * (y 1).val = (y 1).val
      rw [e1]; omega
  · refine iblk6_1_apply V c t _ _ ?_
    show win6_2.index t (1 : Fin 2) * 64 + 1 * (y 1).val = (y 1).val
    rw [e1]; omega

/-- An index of the output array is in point `t`'s tile iff each coordinate is in the tile's range on its axis. -/
theorem mem_blk6 (t : Fin cfg6.N) (i : S20000x64.Idx) :
    i ∈ ((cfg6.win 2).blk t).view.set ↔ ∀ a : Fin 2, win6_2.index t a * S1000x64.size a ≤ (i a).val
      ∧ (i a).val < win6_2.index t a * S1000x64.size a + S1000x64.size a := by
  show i ∈ ((View.whole main_v142).slice (win6_2.rect t)).set ↔ _
  rw [View.set_slice_whole, Rect.mem_set_unit]
  exact Iff.rfl

/-- Every index of the output array is in some point's tile: row `r` in tile `r / 1000`. -/
theorem cover6 (i : S20000x64.Idx) :
    ∃ t : Fin cfg6.N, (cfg6.win 2).flush t = true ∧ i ∈ ((cfg6.win 2).blk t).view.set := by
  have hi0 : (i 0).val < 20000 := idx2_lt0 i
  have hi1 : (i 1).val < 64 := idx2_lt1 i
  have hN : cfg6.N = 20 := N_6
  obtain ⟨h20, hlo, hhi⟩ := tile_of_row (i 0).val hi0
  have ht : (i 0).val / 1000 < cfg6.N := by rw [hN]; exact h20
  obtain ⟨-, -, -, -, e0, e1⟩ := idx6 ⟨(i 0).val / 1000, ht⟩
  have e0' : win6_2.index ⟨(i 0).val / 1000, ht⟩ (0 : Fin 2) = (i 0).val / 1000 := e0
  refine ⟨⟨(i 0).val / 1000, ht⟩, flush6_2 _, ?_⟩
  rw [mem_blk6]
  intro a
  match a with
  | ⟨0, _⟩ =>
    show win6_2.index ⟨(i 0).val / 1000, ht⟩ (0 : Fin 2) * 1000 ≤ (i 0).val
      ∧ (i 0).val < win6_2.index ⟨(i 0).val / 1000, ht⟩ (0 : Fin 2) * 1000 + 1000
    rw [e0']; exact ⟨hlo, hhi⟩
  | ⟨1, _⟩ =>
    show win6_2.index ⟨(i 0).val / 1000, ht⟩ (1 : Fin 2) * 64 ≤ (i 1).val
      ∧ (i 1).val < win6_2.index ⟨(i 0).val / 1000, ht⟩ (1 : Fin 2) * 64 + 64
    rw [e1]; omega

/-- The output array after the region is the rectified sum of the two entry arrays. -/
theorem final6 (c : Dev nD) :
    (dat6 V c).arrAt 2 cfg6.N
      = biasLeaky 20000 64 (V c (Pipeline.arrRef spec6 0)) (V c (Pipeline.arrRef spec6 1)) :=
  (dat6 V c).arrAt_eq_of_cover 2 _ (fun t _ => flushed6 V c t) cover6

/-- REGION 6 AT AN INDEX: row `n`, column `j` of the output array after the region is the leaky rectifier of the
    operand's entry there plus the bias row's entry in column `j`. -/
theorem region6_val (c : Dev nD) (n : Fin 20000) (j : Fin 64) :
    arr2 20000 64 ((dat6 V c).arrAt 2 cfg6.N) (ix2 n j)
      = leaky (arr2 20000 64 (V c (Pipeline.arrRef spec6 0)) (ix2 n j)
          + arr2 1 64 (V c (Pipeline.arrRef spec6 1)) (ix2 (0 : Fin 1) j)) :=
  (congrFun (final6 V c) (ix2 n j)).trans (biasLeaky_ix2 20000 64 _ _ n j)

end Cert.KernelIdeal.RegionVal

end
-- ==== Proof.RegionLinear7.lean ====
/- The value of the kernel's last region (custom call 7, the linear layer), read off the generated frame at the ideal
   values: after the region its output array is, index by index, the product of the first two entry arrays — the sum
   over the contracted coordinate — plus the one-row bias array's entry in that column. Twenty points, one 1000-row
   tile each, cover the 20000 rows. -/
import proofs.«102165_j72748156060190_1_alg».proof.Proof.Gen.KernelIdeal.Frame
import proofs.«102165_j72748156060190_1_alg».proof.Proof.TileLemmas
import Idealize.ShloMosaic.Lib.Pipeline.Value
import proofs.«102165_j72748156060190_1_alg».proof.Proof.Payloads

noncomputable section

open Idealize.ShloMosaic Idealize.ShloMosaic.TcCoe Idealize.SL.Sem
open Idealize.ShloMosaic.Pipeline (Dat)
open Idealize.ShloMosaic.ValueIdx
open scoped BigOperators

namespace Cert.KernelIdeal.RegionVal

open Cert.KernelIdeal Cert.KernelIdeal.Gen

-- the TensorCore's buffer contents when the region is entered, at the ideal values
variable (V : (c : Dev nD) → (b : Ref sig .tc) → Buf (Elt Ideal) ((c : Thread nD τ).loc b))

/-! # Region 7: [20000, 64] × [64, 3] plus the row [1, 3] -/

/-- The printed index maps over the grid: the left operand's and the output's tiles move down the rows with the
    point, the right operand and the bias row are one block each. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The left operand's tile at point `t` is rows `1000 t … 1000 t + 999` of its array. -/
theorem iblk7_0_apply (c : Dev nD) (t : Fin cfg7.N) (p : Fin 1000) (k : Fin 64) (r : Fin 20000)
    (hr : r.val = t.val * 1000 + p.val) :
    (iblk7 V c 0 t : S1000x64.Idx → EReal) (ix2 p k)
      = (V c (Pipeline.arrRef spec7 0) : S20000x64.Idx → EReal) (ix2 r k) := by
  obtain ⟨e0, e1, -⟩ := idx7 t
  unfold iblk7
  rw [View.read_apply]
  show (V c (Pipeline.arrRef spec7 0) : S20000x64.Idx → EReal) _ = _
  refine congrArg _ ?_
  funext a
  apply Fin.ext
  match a with
  | ⟨0, _⟩ => show win7_0.index t (0 : Fin 2) * 1000 + 1 * p.val = r.val; rw [e0, hr]; omega
  | ⟨1, _⟩ => show win7_0.index t (1 : Fin 2) * 64 + 1 * k.val = k.val; rw [e1]; omega

/-- The right operand's block at every point is its whole array. -/
theorem iblk7_1_apply (c : Dev nD) (t : Fin cfg7.N) (k : Fin 64) (q q' : Fin 3) (hq : q'.val = q.val) :
    (iblk7 V c 1 t : S64x3.Idx → EReal) (ix2 k q)
      = (V c (Pipeline.arrRef spec7 1) : S64x3.Idx → EReal) (ix2 k q') := by
  obtain ⟨-, -, e0, e1, -⟩ := idx7 t
  unfold iblk7
  rw [View.read_apply]
  show (V c (Pipeline.arrRef spec7 1) : S64x3.Idx → EReal) _ = _
  refine congrArg _ ?_
  funext a
  apply Fin.ext
  match a with
  | ⟨0, _⟩ => show win7_1.index t (0 : Fin 2) * 64 + 1 * k.val = k.val; rw [e0]; omega
  | ⟨1, _⟩ => show win7_1.index t (1 : Fin 2) * 3 + 1 * q.val = q'.val; rw [e1, hq]; omega

/-- The bias row's block at every point is its whole array. -/
theorem iblk7_2_apply (c : Dev nD) (t : Fin cfg7.N) (q q' : Fin 3) (hq : q'.val = q.val) :
    (iblk7 V c 2 t : S1x3.Idx → EReal) (ix2 (0 : Fin 1) q)
      = (V c (Pipeline.arrRef spec7 2) : S1x3.Idx → EReal) (ix2 (0 : Fin 1) q') := by
  obtain ⟨-, -, -, -, e0, e1, -⟩ := idx7 t
  unfold iblk7
  rw [View.read_apply]
  show (V c (Pipeline.arrRef spec7 2) : S1x3.Idx → EReal) _ = _
  refine congrArg _ ?_
  funext a
  apply Fin.ext
  match a with
  | ⟨0, _⟩ => show win7_2.index t (0 : Fin 2) * 1 + 1 * 0 = 0; rw [e0]
  | ⟨1, _⟩ => show win7_2.index t (1 : Fin 2) * 3 + 1 * q.val = q'.val; rw [e1, hq]; omega

/-- What point `t` writes back is its tile of the product of the first two entry arrays plus the bias row. -/
theorem flushed7 (c : Dev nD) (t : Fin cfg7.N) :
    (dat7 V c).flushed 3 t = ((cfg7.win 3).blk t).view.read (Elt Ideal)
      (mmBias 20000 64 3 (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz]
  simp only [View.ld_unit_zero (S := S1000x64) hz, View.ld_unit_zero (S := S64x3) hz, View.ld_unit_zero (S := S1x3) hz]
  obtain ⟨-, -, -, -, -, -, e0, e1⟩ := idx7 t
  funext y
  show k7_pay1 (iblk7 V c 0 t) (iblk7 V c 1 t) (iblk7 V c 2 t) ((cfg7.win 3).xinj (grid7.coords t) y) = _
  refine (pay7_at (iblk7 V c 0 t) (iblk7 V c 1 t) (iblk7 V c 2 t) _).trans ?_
  show _ = mmBias 20000 64 3 (V c (Pipeline.arrRef spec7 0)) (V c (Pipeline.arrRef spec7 1)) (V c (Pipeline.arrRef spec7 2))
    (((cfg7.win 3).blk t).view.emb y)
  unfold mmBias
  congr 1
  · refine Finset.sum_congr rfl fun k _ => ?_
    congr 1
    · refine iblk7_0_apply V c t _ k _ ?_
      show win7_3.index t (0 : Fin 2) * 1000 + 1 * (y 0).val = t.val * 1000 + (y 0).val
      rw [e0]; omega
    · refine iblk7_1_apply V c t k _ _ ?_
      show win7_3.index t (1 : Fin 2) * 3 + 1 * (y 1).val = (y 1).val
      rw [e1]; omega
  · refine iblk7_2_apply V c t _ _ ?_
    show win7_3.index t (1 : Fin 2) * 3 + 1 * (y 1).val = (y 1).val
    rw [e1]; omega

/-- An index of the output array is in point `t`'s tile iff each coordinate is in the tile's range on its axis. -/
theorem mem_blk7 (t : Fin cfg7.N) (i : S20000x3.Idx) :
    i ∈ ((cfg7.win 3).blk t).view.set ↔ ∀ a : Fin 2, win7_3.index t a * S1000x3.size a ≤ (i a).val
      ∧ (i a).val < win7_3.index t a * S1000x3.size a + S1000x3.size a := by
  show i ∈ ((View.whole main_v144).slice (win7_3.rect t)).set ↔ _
  rw [View.set_slice_whole, Rect.mem_set_unit]
  exact Iff.rfl

/-- Every index of the output array is in some point's tile: row `r` in tile `r / 1000`. -/
theorem cover7 (i : S20000x3.Idx) :
    ∃ t : Fin cfg7.N, (cfg7.win 3).flush t = true ∧ i ∈ ((cfg7.win 3).blk t).view.set := by
  have hi0 : (i 0).val < 20000 := idx2_lt0 i
  have hi1 : (i 1).val < 3 := idx2_lt1 i
  have hN : cfg7.N = 20 := N_7
  obtain ⟨h20, hlo, hhi⟩ := tile_of_row (i 0).val hi0
  have ht : (i 0).val / 1000 < cfg7.N := by rw [hN]; exact h20
  obtain ⟨-, -, -, -, -, -, e0, e1⟩ := idx7 ⟨(i 0).val / 1000, ht⟩
  have e0' : win7_3.index ⟨(i 0).val / 1000, ht⟩ (0 : Fin 2) = (i 0).val / 1000 := e0
  refine ⟨⟨(i 0).val / 1000, ht⟩, flush7_3 _, ?_⟩
  rw [mem_blk7]
  intro a
  match a with
  | ⟨0, _⟩ =>
    show win7_3.index ⟨(i 0).val / 1000, ht⟩ (0 : Fin 2) * 1000 ≤ (i 0).val
      ∧ (i 0).val < win7_3.index ⟨(i 0).val / 1000, ht⟩ (0 : Fin 2) * 1000 + 1000
    rw [e0']; exact ⟨hlo, hhi⟩
  | ⟨1, _⟩ =>
    show win7_3.index ⟨(i 0).val / 1000, ht⟩ (1 : Fin 2) * 3 ≤ (i 1).val
      ∧ (i 1).val < win7_3.index ⟨(i 0).val / 1000, ht⟩ (1 : Fin 2) * 3 + 3
    rw [e1]; omega

/-- The output array after the region is the product of the first two entry arrays plus the bias row. -/
theorem final7 (c : Dev nD) :
    (dat7 V c).arrAt 3 cfg7.N
      = mmBias 20000 64 3 (V c (Pipeline.arrRef spec7 0)) (V c (Pipeline.arrRef spec7 1)) (V c (Pipeline.arrRef spec7 2)) :=
  (dat7 V c).arrAt_eq_of_cover 3 _ (fun t _ => flushed7 V c t) cover7

/-- REGION 7 AT AN INDEX: row `n`, column `j` of the output array after the region is the sum over the contracted
    coordinate of the products of the first two entry arrays' entries, plus the bias row's entry in column `j`. -/
theorem region7_val (c : Dev nD) (n : Fin 20000) (j : Fin 3) :
    arr2 20000 3 ((dat7 V c).arrAt 3 cfg7.N) (ix2 n j)
      = (∑ k : Fin 64, arr2 20000 64 (V c (Pipeline.arrRef spec7 0)) (ix2 n k)
          * arr2 64 3 (V c (Pipeline.arrRef spec7 1)) (ix2 k j))
        + arr2 1 3 (V c (Pipeline.arrRef spec7 2)) (ix2 (0 : Fin 1) j) :=
  (congrFun (final7 V c) (ix2 n j)).trans (mmBias_ix2 20000 64 3 _ _ _ n j)

end Cert.KernelIdeal.RegionVal

end
-- ==== Proof.KernelValue.lean ====
/-
  The idealized kernel's result as the reference's own term of the arguments. The result array is read back through
  the segment boundaries: the last region (the linear head) over the third layer's output, each layer's
  bias-and-rectifier region over the host-computed aggregate of the layer's projection region, down to the embedding
  region. A projection region leaves the plain matrix product of its two input arrays, which is what the reference's
  dot_general is; a bias-and-rectifier region leaves the rectifier of "aggregate plus bias row", which is the
  reference's leaky ReLU of the same sum (the two tests, above zero and at least zero, differ only where both branches
  are zero); the embedding region leaves the array of one-hot sums, which — every computed index lying inside its
  table — is the reference's array of gathered rows. The host stretches in between are the reference's operations
  one for one.
-/
import proofs.«102165_j72748156060190_1_alg».proof.Proof.KernelCarry
import proofs.«102165_j72748156060190_1_alg».proof.Proof.KernelStages
import proofs.«102165_j72748156060190_1_alg».proof.Proof.RefEmbedIdx
import proofs.«102165_j72748156060190_1_alg».proof.Proof.StageLaws
import proofs.«102165_j72748156060190_1_alg».proof.Proof.RegionEmbedArr
import proofs.«102165_j72748156060190_1_alg».proof.Proof.RegionMatmul1
import proofs.«102165_j72748156060190_1_alg».proof.Proof.RegionMatmul3
import proofs.«102165_j72748156060190_1_alg».proof.Proof.RegionMatmul5
import proofs.«102165_j72748156060190_1_alg».proof.Proof.RegionBiasAct2
import proofs.«102165_j72748156060190_1_alg».proof.Proof.RegionBiasAct4
import proofs.«102165_j72748156060190_1_alg».proof.Proof.RegionBiasAct6
import proofs.«102165_j72748156060190_1_alg».proof.Proof.RegionLinear7

set_option maxRecDepth 16384

noncomputable section

namespace Cert.KernelIdeal.Value

open Cert.KernelIdeal Cert.KernelIdeal.Gen
open Idealize.ShloMosaic Idealize.ShloMosaic.TcCoe Idealize.SL.Sem
open Cert.ReferenceIdeal.Stages
open Cert.KernelIdeal.EmbedVal Cert.KernelIdeal.RegionVal

variable (m : (ℓ : Loc nD τ sig) → Buf (Elt Ideal) ℓ) (ρ : Dev nD → PrngReg) (c : Dev nD)

/-- The embedding region's output is the reference's embedded array. -/
theorem embed_eq
    (hl : ∀ p, 0 ≤ (liW (m ((c : Thread nD τ).loc main_arg0)) p).toInt ∧ (liW (m ((c : Thread nD τ).loc main_arg0)) p).toNat < 3)
    (hr : ∀ p, 0 ≤ (riW (m ((c : Thread nD τ).loc main_arg0)) p).toInt ∧ (riW (m ((c : Thread nD τ).loc main_arg0)) p).toNat < 11)
    (hc : ∀ p a, 0 ≤ (ciW (m ((c : Thread nD τ).loc main_arg0)) p a).toInt ∧ (ciW (m ((c : Thread nD τ).loc main_arg0)) p a).toNat < 256) :
    W2 m ρ c (Proc.devRef .tc main_v4)
      = embedTerm (F := Ideal) (m ((c : Thread nD τ).loc main_arg0)) (m ((c : Thread nD τ).loc main_arg3))
          (m ((c : Thread nD τ).loc main_arg4)) (m ((c : Thread nD τ).loc main_arg5)) := by
  rw [Cert.ReferenceIdeal.EmbedIdx.embedTerm_eq _ _ _ _ hl hr hc]
  refine (W2_arr m ρ c 4).trans ?_
  refine (embedded_eq (V1 m ρ) c).trans ?_
  show embedRow (W1 m ρ c (Proc.devRef .tc main_arg0)) (W1 m ρ c (Proc.devRef .tc main_arg3))
    (W1 m ρ c (Proc.devRef .tc main_arg4)) (W1 m ρ c (Proc.devRef .tc main_arg5)) = _
  rw [W1_arg0, W1_arg3, W1_arg4, W1_arg5]

/-- A projection region's output is the reference's product of the region's two entry arrays. -/
theorem proj1_eq : W3 m ρ c (Proc.devRef .tc main_v5)
    = mmTerm1 (F := Ideal) (W2 m ρ c (Proc.devRef .tc main_v4)) (m ((c : Thread nD τ).loc main_arg6)) := by
  refine (W3_arr m ρ c 2).trans ?_
  refine (final1 (V2 m ρ) c).trans ?_
  show mm 20000 1755 512 (W2 m ρ c (Proc.devRef .tc main_v4)) (W2 m ρ c (Proc.devRef .tc main_arg6)) = _
  rw [W2_arg6]
  exact (mm_ref _ _).symm

/-! ## The reference's bias-and-rectifier stage is the rectifier of "aggregate plus bias row" -/

section
open Cert.ReferenceIdeal Cert.ReferenceIdeal.Facts₀ Cert.ReferenceIdeal.Facts

theorem actTerm512_eq (agg : FVec Ideal Cert.ReferenceIdeal.S20000x512 .f32) (b : FVec Ideal Cert.ReferenceIdeal.S512 .f32)
    (hsc : Cert.ReferenceIdeal.S512.ShapeCasts Cert.ReferenceIdeal.S1x512) :
    actTerm512 (F := Ideal) agg b = biasLeaky 20000 512 agg (shapeCast Cert.ReferenceIdeal.S1x512 b hsc) := by
  unfold actTerm512 lreluTerm512 biasTerm512
  exact bias_leaky_ref (M := 20000) (N := 512) agg b Cert.ReferenceIdeal.Facts₀.bcast_S_S20000x512 Cert.ReferenceIdeal.Facts₀.bcast_S1x512_S20000x512_0_1 Cert.ReferenceIdeal.Facts₀.bcast_S512_S1x512_1 hsc

theorem actTerm256_eq (agg : FVec Ideal Cert.ReferenceIdeal.S20000x256 .f32) (b : FVec Ideal Cert.ReferenceIdeal.S256 .f32)
    (hsc : Cert.ReferenceIdeal.S256.ShapeCasts Cert.ReferenceIdeal.S1x256) :
    actTerm256 (F := Ideal) agg b = biasLeaky 20000 256 agg (shapeCast Cert.ReferenceIdeal.S1x256 b hsc) := by
  unfold actTerm256 lreluTerm256 biasTerm256
  exact bias_leaky_ref (M := 20000) (N := 256) agg b Cert.ReferenceIdeal.Facts₀.bcast_S_S20000x256 Cert.ReferenceIdeal.Facts₀.bcast_S1x256_S20000x256_0_1 Cert.ReferenceIdeal.Facts₀.bcast_S256_S1x256_1 hsc

theorem actTerm64_eq (agg : FVec Ideal Cert.ReferenceIdeal.S20000x64 .f32) (b : FVec Ideal Cert.ReferenceIdeal.S64 .f32)
    (hsc : Cert.ReferenceIdeal.S64.ShapeCasts Cert.ReferenceIdeal.S1x64) :
    actTerm64 (F := Ideal) agg b = biasLeaky 20000 64 agg (shapeCast Cert.ReferenceIdeal.S1x64 b hsc) := by
  unfold actTerm64 lreluTerm64 biasTerm64
  exact bias_leaky_ref (M := 20000) (N := 64) agg b Cert.ReferenceIdeal.Facts₀.bcast_S_S20000x64 Cert.ReferenceIdeal.Facts₀.bcast_S1x64_S20000x64_0_1 Cert.ReferenceIdeal.Facts₀.bcast_S64_S1x64_1 hsc

end

/-- The first layer's bias-and-rectifier region over the aggregate the host stretch leaves. -/
theorem act1_eq : W7 m ρ c (Proc.devRef .tc main_v50)
    = actTerm512 (F := Ideal) (W6 m ρ c (Proc.devRef .tc main_v48)) (m ((c : Thread nD τ).loc main_arg7)) := by
  refine (W7_arr m ρ c 2).trans ?_
  refine (final2 (V6 m ρ) c).trans ?_
  show biasLeaky 20000 512 (W6 m ρ c (Proc.devRef .tc main_v48)) (W6 m ρ c (Proc.devRef .tc main_v49)) = _
  rw [W6_v49, W3_arg7]
  exact (actTerm512_eq _ _ _).symm

/-- Layer 1 whole, over the embedding region's output. -/
theorem layer1_eq : W7 m ρ c (Proc.devRef .tc main_v50)
    = layerTerm1 (F := Ideal) (W2 m ρ c (Proc.devRef .tc main_v4)) (m ((c : Thread nD τ).loc main_arg6))
        (m ((c : Thread nD τ).loc main_arg7)) (srcTerm (m ((c : Thread nD τ).loc main_arg1))) (dstTerm (m ((c : Thread nD τ).loc main_arg1)))
        (m ((c : Thread nD τ).loc main_arg2)) := by
  rw [act1_eq, W6_v48, proj1_eq, W3_v1, W3_v3, W3_arg2, W1_v1, W1_v3]
  rfl

theorem proj2_eq : W8 m ρ c (Proc.devRef .tc main_v51)
    = mmTerm2 (F := Ideal) (W7 m ρ c (Proc.devRef .tc main_v50)) (m ((c : Thread nD τ).loc main_arg8)) := by
  refine (W8_arr m ρ c 2).trans ?_
  refine (final3 (V7 m ρ) c).trans ?_
  show mm 20000 512 256 (W7 m ρ c (Proc.devRef .tc main_v50)) (W7 m ρ c (Proc.devRef .tc main_arg8)) = _
  rw [W7_arg8]
  exact (mm_ref _ _).symm

theorem act2_eq : W12 m ρ c (Proc.devRef .tc main_v96)
    = actTerm256 (F := Ideal) (W11 m ρ c (Proc.devRef .tc main_v94)) (m ((c : Thread nD τ).loc main_arg9)) := by
  refine (W12_arr m ρ c 2).trans ?_
  refine (final4 (V11 m ρ) c).trans ?_
  show biasLeaky 20000 256 (W11 m ρ c (Proc.devRef .tc main_v94)) (W11 m ρ c (Proc.devRef .tc main_v95)) = _
  rw [W11_v95, W8_arg9]
  exact (actTerm256_eq _ _ _).symm

theorem layer2_eq : W12 m ρ c (Proc.devRef .tc main_v96)
    = layerTerm2 (F := Ideal) (W7 m ρ c (Proc.devRef .tc main_v50)) (m ((c : Thread nD τ).loc main_arg8))
        (m ((c : Thread nD τ).loc main_arg9)) (srcTerm (m ((c : Thread nD τ).loc main_arg1))) (dstTerm (m ((c : Thread nD τ).loc main_arg1)))
        (m ((c : Thread nD τ).loc main_arg2)) := by
  rw [act2_eq, W11_v94, proj2_eq, W8_v1, W8_v3, W8_arg2, W1_v1, W1_v3]
  rfl

theorem proj3_eq : W13 m ρ c (Proc.devRef .tc main_v97)
    = mmTerm3 (F := Ideal) (W12 m ρ c (Proc.devRef .tc main_v96)) (m ((c : Thread nD τ).loc main_arg10)) := by
  refine (W13_arr m ρ c 2).trans ?_
  refine (final5 (V12 m ρ) c).trans ?_
  show mm 20000 256 64 (W12 m ρ c (Proc.devRef .tc main_v96)) (W12 m ρ c (Proc.devRef .tc main_arg10)) = _
  rw [W12_arg10]
  exact (mm_ref _ _).symm

theorem act3_eq : W17 m ρ c (Proc.devRef .tc main_v142)
    = actTerm64 (F := Ideal) (W16 m ρ c (Proc.devRef .tc main_v140)) (m ((c : Thread nD τ).loc main_arg11)) := by
  refine (W17_arr m ρ c 2).trans ?_
  refine (final6 (V16 m ρ) c).trans ?_
  show biasLeaky 20000 64 (W16 m ρ c (Proc.devRef .tc main_v140)) (W16 m ρ c (Proc.devRef .tc main_v141)) = _
  rw [W16_v141, W13_arg11]
  exact (actTerm64_eq _ _ _).symm

theorem layer3_eq : W17 m ρ c (Proc.devRef .tc main_v142)
    = layerTerm3 (F := Ideal) (W12 m ρ c (Proc.devRef .tc main_v96)) (m ((c : Thread nD τ).loc main_arg10))
        (m ((c : Thread nD τ).loc main_arg11)) (srcTerm (m ((c : Thread nD τ).loc main_arg1))) (dstTerm (m ((c : Thread nD τ).loc main_arg1)))
        (m ((c : Thread nD τ).loc main_arg2)) := by
  rw [act3_eq, W16_v140, proj3_eq, W13_v1, W13_v3, W13_arg2, W1_v1, W1_v3]
  rfl

/-- The last stretch (one reshape) leaves the third layer's output alone. -/
theorem W18_v142 : W18 m ρ c (Proc.devRef .tc main_v142) = W17 m ρ c (Proc.devRef .tc main_v142) := by host_keeps

/-- The head region over the third layer's output. -/
theorem out_eq : W19 m ρ c (Proc.devRef .tc main_v144)
    = outTerm (F := Ideal) (W17 m ρ c (Proc.devRef .tc main_v142)) (m ((c : Thread nD τ).loc main_arg12))
        (m ((c : Thread nD τ).loc main_arg13)) := by
  refine (W19_arr m ρ c 3).trans ?_
  refine (final7 (V18 m ρ) c).trans ?_
  show mmBias 20000 64 3 (W18 m ρ c (Proc.devRef .tc main_v142)) (W18 m ρ c (Proc.devRef .tc main_arg12))
    (W18 m ρ c (Proc.devRef .tc main_v143)) = _
  rw [W18_v143, W17_arg13, W18_arg12, W18_v142]
  exact (mm_bias_ref _ _ _ _ _ _).symm

/-- THE KERNEL'S RESULT: the reference's term of the fourteen arguments, when every computed table index is in range. -/
theorem result_eq
    (hl : ∀ p, 0 ≤ (liW (m ((c : Thread nD τ).loc main_arg0)) p).toInt ∧ (liW (m ((c : Thread nD τ).loc main_arg0)) p).toNat < 3)
    (hr : ∀ p, 0 ≤ (riW (m ((c : Thread nD τ).loc main_arg0)) p).toInt ∧ (riW (m ((c : Thread nD τ).loc main_arg0)) p).toNat < 11)
    (hc : ∀ p a, 0 ≤ (ciW (m ((c : Thread nD τ).loc main_arg0)) p a).toInt ∧ (ciW (m ((c : Thread nD τ).loc main_arg0)) p a).toNat < 256) :
    W19 m ρ c (Proc.devRef .tc main_v144)
      = refTerm (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) := by
  rw [out_eq, layer3_eq, layer2_eq, layer1_eq, embed_eq m ρ c hl hr hc]
  rfl

end Cert.KernelIdeal.Value

end
-- ==== Proof.PreDecode.lean ====
/-
  What the precondition says about the three kinds of row index the reference computes from the node-feature
  array x : [20000, 1005]. The precondition is a conjunction of nineteen "all entries satisfy …" tests folded by
  `and`; the last six say that, for every node n,
    0 ≤ li n < 3     where li n = trunc (x[n, 0] − 1)             (the row of the 3 × 250 table),
    0 ≤ ri n < 11    where ri n = trunc (roundeven (|x[n, 1001]| · 10)) (the row of the 11 × 250 table),
    0 ≤ ci n a < 256 where ci n a = trunc (x[n, 1002 + a]), a < 3   (the rows of the 256 × 85 table),
  as signed 32-bit words. A conjunction that is 1 has every conjunct 1, and an "all" that is 1 has every entry 1.
-/
import proofs.«102165_j72748156060190_1_alg».proof.Pre_finite_inputs
import Idealize.ShloMosaic.PureOps.Ideal
import Idealize.ShloMosaic.Lib.ReduceAll
import Idealize.ShloMosaic.Lib.ValueIdx

set_option maxRecDepth 16384

noncomputable section

namespace Cert.PreDecode

open Cert.Pre_finite_inputs Cert.Pre_finite_inputs.Facts
open Idealize.ShloMosaic Idealize.ShloMosaic.TcCoe

variable [Cert.Pre_finite_inputs.Facts]
variable {F : FTy → Type} [FloatOps F]

instance : Subsingleton S_.Idx := ⟨fun a b => funext fun d => d.elim0⟩

/-- The one index of a rank-0 array. -/
def i0 : S_.Idx := fun d => d.elim0

theorem and1 : ∀ (a b : BitVec 1), IntOp.andi a b = 1#1 ↔ a = 1#1 ∧ b = 1#1 := by decide

/-- The row index into the 3 × 250 table, per node, as the precondition computes it. -/
def liA (x : FVec F S20000x1005 .f32) : IVec S20000 32 :=
  fptosi 32 (subf (shapeCast S20000 ((extractStridedSlice S20000x1 ![0, 0] · slices_S20000x1005_S20000x1_0_0) x) shapeCasts_S20000x1_S20000)
    (broadcastInDim S20000 ![] bcast_S_S20000 (constant S_ .f32 0x3F800000#32)))

/-- The row index into the 11 × 250 table, per node. -/
def riA (x : FVec F S20000x1005 .f32) : IVec S20000 32 :=
  fptosi 32 (Host.roundeven (mulf (Host.absf (shapeCast S20000 ((extractStridedSlice S20000x1 ![0, 1001] · slices_S20000x1005_S20000x1_0_1001) x) shapeCasts_S20000x1_S20000))
    (broadcastInDim S20000 ![] bcast_S_S20000 (constant S_ .f32 0x41200000#32))))

/-- The three row indices into the 256 × 85 table, per node. -/
def ciA (x : FVec F S20000x1005 .f32) : IVec S20000x3 32 :=
  fptosi 32 ((extractStridedSlice S20000x3 ![0, 1002] · slices_S20000x1005_S20000x3_0_1002) x)

/-- The six index tests, entry by entry, out of the precondition's one bit. -/
theorem idx_in_range
    (a0 : FVec F S20000x1005 .f32) (a1 : IVec S2x320000 32) (a2 : FVec F S320000 .f32) (a3 : FVec F S3x250 .f32)
    (a4 : FVec F S11x250 .f32) (a5 : FVec F S256x85 .f32) (a6 : FVec F S1755x512 .f32) (a7 : FVec F S512 .f32)
    (a8 : FVec F S512x256 .f32) (a9 : FVec F S256 .f32) (a10 : FVec F S256x64 .f32) (a11 : FVec F S64 .f32)
    (a12 : FVec F S64x3 .f32) (a13 : FVec F S3 .f32)
    (h : fn (F := F) a0 a1 a2 a3 a4 a5 a6 a7 a8 a9 a10 a11 a12 a13 = fun _ => 1#1) :
    (∀ i : S20000.Idx, IntOp.cmpi .sge (liA a0 i) (0#32) = 1#1 ∧ IntOp.cmpi .slt (liA a0 i) (3#32) = 1#1)
    ∧ (∀ i : S20000.Idx, IntOp.cmpi .sge (riA a0 i) (0#32) = 1#1 ∧ IntOp.cmpi .slt (riA a0 i) (11#32) = 1#1)
    ∧ (∀ i : S20000x3.Idx, IntOp.cmpi .sge (ciA a0 i) (0#32) = 1#1 ∧ IntOp.cmpi .slt (ciA a0 i) (256#32) = 1#1) := by
  have e := congrFun h i0
  dsimp only [fn, fn_part1, fn_part2, fn_part3, fn_part4, fn_part5] at e
  -- the outermost six conjuncts, last first
  obtain ⟨e, c256⟩ := (and1 _ _).1 e
  obtain ⟨e, c0⟩ := (and1 _ _).1 e
  obtain ⟨e, r11⟩ := (and1 _ _).1 e
  obtain ⟨e, r0⟩ := (and1 _ _).1 e
  obtain ⟨e, l3⟩ := (and1 _ _).1 e
  obtain ⟨-, l0⟩ := (and1 _ _).1 e
  refine ⟨fun i => ⟨?_, ?_⟩, fun i => ⟨?_, ?_⟩, fun i => ⟨?_, ?_⟩⟩
  · exact Host.reduce_andi_all _ _ _ _ i0 l0 i
  · exact Host.reduce_andi_all _ _ _ _ i0 l3 i
  · exact Host.reduce_andi_all _ _ _ _ i0 r0 i
  · exact Host.reduce_andi_all _ _ _ _ i0 r11 i
  · exact Host.reduce_andi_all _ _ _ _ i0 c0 i
  · exact Host.reduce_andi_all _ _ _ _ i0 c256 i

end Cert.PreDecode

end
-- ==== Proof.PreWords.lean ====
/-
  The precondition's six index tests, restated for the index WORDS of each node's row: for every node p,
  0 ≤ li p < 3, 0 ≤ ri p < 11 and 0 ≤ ci p a < 256 (a < 3), where li, ri, ci are the signed 32-bit words
  trunc (x[p, 0] − 1), trunc (roundeven (|x[p, 1001]| · 10)) and trunc (x[p, 1002 + a]). The precondition computes
  these words for all nodes at once (a column of x sliced out and reshaped to a vector, a constant broadcast);
  entry p of each such vector is the word of row p. A signed comparison that answers 1 is the order of the signed values.
-/
import proofs.«102165_j72748156060190_1_alg».proof.Proof.PreDecode
import proofs.«102165_j72748156060190_1_alg».proof.Proof.RefEmbedIdx

set_option maxRecDepth 16384

noncomputable section

namespace Cert.PreDecode

open Cert.Pre_finite_inputs Cert.Pre_finite_inputs.Facts
open Cert.KernelIdeal.EmbedVal
open Idealize.ShloMosaic Idealize.ShloMosaic.TcCoe Idealize.ShloMosaic.ValueIdx

variable [Cert.Pre_finite_inputs.Facts] [Cert.ReferenceIdeal.Facts]

theorem ofBool_eq_one (b : Bool) : BitVec.ofBool b = 1#1 ↔ b = true := by cases b <;> decide

/-- A word that passes "≥ 0" and "< n" (signed) has a non-negative signed value and an unsigned value below n. -/
theorem word_range (w lim : BitVec 32) (n : Nat) (hlim : lim.toInt = (n : Int))
    (h0 : IntOp.cmpi .sge w (0#32) = 1#1) (h1 : IntOp.cmpi .slt w lim = 1#1) : 0 ≤ w.toInt ∧ w.toNat < n := by
  unfold IntOp.cmpi at h0 h1
  rw [ofBool_eq_one] at h0 h1
  simp only [BitVec.slt, BitVec.sle, decide_eq_true_eq] at h0 h1
  have hz : (0#32 : BitVec 32).toInt = 0 := by decide
  rw [hz] at h0
  rw [hlim] at h1
  exact ⟨h0, toNat_lt_of_toInt h0 h1⟩

variable (x : FVec Ideal S20000x1005 .f32)

theorem liA_at (p : Fin 20000) : liA x (ix1 p) = liW x p := by
  unfold liA
  show FloatOps.fptosi (F := Ideal) (φ := .f32) 32
      (shapeCast S20000 (extractStridedSlice S20000x1 ![0, 0] x slices_S20000x1005_S20000x1_0_0) shapeCasts_S20000x1_S20000 (ix1 p)
        - broadcastInDim S20000 ![] bcast_S_S20000 (constant (F := Ideal) S_ .f32 0x3F800000#32) (ix1 p)) = _
  rw [Cert.ReferenceIdeal.EmbedIdx.col_at x 0 (by decide) _ p, Cert.ReferenceIdeal.EmbedIdx.splat_at]
  rfl

theorem riA_at (p : Fin 20000) : riA x (ix1 p) = riW x p := by
  unfold riA
  show FloatOps.fptosi (F := Ideal) (φ := .f32) 32 (FloatOps.roundeven (F := Ideal) (φ := .f32)
      (FloatOps.absf (F := Ideal) (φ := .f32)
          (shapeCast S20000 (extractStridedSlice S20000x1 ![0, 1001] x slices_S20000x1005_S20000x1_0_1001) shapeCasts_S20000x1_S20000 (ix1 p))
        * broadcastInDim S20000 ![] bcast_S_S20000 (constant (F := Ideal) S_ .f32 0x41200000#32) (ix1 p))) = _
  rw [Cert.ReferenceIdeal.EmbedIdx.col_at x 1001 (by decide) _ p, Cert.ReferenceIdeal.EmbedIdx.splat_at]
  rfl

theorem ciA_at (p : Fin 20000) (a : Fin 3) : ciA x (ix2 p a) = ciW x p a := by
  unfold ciA
  show FloatOps.fptosi (F := Ideal) (φ := .f32) 32
      (extractStridedSlice S20000x3 ![0, 1002] x slices_S20000x1005_S20000x3_0_1002 (ix2 p a)) = _
  rw [extractStridedSlice_apply ![0, 1002] x _ (ix2 p a) (ix2 p (⟨1002 + a.val, by have := a.isLt; omega⟩ : Fin 1005)) (fun ax => by
      match ax with
      | ⟨0, _⟩ => show p.val = 0 + p.val; omega
      | ⟨1, _⟩ => show 1002 + a.val = 1002 + a.val; rfl)]
  rfl

/-- Under the precondition every node's three kinds of index word lie inside their tables. -/
theorem words_in_range
    (a1 : IVec S2x320000 32) (a2 : FVec Ideal S320000 .f32) (a3 : FVec Ideal S3x250 .f32)
    (a4 : FVec Ideal S11x250 .f32) (a5 : FVec Ideal S256x85 .f32) (a6 : FVec Ideal S1755x512 .f32) (a7 : FVec Ideal S512 .f32)
    (a8 : FVec Ideal S512x256 .f32) (a9 : FVec Ideal S256 .f32) (a10 : FVec Ideal S256x64 .f32) (a11 : FVec Ideal S64 .f32)
    (a12 : FVec Ideal S64x3 .f32) (a13 : FVec Ideal S3 .f32)
    (h : fn (F := Ideal) x a1 a2 a3 a4 a5 a6 a7 a8 a9 a10 a11 a12 a13 = fun _ => 1#1) :
    (∀ p, 0 ≤ (liW x p).toInt ∧ (liW x p).toNat < 3)
    ∧ (∀ p, 0 ≤ (riW x p).toInt ∧ (riW x p).toNat < 11)
    ∧ (∀ p a, 0 ≤ (ciW x p a).toInt ∧ (ciW x p a).toNat < 256) := by
  obtain ⟨hl, hr, hc⟩ := idx_in_range x a1 a2 a3 a4 a5 a6 a7 a8 a9 a10 a11 a12 a13 h
  refine ⟨fun p => ?_, fun p => ?_, fun p a => ?_⟩
  · have := hl (ix1 p); rw [liA_at] at this
    exact word_range _ (3#32) 3 (by decide) this.1 this.2
  · have := hr (ix1 p); rw [riA_at] at this
    exact word_range _ (11#32) 11 (by decide) this.1 this.2
  · have := hc (ix2 p a); rw [ciA_at] at this
    exact word_range _ (256#32) 256 (by decide) this.1 this.2

end Cert.PreDecode

end
-- ==== Proof.RefRun.lean ====
/- The reference program's run, read as one straight line of host operations.
   @main of the reference is four consecutive windows of plain StableHLO operations with seven calls of
   outlined functions (round, three where-selects, three leaky ReLUs, each of the latter calling a select).
   A call executes the callee's body over the call's own buffers, so the whole program is one list of
   operations; the list is cut into eight consecutive pieces: the embedding (up to the concatenation),
   then for each of the three graph-convolution layers a head (the feature product and the start of the
   degree computation, up to the window's end) and a rest (normalisation, gather, scatter-add, self loop,
   bias, leaky ReLU), and the final linear layer. -/
import proofs.«102165_j72748156060190_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option quotPrecheck false in
/-- The contents type of a buffer of shape `s` and element type `t`, at the float family `F`. -/
local notation "⟪" s ", " t "⟫" => ((⟨s, t⟩ : BufTy).Contents (Elt F))

/-- The embedding: the two index rows of the edge list, the three table look-ups (layer id, rounded relative
    size, the three colours) with their negative-index wrap, and the concatenation with the feature columns
    (%0 … %41; the rounding is the call of @round). -/
abbrev ops0 : List (HloOp τ sig (Elt F)) :=
  [ unary main_arg1 main_v0 ((extractStridedSlice S1x320000 ![0, 0] · slices_S2x320000_S1x320000_0_0) : ⟪S2x320000, .i32⟫ → ⟪S1x320000, .i32⟫),
    reshape main_v0 main_v1 rfl shapeCasts_S1x320000_S320000,
    unary main_arg1 main_v2 ((extractStridedSlice S1x320000 ![1, 0] · slices_S2x320000_S1x320000_1_0) : ⟪S2x320000, .i32⟫ → ⟪S1x320000, .i32⟫),
    reshape main_v2 main_v3 rfl shapeCasts_S1x320000_S320000,
    unary main_arg0 main_v4 ((extractStridedSlice S20000x1 ![0, 0] · slices_S20000x1005_S20000x1_0_0) : ⟪S20000x1005, .f32⟫ → ⟪S20000x1, .f32⟫),
    reshape main_v4 main_v5 rfl shapeCasts_S20000x1_S20000,
    nullary main_cst (constant S_ .f32 0x3F800000#32),
    unary main_cst main_v6 (broadcastInDim S20000 ![] bcast_S_S20000 : ⟪S_, .f32⟫ → ⟪S20000, .f32⟫),
    binary main_v5 main_v6 main_v7 (subf : ⟪S20000, .f32⟫ → ⟪S20000, .f32⟫ → ⟪S20000, .f32⟫),
    unary main_v7 main_v8 (fptosi 32 : ⟪S20000, .f32⟫ → ⟪S20000, .i32⟫),
    nullary main_c (constantI S_ 32 0#32),
    unary main_c main_v9 (broadcastInDim S20000 ![] bcast_S_S20000 : ⟪S_, .i32⟫ → ⟪S20000, .i32⟫),
    binary main_v8 main_v9 main_v10 (cmpi .slt : ⟪S20000, .i32⟫ → ⟪S20000, .i32⟫ → ⟪S20000, .i1⟫),
    nullary main_c_0 (constantI S_ 32 3#32),
    unary main_c_0 main_v11 (broadcastInDim S20000 ![] bcast_S_S20000 : ⟪S_, .i32⟫ → ⟪S20000, .i32⟫),
    binary main_v8 main_v11 main_v12 (addi : ⟪S20000, .i32⟫ → ⟪S20000, .i32⟫ → ⟪S20000, .i32⟫),
    ternary main_v10 main_v12 main_v8 main_v13 (select : ⟪S20000, .i1⟫ → ⟪S20000, .i32⟫ → ⟪S20000, .i32⟫ → ⟪S20000, .i32⟫),
    unary main_v13 main_v14 (broadcastInDim S20000x1 ![0] bcast_S20000_S20000x1_0 : ⟪S20000, .i32⟫ → ⟪S20000x1, .i32⟫),
    binary main_arg3 main_v14 main_v15 ((fun x i => Host.gather gather_S3x250_S20000x1_S20000x250_1_0_n_n_0_1_1250 x i) : ⟪S3x250, .f32⟫ → ⟪S20000x1, .i32⟫ → ⟪S20000x250, .f32⟫),
    unary main_arg0 main_v16 ((extractStridedSlice S20000x1000 ![0, 1] · slices_S20000x1005_S20000x1000_0_1) : ⟪S20000x1005, .f32⟫ → ⟪S20000x1000, .f32⟫),
    unary main_arg0 main_v17 ((extractStridedSlice S20000x1 ![0, 1001] · slices_S20000x1005_S20000x1_0_1001) : ⟪S20000x1005, .f32⟫ → ⟪S20000x1, .f32⟫),
    reshape main_v17 main_v18 rfl shapeCasts_S20000x1_S20000,
    unary main_v18 main_v19 (Host.absf : ⟪S20000, .f32⟫ → ⟪S20000, .f32⟫),
    nullary main_cst_1 (constant S_ .f32 0x41200000#32),
    unary main_cst_1 main_v20 (broadcastInDim S20000 ![] bcast_S_S20000 : ⟪S_, .f32⟫ → ⟪S20000, .f32⟫),
    binary main_v19 main_v20 main_v21 (mulf : ⟪S20000, .f32⟫ → ⟪S20000, .f32⟫ → ⟪S20000, .f32⟫),
    TRef.unary (.of main_v21 : TRef sig ⟨S20000, .f32⟩) main_call0.v0 Host.roundeven,
    unary main_v22 main_v23 (fptosi 32 : ⟪S20000, .f32⟫ → ⟪S20000, .i32⟫),
    nullary main_c_2 (constantI S_ 32 0#32),
    unary main_c_2 main_v24 (broadcastInDim S20000 ![] bcast_S_S20000 : ⟪S_, .i32⟫ → ⟪S20000, .i32⟫),
    binary main_v23 main_v24 main_v25 (cmpi .slt : ⟪S20000, .i32⟫ → ⟪S20000, .i32⟫ → ⟪S20000, .i1⟫),
    nullary main_c_3 (constantI S_ 32 11#32),
    unary main_c_3 main_v26 (broadcastInDim S20000 ![] bcast_S_S20000 : ⟪S_, .i32⟫ → ⟪S20000, .i32⟫),
    binary main_v23 main_v26 main_v27 (addi : ⟪S20000, .i32⟫ → ⟪S20000, .i32⟫ → ⟪S20000, .i32⟫),
    ternary main_v25 main_v27 main_v23 main_v28 (select : ⟪S20000, .i1⟫ → ⟪S20000, .i32⟫ → ⟪S20000, .i32⟫ → ⟪S20000, .i32⟫),
    unary main_v28 main_v29 (broadcastInDim S20000x1 ![0] bcast_S20000_S20000x1_0 : ⟪S20000, .i32⟫ → ⟪S20000x1, .i32⟫),
    binary main_arg4 main_v29 main_v30 ((fun x i => Host.gather gather_S11x250_S20000x1_S20000x250_1_0_n_n_0_1_1250 x i) : ⟪S11x250, .f32⟫ → ⟪S20000x1, .i32⟫ → ⟪S20000x250, .f32⟫),
    unary main_arg0 main_v31 ((extractStridedSlice S20000x3 ![0, 1002] · slices_S20000x1005_S20000x3_0_1002) : ⟪S20000x1005, .f32⟫ → ⟪S20000x3, .f32⟫),
    unary main_v31 main_v32 (fptosi 32 : ⟪S20000x3, .f32⟫ → ⟪S20000x3, .i32⟫),
    nullary main_c_4 (constantI S_ 32 0#32),
    unary main_c_4 main_v33 (broadcastInDim S20000x3 ![] bcast_S_S20000x3 : ⟪S_, .i32⟫ → ⟪S20000x3, .i32⟫),
    binary main_v32 main_v33 main_v34 (cmpi .slt : ⟪S20000x3, .i32⟫ → ⟪S20000x3, .i32⟫ → ⟪S20000x3, .i1⟫),
    nullary main_c_5 (constantI S_ 32 256#32),
    unary main_c_5 main_v35 (broadcastInDim S20000x3 ![] bcast_S_S20000x3 : ⟪S_, .i32⟫ → ⟪S20000x3, .i32⟫),
    binary main_v32 main_v35 main_v36 (addi : ⟪S20000x3, .i32⟫ → ⟪S20000x3, .i32⟫ → ⟪S20000x3, .i32⟫),
    ternary main_v34 main_v36 main_v32 main_v37 (select : ⟪S20000x3, .i1⟫ → ⟪S20000x3, .i32⟫ → ⟪S20000x3, .i32⟫ → ⟪S20000x3, .i32⟫),
    unary main_v37 main_v38 (broadcastInDim S20000x3x1 ![0, 1] bcast_S20000x3_S20000x3x1_0_1 : ⟪S20000x3, .i32⟫ → ⟪S20000x3x1, .i32⟫),
    binary main_arg5 main_v38 main_v39 ((fun x i => Host.gather gather_S256x85_S20000x3x1_S20000x3x85_2_0_n_n_0_2_185 x i) : ⟪S256x85, .f32⟫ → ⟪S20000x3x1, .i32⟫ → ⟪S20000x3x85, .f32⟫),
    reshape main_v39 main_v40 rfl shapeCasts_S20000x3x85_S20000x255,
    nary ![main_v15, main_v16, main_v30, main_v40] main_v41 (fun u => concatenate S20000x1755 1 [⟨S20000x250, u 0⟩, ⟨S20000x1000, u 1⟩, ⟨S20000x250, u 2⟩, ⟨S20000x255, u 3⟩] concatenates_S20000x250_S20000x1000_S20000x250_S20000x255_S20000x1755_d1) ]

/-- Layer 1, head: the feature product with the first weight matrix and the weighted in-degree plus one
    (scatter-add of the edge weights at the destination row), up to the end of the first window (%42 … %48). -/
abbrev ops1 : List (HloOp τ sig (Elt F)) :=
  [ binary main_v41 main_arg6 main_v42 ((fun l r => Host.dotGeneral dot_S20000x1755_S1755x512_S20000x512_1_0_0_1_n_n none l r) : ⟪S20000x1755, .f32⟫ → ⟪S1755x512, .f32⟫ → ⟪S20000x512, .f32⟫),
    nullary main_cst_6 (constant S_ .f32 0x00000000#32),
    unary main_cst_6 main_v43 (broadcastInDim S20000 ![] bcast_S_S20000 : ⟪S_, .f32⟫ → ⟪S20000, .f32⟫),
    unary main_v3 main_v44 (broadcastInDim S320000x1 ![0] bcast_S320000_S320000x1_0 : ⟪S320000, .i32⟫ → ⟪S320000x1, .i32⟫),
    ternary main_v43 main_v44 main_arg2 main_v45 ((fun x i u => Host.scatterAdd scatter_S20000_S320000x1_S320000_n_0_0_1 x i u) : ⟪S20000, .f32⟫ → ⟪S320000x1, .i32⟫ → ⟪S320000, .f32⟫ → ⟪S20000, .f32⟫),
    nullary main_cst_7 (constant S_ .f32 0x3F800000#32),
    unary main_cst_7 main_v46 (broadcastInDim S20000 ![] bcast_S_S20000 : ⟪S_, .f32⟫ → ⟪S20000, .f32⟫),
    binary main_v45 main_v46 main_v47 (addf : ⟪S20000, .f32⟫ → ⟪S20000, .f32⟫ → ⟪S20000, .f32⟫),
    nullary main_cst_8 (constant S_ .f32 0x00000000#32),
    unary main_cst_8 main_v48 (broadcastInDim S20000 ![] bcast_S_S20000 : ⟪S_, .f32⟫ → ⟪S20000, .f32⟫) ]

/-- Layer 1, rest: the inverse square root of the degree where positive (the where-select is a call), the edge
    norm from its two gathers, the gathered source rows scaled and scatter-added at the destinations, the self
    loop, the bias and the leaky ReLU (a call, itself calling a select) (%49 … %89). -/
abbrev ops2 : List (HloOp τ sig (Elt F)) :=
  [ binary main_v47 main_v48 main_v49 (cmpf .ogt : ⟪S20000, .f32⟫ → ⟪S20000, .f32⟫ → ⟪S20000, .i1⟫),
    unary main_v47 main_v50 (Host.rsqrt : ⟪S20000, .f32⟫ → ⟪S20000, .f32⟫),
    nullary main_cst_9 (constant S_ .f32 0x00000000#32),
    TRef.unary (.of main_cst_9 : TRef sig ⟨S_, .f32⟩) main_call1.v0 id,
    TRef.unary main_call1.v0 main_call1.v1 (broadcastInDim S20000 ![] bcast_S_S20000),
    TRef.ternary (.of main_v49 : TRef sig ⟨S20000, .i1⟩) (.of main_v50 : TRef sig ⟨S20000, .f32⟩) main_call1.v1 main_call1.v2 select,
    nullary main_c_10 (constantI S_ 32 0#32),
    unary main_c_10 main_v52 (broadcastInDim S320000 ![] bcast_S_S320000 : ⟪S_, .i32⟫ → ⟪S320000, .i32⟫),
    binary main_v1 main_v52 main_v53 (cmpi .slt : ⟪S320000, .i32⟫ → ⟪S320000, .i32⟫ → ⟪S320000, .i1⟫),
    nullary main_c_11 (constantI S_ 32 20000#32),
    unary main_c_11 main_v54 (broadcastInDim S320000 ![] bcast_S_S320000 : ⟪S_, .i32⟫ → ⟪S320000, .i32⟫),
    binary main_v1 main_v54 main_v55 (addi : ⟪S320000, .i32⟫ → ⟪S320000, .i32⟫ → ⟪S320000, .i32⟫),
    ternary main_v53 main_v55 main_v1 main_v56 (select : ⟪S320000, .i1⟫ → ⟪S320000, .i32⟫ → ⟪S320000, .i32⟫ → ⟪S320000, .i32⟫),
    unary main_v56 main_v57 (broadcastInDim S320000x1 ![0] bcast_S320000_S320000x1_0 : ⟪S320000, .i32⟫ → ⟪S320000x1, .i32⟫),
    binary main_v51 main_v57 main_v58 ((fun x i => Host.gather gather_S20000_S320000x1_S320000_n_0_n_n_0_1_1 x i) : ⟪S20000, .f32⟫ → ⟪S320000x1, .i32⟫ → ⟪S320000, .f32⟫),
    binary main_v58 main_arg2 main_v59 (mulf : ⟪S320000, .f32⟫ → ⟪S320000, .f32⟫ → ⟪S320000, .f32⟫),
    nullary main_c_12 (constantI S_ 32 0#32),
    unary main_c_12 main_v60 (broadcastInDim S320000 ![] bcast_S_S320000 : ⟪S_, .i32⟫ → ⟪S320000, .i32⟫),
    binary main_v3 main_v60 main_v61 (cmpi .slt : ⟪S320000, .i32⟫ → ⟪S320000, .i32⟫ → ⟪S320000, .i1⟫),
    nullary main_c_13 (constantI S_ 32 20000#32),
    unary main_c_13 main_v62 (broadcastInDim S320000 ![] bcast_S_S320000 : ⟪S_, .i32⟫ → ⟪S320000, .i32⟫),
    binary main_v3 main_v62 main_v63 (addi : ⟪S320000, .i32⟫ → ⟪S320000, .i32⟫ → ⟪S320000, .i32⟫),
    ternary main_v61 main_v63 main_v3 main_v64 (select : ⟪S320000, .i1⟫ → ⟪S320000, .i32⟫ → ⟪S320000, .i32⟫ → ⟪S320000, .i32⟫),
    unary main_v64 main_v65 (broadcastInDim S320000x1 ![0] bcast_S320000_S320000x1_0 : ⟪S320000, .i32⟫ → ⟪S320000x1, .i32⟫),
    binary main_v51 main_v65 main_v66 ((fun x i => Host.gather gather_S20000_S320000x1_S320000_n_0_n_n_0_1_1 x i) : ⟪S20000, .f32⟫ → ⟪S320000x1, .i32⟫ → ⟪S320000, .f32⟫),
    binary main_v59 main_v66 main_v67 (mulf : ⟪S320000, .f32⟫ → ⟪S320000, .f32⟫ → ⟪S320000, .f32⟫),
    nullary main_c_14 (constantI S_ 32 0#32),
    unary main_c_14 main_v68 (broadcastInDim S320000 ![] bcast_S_S320000 : ⟪S_, .i32⟫ → ⟪S320000, .i32⟫),
    binary main_v1 main_v68 main_v69 (cmpi .slt : ⟪S320000, .i32⟫ → ⟪S320000, .i32⟫ → ⟪S320000, .i1⟫),
    nullary main_c_15 (constantI S_ 32 20000#32),
    unary main_c_15 main_v70 (broadcastInDim S320000 ![] bcast_S_S320000 : ⟪S_, .i32⟫ → ⟪S320000, .i32⟫),
    binary main_v1 main_v70 main_v71 (addi : ⟪S320000, .i32⟫ → ⟪S320000, .i32⟫ → ⟪S320000, .i32⟫),
    ternary main_v69 main_v71 main_v1 main_v72 (select : ⟪S320000, .i1⟫ → ⟪S320000, .i32⟫ → ⟪S320000, .i32⟫ → ⟪S320000, .i32⟫),
    unary main_v72 main_v73 (broadcastInDim S320000x1 ![0] bcast_S320000_S320000x1_0 : ⟪S320000, .i32⟫ → ⟪S320000x1, .i32⟫),
    binary main_v42 main_v73 main_v74 ((fun x i => Host.gather gather_S20000x512_S320000x1_S320000x512_1_0_n_n_0_1_1512 x i) : ⟪S20000x512, .f32⟫ → ⟪S320000x1, .i32⟫ → ⟪S320000x512, .f32⟫),
    unary main_v67 main_v75 (broadcastInDim S320000x1 ![0] bcast_S320000_S320000x1_0 : ⟪S320000, .f32⟫ → ⟪S320000x1, .f32⟫),
    unary main_v75 main_v76 (broadcastInDim S320000x512 ![0, 1] bcast_S320000x1_S320000x512_0_1 : ⟪S320000x1, .f32⟫ → ⟪S320000x512, .f32⟫),
    binary main_v74 main_v76 main_v77 (mulf : ⟪S320000x512, .f32⟫ → ⟪S320000x512, .f32⟫ → ⟪S320000x512, .f32⟫),
    nullary main_cst_16 (constant S_ .f32 0x00000000#32),
    unary main_cst_16 main_v78 (broadcastInDim S20000x512 ![] bcast_S_S20000x512 : ⟪S_, .f32⟫ → ⟪S20000x512, .f32⟫),
    unary main_v3 main_v79 (broadcastInDim S320000x1 ![0] bcast_S320000_S320000x1_0 : ⟪S320000, .i32⟫ → ⟪S320000x1, .i32⟫),
    ternary main_v78 main_v79 main_v77 main_v80 ((fun x i u => Host.scatterAdd scatter_S20000x512_S320000x1_S320000x512_1_0_0_1 x i u) : ⟪S20000x512, .f32⟫ → ⟪S320000x1, .i32⟫ → ⟪S320000x512, .f32⟫ → ⟪S20000x512, .f32⟫),
    binary main_v51 main_v51 main_v81 (mulf : ⟪S20000, .f32⟫ → ⟪S20000, .f32⟫ → ⟪S20000, .f32⟫),
    unary main_v81 main_v82 (broadcastInDim S20000x1 ![0] bcast_S20000_S20000x1_0 : ⟪S20000, .f32⟫ → ⟪S20000x1, .f32⟫),
    unary main_v82 main_v83 (broadcastInDim S20000x512 ![0, 1] bcast_S20000x1_S20000x512_0_1 : ⟪S20000x1, .f32⟫ → ⟪S20000x512, .f32⟫),
    binary main_v42 main_v83 main_v84 (mulf : ⟪S20000x512, .f32⟫ → ⟪S20000x512, .f32⟫ → ⟪S20000x512, .f32⟫),
    binary main_v80 main_v84 main_v85 (addf : ⟪S20000x512, .f32⟫ → ⟪S20000x512, .f32⟫ → ⟪S20000x512, .f32⟫),
    unary main_arg7 main_v86 (broadcastInDim S1x512 ![1] bcast_S512_S1x512_1 : ⟪S512, .f32⟫ → ⟪S1x512, .f32⟫),
    unary main_v86 main_v87 (broadcastInDim S20000x512 ![0, 1] bcast_S1x512_S20000x512_0_1 : ⟪S1x512, .f32⟫ → ⟪S20000x512, .f32⟫),
    binary main_v85 main_v87 main_v88 (addf : ⟪S20000x512, .f32⟫ → ⟪S20000x512, .f32⟫ → ⟪S20000x512, .f32⟫),
    nullary main_cst_17 (constant S_ .f32 0x3C23D70A#32),
    TRef.nullary main_call2.cst (constant S_ .f32 0x00000000#32),
    TRef.unary main_call2.cst main_call2.v0 (broadcastInDim S20000x512 ![] bcast_S_S20000x512),
    TRef.binary (.of main_v88 : TRef sig ⟨S20000x512, .f32⟩) main_call2.v0 main_call2.v1 (cmpf .oge),
    TRef.unary (.of main_cst_17 : TRef sig ⟨S_, .f32⟩) main_call2.v2 id,
    TRef.unary main_call2.v2 main_call2.v3 (broadcastInDim S20000x512 ![] bcast_S_S20000x512),
    TRef.binary main_call2.v3 (.of main_v88 : TRef sig ⟨S20000x512, .f32⟩) main_call2.v4 mulf,
    TRef.ternary main_call2.v1 (.of main_v88 : TRef sig ⟨S20000x512, .f32⟩) main_call2.v4 main_call2.call0.v0 select ]

/-- Layer 2, head: the feature product with the second weight matrix and the weighted in-degree plus one,
    up to the end of the second window (%90 … %96). -/
abbrev ops3 : List (HloOp τ sig (Elt F)) :=
  [ binary main_v89 main_arg8 main_v90 ((fun l r => Host.dotGeneral dot_S20000x512_S512x256_S20000x256_1_0_0_1_n_n none l r) : ⟪S20000x512, .f32⟫ → ⟪S512x256, .f32⟫ → ⟪S20000x256, .f32⟫),
    nullary main_cst_18 (constant S_ .f32 0x00000000#32),
    unary main_cst_18 main_v91 (broadcastInDim S20000 ![] bcast_S_S20000 : ⟪S_, .f32⟫ → ⟪S20000, .f32⟫),
    unary main_v3 main_v92 (broadcastInDim S320000x1 ![0] bcast_S320000_S320000x1_0 : ⟪S320000, .i32⟫ → ⟪S320000x1, .i32⟫),
    ternary main_v91 main_v92 main_arg2 main_v93 ((fun x i u => Host.scatterAdd scatter_S20000_S320000x1_S320000_n_0_0_1 x i u) : ⟪S20000, .f32⟫ → ⟪S320000x1, .i32⟫ → ⟪S320000, .f32⟫ → ⟪S20000, .f32⟫),
    nullary main_cst_19 (constant S_ .f32 0x3F800000#32),
    unary main_cst_19 main_v94 (broadcastInDim S20000 ![] bcast_S_S20000 : ⟪S_, .f32⟫ → ⟪S20000, .f32⟫),
    binary main_v93 main_v94 main_v95 (addf : ⟪S20000, .f32⟫ → ⟪S20000, .f32⟫ → ⟪S20000, .f32⟫),
    nullary main_cst_20 (constant S_ .f32 0x00000000#32),
    unary main_cst_20 main_v96 (broadcastInDim S20000 ![] bcast_S_S20000 : ⟪S_, .f32⟫ → ⟪S20000, .f32⟫) ]

/-- Layer 2, rest: as layer 1's, at width 256 (%97 … %137). -/
abbrev ops4 : List (HloOp τ sig (Elt F)) :=
  [ binary main_v95 main_v96 main_v97 (cmpf .ogt : ⟪S20000, .f32⟫ → ⟪S20000, .f32⟫ → ⟪S20000, .i1⟫),
    unary main_v95 main_v98 (Host.rsqrt : ⟪S20000, .f32⟫ → ⟪S20000, .f32⟫),
    nullary main_cst_21 (constant S_ .f32 0x00000000#32),
    TRef.unary (.of main_cst_21 : TRef sig ⟨S_, .f32⟩) main_call3.v0 id,
    TRef.unary main_call3.v0 main_call3.v1 (broadcastInDim S20000 ![] bcast_S_S20000),
    TRef.ternary (.of main_v97 : TRef sig ⟨S20000, .i1⟩) (.of main_v98 : TRef sig ⟨S20000, .f32⟩) main_call3.v1 main_call3.v2 select,
    nullary main_c_22 (constantI S_ 32 0#32),
    unary main_c_22 main_v100 (broadcastInDim S320000 ![] bcast_S_S320000 : ⟪S_, .i32⟫ → ⟪S320000, .i32⟫),
    binary main_v1 main_v100 main_v101 (cmpi .slt : ⟪S320000, .i32⟫ → ⟪S320000, .i32⟫ → ⟪S320000, .i1⟫),
    nullary main_c_23 (constantI S_ 32 20000#32),
    unary main_c_23 main_v102 (broadcastInDim S320000 ![] bcast_S_S320000 : ⟪S_, .i32⟫ → ⟪S320000, .i32⟫),
    binary main_v1 main_v102 main_v103 (addi : ⟪S320000, .i32⟫ → ⟪S320000, .i32⟫ → ⟪S320000, .i32⟫),
    ternary main_v101 main_v103 main_v1 main_v104 (select : ⟪S320000, .i1⟫ → ⟪S320000, .i32⟫ → ⟪S320000, .i32⟫ → ⟪S320000, .i32⟫),
    unary main_v104 main_v105 (broadcastInDim S320000x1 ![0] bcast_S320000_S320000x1_0 : ⟪S320000, .i32⟫ → ⟪S320000x1, .i32⟫),
    binary main_v99 main_v105 main_v106 ((fun x i => Host.gather gather_S20000_S320000x1_S320000_n_0_n_n_0_1_1 x i) : ⟪S20000, .f32⟫ → ⟪S320000x1, .i32⟫ → ⟪S320000, .f32⟫),
    binary main_v106 main_arg2 main_v107 (mulf : ⟪S320000, .f32⟫ → ⟪S320000, .f32⟫ → ⟪S320000, .f32⟫),
    nullary main_c_24 (constantI S_ 32 0#32),
    unary main_c_24 main_v108 (broadcastInDim S320000 ![] bcast_S_S320000 : ⟪S_, .i32⟫ → ⟪S320000, .i32⟫),
    binary main_v3 main_v108 main_v109 (cmpi .slt : ⟪S320000, .i32⟫ → ⟪S320000, .i32⟫ → ⟪S320000, .i1⟫),
    nullary main_c_25 (constantI S_ 32 20000#32),
    unary main_c_25 main_v110 (broadcastInDim S320000 ![] bcast_S_S320000 : ⟪S_, .i32⟫ → ⟪S320000, .i32⟫),
    binary main_v3 main_v110 main_v111 (addi : ⟪S320000, .i32⟫ → ⟪S320000, .i32⟫ → ⟪S320000, .i32⟫),
    ternary main_v109 main_v111 main_v3 main_v112 (select : ⟪S320000, .i1⟫ → ⟪S320000, .i32⟫ → ⟪S320000, .i32⟫ → ⟪S320000, .i32⟫),
    unary main_v112 main_v113 (broadcastInDim S320000x1 ![0] bcast_S320000_S320000x1_0 : ⟪S320000, .i32⟫ → ⟪S320000x1, .i32⟫),
    binary main_v99 main_v113 main_v114 ((fun x i => Host.gather gather_S20000_S320000x1_S320000_n_0_n_n_0_1_1 x i) : ⟪S20000, .f32⟫ → ⟪S320000x1, .i32⟫ → ⟪S320000, .f32⟫),
    binary main_v107 main_v114 main_v115 (mulf : ⟪S320000, .f32⟫ → ⟪S320000, .f32⟫ → ⟪S320000, .f32⟫),
    nullary main_c_26 (constantI S_ 32 0#32),
    unary main_c_26 main_v116 (broadcastInDim S320000 ![] bcast_S_S320000 : ⟪S_, .i32⟫ → ⟪S320000, .i32⟫),
    binary main_v1 main_v116 main_v117 (cmpi .slt : ⟪S320000, .i32⟫ → ⟪S320000, .i32⟫ → ⟪S320000, .i1⟫),
    nullary main_c_27 (constantI S_ 32 20000#32),
    unary main_c_27 main_v118 (broadcastInDim S320000 ![] bcast_S_S320000 : ⟪S_, .i32⟫ → ⟪S320000, .i32⟫),
    binary main_v1 main_v118 main_v119 (addi : ⟪S320000, .i32⟫ → ⟪S320000, .i32⟫ → ⟪S320000, .i32⟫),
    ternary main_v117 main_v119 main_v1 main_v120 (select : ⟪S320000, .i1⟫ → ⟪S320000, .i32⟫ → ⟪S320000, .i32⟫ → ⟪S320000, .i32⟫),
    unary main_v120 main_v121 (broadcastInDim S320000x1 ![0] bcast_S320000_S320000x1_0 : ⟪S320000, .i32⟫ → ⟪S320000x1, .i32⟫),
    binary main_v90 main_v121 main_v122 ((fun x i => Host.gather gather_S20000x256_S320000x1_S320000x256_1_0_n_n_0_1_1256 x i) : ⟪S20000x256, .f32⟫ → ⟪S320000x1, .i32⟫ → ⟪S320000x256, .f32⟫),
    unary main_v115 main_v123 (broadcastInDim S320000x1 ![0] bcast_S320000_S320000x1_0 : ⟪S320000, .f32⟫ → ⟪S320000x1, .f32⟫),
    unary main_v123 main_v124 (broadcastInDim S320000x256 ![0, 1] bcast_S320000x1_S320000x256_0_1 : ⟪S320000x1, .f32⟫ → ⟪S320000x256, .f32⟫),
    binary main_v122 main_v124 main_v125 (mulf : ⟪S320000x256, .f32⟫ → ⟪S320000x256, .f32⟫ → ⟪S320000x256, .f32⟫),
    nullary main_cst_28 (constant S_ .f32 0x00000000#32),
    unary main_cst_28 main_v126 (broadcastInDim S20000x256 ![] bcast_S_S20000x256 : ⟪S_, .f32⟫ → ⟪S20000x256, .f32⟫),
    unary main_v3 main_v127 (broadcastInDim S320000x1 ![0] bcast_S320000_S320000x1_0 : ⟪S320000, .i32⟫ → ⟪S320000x1, .i32⟫),
    ternary main_v126 main_v127 main_v125 main_v128 ((fun x i u => Host.scatterAdd scatter_S20000x256_S320000x1_S320000x256_1_0_0_1 x i u) : ⟪S20000x256, .f32⟫ → ⟪S320000x1, .i32⟫ → ⟪S320000x256, .f32⟫ → ⟪S20000x256, .f32⟫),
    binary main_v99 main_v99 main_v129 (mulf : ⟪S20000, .f32⟫ → ⟪S20000, .f32⟫ → ⟪S20000, .f32⟫),
    unary main_v129 main_v130 (broadcastInDim S20000x1 ![0] bcast_S20000_S20000x1_0 : ⟪S20000, .f32⟫ → ⟪S20000x1, .f32⟫),
    unary main_v130 main_v131 (broadcastInDim S20000x256 ![0, 1] bcast_S20000x1_S20000x256_0_1 : ⟪S20000x1, .f32⟫ → ⟪S20000x256, .f32⟫),
    binary main_v90 main_v131 main_v132 (mulf : ⟪S20000x256, .f32⟫ → ⟪S20000x256, .f32⟫ → ⟪S20000x256, .f32⟫),
    binary main_v128 main_v132 main_v133 (addf : ⟪S20000x256, .f32⟫ → ⟪S20000x256, .f32⟫ → ⟪S20000x256, .f32⟫),
    unary main_arg9 main_v134 (broadcastInDim S1x256 ![1] bcast_S256_S1x256_1 : ⟪S256, .f32⟫ → ⟪S1x256, .f32⟫),
    unary main_v134 main_v135 (broadcastInDim S20000x256 ![0, 1] bcast_S1x256_S20000x256_0_1 : ⟪S1x256, .f32⟫ → ⟪S20000x256, .f32⟫),
    binary main_v133 main_v135 main_v136 (addf : ⟪S20000x256, .f32⟫ → ⟪S20000x256, .f32⟫ → ⟪S20000x256, .f32⟫),
    nullary main_cst_29 (constant S_ .f32 0x3C23D70A#32),
    TRef.nullary main_call4.cst (constant S_ .f32 0x00000000#32),
    TRef.unary main_call4.cst main_call4.v0 (broadcastInDim S20000x256 ![] bcast_S_S20000x256),
    TRef.binary (.of main_v136 : TRef sig ⟨S20000x256, .f32⟩) main_call4.v0 main_call4.v1 (cmpf .oge),
    TRef.unary (.of main_cst_29 : TRef sig ⟨S_, .f32⟩) main_call4.v2 id,
    TRef.unary main_call4.v2 main_call4.v3 (broadcastInDim S20000x256 ![] bcast_S_S20000x256),
    TRef.binary main_call4.v3 (.of main_v136 : TRef sig ⟨S20000x256, .f32⟩) main_call4.v4 mulf,
    TRef.ternary main_call4.v1 (.of main_v136 : TRef sig ⟨S20000x256, .f32⟩) main_call4.v4 main_call4.call0.v0 select ]

/-- Layer 3, head: the feature product with the third weight matrix and the weighted in-degree plus one,
    up to the end of the third window (%138 … %144). -/
abbrev ops5 : List (HloOp τ sig (Elt F)) :=
  [ binary main_v137 main_arg10 main_v138 ((fun l r => Host.dotGeneral dot_S20000x256_S256x64_S20000x64_1_0_0_1_n_n none l r) : ⟪S20000x256, .f32⟫ → ⟪S256x64, .f32⟫ → ⟪S20000x64, .f32⟫),
    nullary main_cst_30 (constant S_ .f32 0x00000000#32),
    unary main_cst_30 main_v139 (broadcastInDim S20000 ![] bcast_S_S20000 : ⟪S_, .f32⟫ → ⟪S20000, .f32⟫),
    unary main_v3 main_v140 (broadcastInDim S320000x1 ![0] bcast_S320000_S320000x1_0 : ⟪S320000, .i32⟫ → ⟪S320000x1, .i32⟫),
    ternary main_v139 main_v140 main_arg2 main_v141 ((fun x i u => Host.scatterAdd scatter_S20000_S320000x1_S320000_n_0_0_1 x i u) : ⟪S20000, .f32⟫ → ⟪S320000x1, .i32⟫ → ⟪S320000, .f32⟫ → ⟪S20000, .f32⟫),
    nullary main_cst_31 (constant S_ .f32 0x3F800000#32),
    unary main_cst_31 main_v142 (broadcastInDim S20000 ![] bcast_S_S20000 : ⟪S_, .f32⟫ → ⟪S20000, .f32⟫),
    binary main_v141 main_v142 main_v143 (addf : ⟪S20000, .f32⟫ → ⟪S20000, .f32⟫ → ⟪S20000, .f32⟫),
    nullary main_cst_32 (constant S_ .f32 0x00000000#32),
    unary main_cst_32 main_v144 (broadcastInDim S20000 ![] bcast_S_S20000 : ⟪S_, .f32⟫ → ⟪S20000, .f32⟫) ]

/-- Layer 3, rest: as layer 1's, at width 64 (%145 … %185). -/
abbrev ops6 : List (HloOp τ sig (Elt F)) :=
  [ binary main_v143 main_v144 main_v145 (cmpf .ogt : ⟪S20000, .f32⟫ → ⟪S20000, .f32⟫ → ⟪S20000, .i1⟫),
    unary main_v143 main_v146 (Host.rsqrt : ⟪S20000, .f32⟫ → ⟪S20000, .f32⟫),
    nullary main_cst_33 (constant S_ .f32 0x00000000#32),
    TRef.unary (.of main_cst_33 : TRef sig ⟨S_, .f32⟩) main_call5.v0 id,
    TRef.unary main_call5.v0 main_call5.v1 (broadcastInDim S20000 ![] bcast_S_S20000),
    TRef.ternary (.of main_v145 : TRef sig ⟨S20000, .i1⟩) (.of main_v146 : TRef sig ⟨S20000, .f32⟩) main_call5.v1 main_call5.v2 select,
    nullary main_c_34 (constantI S_ 32 0#32),
    unary main_c_34 main_v148 (broadcastInDim S320000 ![] bcast_S_S320000 : ⟪S_, .i32⟫ → ⟪S320000, .i32⟫),
    binary main_v1 main_v148 main_v149 (cmpi .slt : ⟪S320000, .i32⟫ → ⟪S320000, .i32⟫ → ⟪S320000, .i1⟫),
    nullary main_c_35 (constantI S_ 32 20000#32),
    unary main_c_35 main_v150 (broadcastInDim S320000 ![] bcast_S_S320000 : ⟪S_, .i32⟫ → ⟪S320000, .i32⟫),
    binary main_v1 main_v150 main_v151 (addi : ⟪S320000, .i32⟫ → ⟪S320000, .i32⟫ → ⟪S320000, .i32⟫),
    ternary main_v149 main_v151 main_v1 main_v152 (select : ⟪S320000, .i1⟫ → ⟪S320000, .i32⟫ → ⟪S320000, .i32⟫ → ⟪S320000, .i32⟫),
    unary main_v152 main_v153 (broadcastInDim S320000x1 ![0] bcast_S320000_S320000x1_0 : ⟪S320000, .i32⟫ → ⟪S320000x1, .i32⟫),
    binary main_v147 main_v153 main_v154 ((fun x i => Host.gather gather_S20000_S320000x1_S320000_n_0_n_n_0_1_1 x i) : ⟪S20000, .f32⟫ → ⟪S320000x1, .i32⟫ → ⟪S320000, .f32⟫),
    binary main_v154 main_arg2 main_v155 (mulf : ⟪S320000, .f32⟫ → ⟪S320000, .f32⟫ → ⟪S320000, .f32⟫),
    nullary main_c_36 (constantI S_ 32 0#32),
    unary main_c_36 main_v156 (broadcastInDim S320000 ![] bcast_S_S320000 : ⟪S_, .i32⟫ → ⟪S320000, .i32⟫),
    binary main_v3 main_v156 main_v157 (cmpi .slt : ⟪S320000, .i32⟫ → ⟪S320000, .i32⟫ → ⟪S320000, .i1⟫),
    nullary main_c_37 (constantI S_ 32 20000#32),
    unary main_c_37 main_v158 (broadcastInDim S320000 ![] bcast_S_S320000 : ⟪S_, .i32⟫ → ⟪S320000, .i32⟫),
    binary main_v3 main_v158 main_v159 (addi : ⟪S320000, .i32⟫ → ⟪S320000, .i32⟫ → ⟪S320000, .i32⟫),
    ternary main_v157 main_v159 main_v3 main_v160 (select : ⟪S320000, .i1⟫ → ⟪S320000, .i32⟫ → ⟪S320000, .i32⟫ → ⟪S320000, .i32⟫),
    unary main_v160 main_v161 (broadcastInDim S320000x1 ![0] bcast_S320000_S320000x1_0 : ⟪S320000, .i32⟫ → ⟪S320000x1, .i32⟫),
    binary main_v147 main_v161 main_v162 ((fun x i => Host.gather gather_S20000_S320000x1_S320000_n_0_n_n_0_1_1 x i) : ⟪S20000, .f32⟫ → ⟪S320000x1, .i32⟫ → ⟪S320000, .f32⟫),
    binary main_v155 main_v162 main_v163 (mulf : ⟪S320000, .f32⟫ → ⟪S320000, .f32⟫ → ⟪S320000, .f32⟫),
    nullary main_c_38 (constantI S_ 32 0#32),
    unary main_c_38 main_v164 (broadcastInDim S320000 ![] bcast_S_S320000 : ⟪S_, .i32⟫ → ⟪S320000, .i32⟫),
    binary main_v1 main_v164 main_v165 (cmpi .slt : ⟪S320000, .i32⟫ → ⟪S320000, .i32⟫ → ⟪S320000, .i1⟫),
    nullary main_c_39 (constantI S_ 32 20000#32),
    unary main_c_39 main_v166 (broadcastInDim S320000 ![] bcast_S_S320000 : ⟪S_, .i32⟫ → ⟪S320000, .i32⟫),
    binary main_v1 main_v166 main_v167 (addi : ⟪S320000, .i32⟫ → ⟪S320000, .i32⟫ → ⟪S320000, .i32⟫),
    ternary main_v165 main_v167 main_v1 main_v168 (select : ⟪S320000, .i1⟫ → ⟪S320000, .i32⟫ → ⟪S320000, .i32⟫ → ⟪S320000, .i32⟫),
    unary main_v168 main_v169 (broadcastInDim S320000x1 ![0] bcast_S320000_S320000x1_0 : ⟪S320000, .i32⟫ → ⟪S320000x1, .i32⟫),
    binary main_v138 main_v169 main_v170 ((fun x i => Host.gather gather_S20000x64_S320000x1_S320000x64_1_0_n_n_0_1_164 x i) : ⟪S20000x64, .f32⟫ → ⟪S320000x1, .i32⟫ → ⟪S320000x64, .f32⟫),
    unary main_v163 main_v171 (broadcastInDim S320000x1 ![0] bcast_S320000_S320000x1_0 : ⟪S320000, .f32⟫ → ⟪S320000x1, .f32⟫),
    unary main_v171 main_v172 (broadcastInDim S320000x64 ![0, 1] bcast_S320000x1_S320000x64_0_1 : ⟪S320000x1, .f32⟫ → ⟪S320000x64, .f32⟫),
    binary main_v170 main_v172 main_v173 (mulf : ⟪S320000x64, .f32⟫ → ⟪S320000x64, .f32⟫ → ⟪S320000x64, .f32⟫),
    nullary main_cst_40 (constant S_ .f32 0x00000000#32),
    unary main_cst_40 main_v174 (broadcastInDim S20000x64 ![] bcast_S_S20000x64 : ⟪S_, .f32⟫ → ⟪S20000x64, .f32⟫),
    unary main_v3 main_v175 (broadcastInDim S320000x1 ![0] bcast_S320000_S320000x1_0 : ⟪S320000, .i32⟫ → ⟪S320000x1, .i32⟫),
    ternary main_v174 main_v175 main_v173 main_v176 ((fun x i u => Host.scatterAdd scatter_S20000x64_S320000x1_S320000x64_1_0_0_1 x i u) : ⟪S20000x64, .f32⟫ → ⟪S320000x1, .i32⟫ → ⟪S320000x64, .f32⟫ → ⟪S20000x64, .f32⟫),
    binary main_v147 main_v147 main_v177 (mulf : ⟪S20000, .f32⟫ → ⟪S20000, .f32⟫ → ⟪S20000, .f32⟫),
    unary main_v177 main_v178 (broadcastInDim S20000x1 ![0] bcast_S20000_S20000x1_0 : ⟪S20000, .f32⟫ → ⟪S20000x1, .f32⟫),
    unary main_v178 main_v179 (broadcastInDim S20000x64 ![0, 1] bcast_S20000x1_S20000x64_0_1 : ⟪S20000x1, .f32⟫ → ⟪S20000x64, .f32⟫),
    binary main_v138 main_v179 main_v180 (mulf : ⟪S20000x64, .f32⟫ → ⟪S20000x64, .f32⟫ → ⟪S20000x64, .f32⟫),
    binary main_v176 main_v180 main_v181 (addf : ⟪S20000x64, .f32⟫ → ⟪S20000x64, .f32⟫ → ⟪S20000x64, .f32⟫),
    unary main_arg11 main_v182 (broadcastInDim S1x64 ![1] bcast_S64_S1x64_1 : ⟪S64, .f32⟫ → ⟪S1x64, .f32⟫),
    unary main_v182 main_v183 (broadcastInDim S20000x64 ![0, 1] bcast_S1x64_S20000x64_0_1 : ⟪S1x64, .f32⟫ → ⟪S20000x64, .f32⟫),
    binary main_v181 main_v183 main_v184 (addf : ⟪S20000x64, .f32⟫ → ⟪S20000x64, .f32⟫ → ⟪S20000x64, .f32⟫),
    nullary main_cst_41 (constant S_ .f32 0x3C23D70A#32),
    TRef.nullary main_call6.cst (constant S_ .f32 0x00000000#32),
    TRef.unary main_call6.cst main_call6.v0 (broadcastInDim S20000x64 ![] bcast_S_S20000x64),
    TRef.binary (.of main_v184 : TRef sig ⟨S20000x64, .f32⟩) main_call6.v0 main_call6.v1 (cmpf .oge),
    TRef.unary (.of main_cst_41 : TRef sig ⟨S_, .f32⟩) main_call6.v2 id,
    TRef.unary main_call6.v2 main_call6.v3 (broadcastInDim S20000x64 ![] bcast_S_S20000x64),
    TRef.binary main_call6.v3 (.of main_v184 : TRef sig ⟨S20000x64, .f32⟩) main_call6.v4 mulf,
    TRef.ternary main_call6.v1 (.of main_v184 : TRef sig ⟨S20000x64, .f32⟩) main_call6.v4 main_call6.call0.v0 select ]

/-- The final linear layer: the product with the 64×3 matrix plus the bias row (%186 … %189). -/
abbrev ops7 : List (HloOp τ sig (Elt F)) :=
  [ binary main_v185 main_arg12 main_v186 ((fun l r => Host.dotGeneral dot_S20000x64_S64x3_S20000x3_1_0_0_1_n_n none l r) : ⟪S20000x64, .f32⟫ → ⟪S64x3, .f32⟫ → ⟪S20000x3, .f32⟫),
    unary main_arg13 main_v187 (broadcastInDim S1x3 ![1] bcast_S3_S1x3_1 : ⟪S3, .f32⟫ → ⟪S1x3, .f32⟫),
    unary main_v187 main_v188 (broadcastInDim S20000x3 ![0, 1] bcast_S1x3_S20000x3_0_1 : ⟪S1x3, .f32⟫ → ⟪S20000x3, .f32⟫),
    binary main_v186 main_v188 main_v189 (addf : ⟪S20000x3, .f32⟫ → ⟪S20000x3, .f32⟫ → ⟪S20000x3, .f32⟫) ]

/-- @main's 258 operations in order, the seven calls' bodies inline over the calls' own buffers. -/
abbrev ops : List (HloOp τ sig (Elt F)) :=
  ops0 ++ (ops1 ++ (ops2 ++ (ops3 ++ (ops4 ++ (ops5 ++ (ops6 ++ ops7))))))

/-! ## @main is that line

Each window of @main is two consecutive pieces of the list: the callees' definitions unfolded at their calls,
sequencing re-associated, both sides are the same chain of steps. -/

set_option maxRecDepth 8192 in
set_option maxHeartbeats 4000000 in
theorem main_part0_eq (c : Dev nD) : main_part0 (F := F) c = seq (ops0 ++ ops1) := by
  simp only [main_part0, fn_round.body, seq_append, seq, bind_assoc, pure_bind]
  all_goals rfl

set_option maxRecDepth 8192 in
set_option maxHeartbeats 4000000 in
theorem main_part1_eq (c : Dev nD) : main_part1 (F := F) c = seq (ops2 ++ ops3) := by
  simp only [main_part1, fn_where.body, fn_leaky_relu.body, fn_where_0.body, seq_append, seq, bind_assoc, pure_bind]
  all_goals rfl

set_option maxRecDepth 8192 in
set_option maxHeartbeats 4000000 in
theorem main_part2_eq (c : Dev nD) : main_part2 (F := F) c = seq (ops4 ++ ops5) := by
  simp only [main_part2, fn_where.body, fn_leaky_relu_1.body, fn_where_2.body, seq_append, seq, bind_assoc, pure_bind]
  all_goals rfl

set_option maxRecDepth 8192 in
set_option maxHeartbeats 4000000 in
theorem main_part3_eq (c : Dev nD) : main_part3 (F := F) c = seq (ops6 ++ ops7) := by
  simp only [main_part3, fn_where.body, fn_leaky_relu_3.body, fn_where_4.body, seq_append, seq, bind_assoc, pure_bind]
  all_goals rfl

/-- @main is the four windows in order, hence the eight pieces in order. -/
theorem main_eq (c : Dev nD) : main (F := F) c = seq ops := by
  simp only [main, main_part0_eq, main_part1_eq, main_part2_eq, main_part3_eq, ops, seq_append, bind_assoc]
  all_goals rfl

theorem scopedRefs_eq : (Finset.univ.filter fun b : Ref sig .tc => b.isScoped) = ∅ := by decide
theorem scopedSems_eq : (Finset.univ.filter fun sm : SemLoc sig => sm.isScoped .tc) = ∅ := by decide

/-! ## Every operation's buffers are TensorCore buffers -/

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., reshape_bufs_sub .., unary_bufs_sub .., nullary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    reshape_bufs_sub .., nary_bufs_sub ..⟩
theorem ops1_sub : (ops1 : List (HloOp τ sig (Elt F))).Forall fun op => op.bufs ⊆ tcRefs τ sig :=
  ⟨binary_bufs_sub .., nullary_bufs_sub .., unary_bufs_sub .., unary_bufs_sub .., ternary_bufs_sub .., nullary_bufs_sub ..,
    unary_bufs_sub .., binary_bufs_sub .., nullary_bufs_sub .., unary_bufs_sub ..⟩
set_option maxRecDepth 8192 in
theorem ops2_sub : (ops2 : List (HloOp τ sig (Elt F))).Forall fun op => op.bufs ⊆ tcRefs τ sig :=
  ⟨binary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..,
    unary_bufs_sub .., unary_bufs_sub .., binary_bufs_sub ..,
    nullary_bufs_sub .., unary_bufs_sub .., unary_bufs_sub .., ternary_bufs_sub ..,
    binary_bufs_sub .., unary_bufs_sub .., unary_bufs_sub .., binary_bufs_sub .., binary_bufs_sub ..,
    unary_bufs_sub .., unary_bufs_sub .., binary_bufs_sub ..,
    nullary_bufs_sub ..,
    nullary_bufs_sub .., unary_bufs_sub .., binary_bufs_sub .., unary_bufs_sub .., unary_bufs_sub .., binary_bufs_sub ..,
    ternary_bufs_sub ..⟩
theorem ops3_sub : (ops3 : List (HloOp τ sig (Elt F))).Forall fun op => op.bufs ⊆ tcRefs τ sig :=
  ⟨binary_bufs_sub .., nullary_bufs_sub .., unary_bufs_sub .., unary_bufs_sub .., ternary_bufs_sub .., nullary_bufs_sub ..,
    unary_bufs_sub .., binary_bufs_sub .., nullary_bufs_sub .., unary_bufs_sub ..⟩
set_option maxRecDepth 8192 in
theorem ops4_sub : (ops4 : List (HloOp τ sig (Elt F))).Forall fun op => op.bufs ⊆ tcRefs τ sig :=
  ⟨binary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..,
    unary_bufs_sub .., unary_bufs_sub .., binary_bufs_sub ..,
    nullary_bufs_sub .., unary_bufs_sub .., unary_bufs_sub .., ternary_bufs_sub ..,
    binary_bufs_sub .., unary_bufs_sub .., unary_bufs_sub .., binary_bufs_sub .., binary_bufs_sub ..,
    unary_bufs_sub .., unary_bufs_sub .., binary_bufs_sub ..,
    nullary_bufs_sub ..,
    nullary_bufs_sub .., unary_bufs_sub .., binary_bufs_sub .., unary_bufs_sub .., unary_bufs_sub .., binary_bufs_sub ..,
    ternary_bufs_sub ..⟩
theorem ops5_sub : (ops5 : List (HloOp τ sig (Elt F))).Forall fun op => op.bufs ⊆ tcRefs τ sig :=
  ⟨binary_bufs_sub .., nullary_bufs_sub .., unary_bufs_sub .., unary_bufs_sub .., ternary_bufs_sub .., nullary_bufs_sub ..,
    unary_bufs_sub .., binary_bufs_sub .., nullary_bufs_sub .., unary_bufs_sub ..⟩
set_option maxRecDepth 8192 in
theorem ops6_sub : (ops6 : List (HloOp τ sig (Elt F))).Forall fun op => op.bufs ⊆ tcRefs τ sig :=
  ⟨binary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..,
    unary_bufs_sub .., unary_bufs_sub .., binary_bufs_sub ..,
    nullary_bufs_sub .., unary_bufs_sub .., unary_bufs_sub .., ternary_bufs_sub ..,
    binary_bufs_sub .., unary_bufs_sub .., unary_bufs_sub .., binary_bufs_sub .., binary_bufs_sub ..,
    unary_bufs_sub .., unary_bufs_sub .., binary_bufs_sub ..,
    nullary_bufs_sub ..,
    nullary_bufs_sub .., unary_bufs_sub .., binary_bufs_sub .., unary_bufs_sub .., unary_bufs_sub .., binary_bufs_sub ..,
    ternary_bufs_sub ..⟩
theorem ops7_sub : (ops7 : List (HloOp τ sig (Elt F))).Forall fun op => op.bufs ⊆ tcRefs τ sig :=
  ⟨binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h,
      List.forall_iff_forall_mem.mp ops6_sub op h, List.forall_iff_forall_mem.mp ops7_sub op h]

/-! ## What each piece writes, and what it therefore keeps -/

/-- The buffers the embedding writes. -/
abbrev ops0_W : List (Ref sig .tc) :=
  [main_v0, main_v1, main_v2, main_v3, main_v4, main_v5, main_cst, main_v6, main_v7, main_v8, main_c, main_v9, main_v10, main_c_0,
   main_v11, main_v12, main_v13, main_v14, main_v15, main_v16, main_v17, main_v18, main_v19, main_cst_1, main_v20, main_v21, main_v22,
   main_v23, main_c_2, main_v24, main_v25, main_c_3, main_v26, main_v27, main_v28, main_v29, main_v30, main_v31, main_v32, main_c_4,
   main_v33, main_v34, main_c_5, main_v35, main_v36, main_v37, main_v38, main_v39, main_v40, main_v41]
/-- The buffers layer 1's head writes. -/
abbrev ops1_W : List (Ref sig .tc) :=
  [main_v42, main_cst_6, main_v43, main_v44, main_v45, main_cst_7, main_v46, main_v47, main_cst_8, main_v48]
/-- The buffers layer 1's rest writes. -/
abbrev ops2_W : List (Ref sig .tc) :=
  [main_v49, main_v50, main_cst_9, main_call1_v0, main_call1_v1, main_v51, main_c_10, main_v52, main_v53, main_c_11, main_v54, main_v55,
   main_v56, main_v57, main_v58, main_v59, main_c_12, main_v60, main_v61, main_c_13, main_v62, main_v63, main_v64, main_v65, main_v66,
   main_v67, main_c_14, main_v68, main_v69, main_c_15, main_v70, main_v71, main_v72, main_v73, main_v74, main_v75, main_v76, main_v77,
   main_cst_16, main_v78, main_v79, main_v80, main_v81, main_v82, main_v83, main_v84, main_v85, main_v86, main_v87, main_v88,
   main_cst_17, main_call2_cst, main_call2_v0, main_call2_v1, main_call2_v2, main_call2_v3, main_call2_v4, main_v89]
/-- The buffers layer 2's head writes. -/
abbrev ops3_W : List (Ref sig .tc) :=
  [main_v90, main_cst_18, main_v91, main_v92, main_v93, main_cst_19, main_v94, main_v95, main_cst_20, main_v96]
/-- The buffers layer 2's rest writes. -/
abbrev ops4_W : List (Ref sig .tc) :=
  [main_v97, main_v98, main_cst_21, main_call3_v0, main_call3_v1, main_v99, main_c_22, main_v100, main_v101, main_c_23, main_v102,
   main_v103, main_v104, main_v105, main_v106, main_v107, main_c_24, main_v108, main_v109, main_c_25, main_v110, main_v111, main_v112,
   main_v113, main_v114, main_v115, main_c_26, main_v116, main_v117, main_c_27, main_v118, main_v119, main_v120, main_v121, main_v122,
   main_v123, main_v124, main_v125, main_cst_28, main_v126, main_v127, main_v128, main_v129, main_v130, main_v131, main_v132, main_v133,
   main_v134, main_v135, main_v136, main_cst_29, main_call4_cst, main_call4_v0, main_call4_v1, main_call4_v2, main_call4_v3,
   main_call4_v4, main_v137]
/-- The buffers layer 3's head writes. -/
abbrev ops5_W : List (Ref sig .tc) :=
  [main_v138, main_cst_30, main_v139, main_v140, main_v141, main_cst_31, main_v142, main_v143, main_cst_32, main_v144]
/-- The buffers layer 3's rest writes. -/
abbrev ops6_W : List (Ref sig .tc) :=
  [main_v145, main_v146, main_cst_33, main_call5_v0, main_call5_v1, main_v147, main_c_34, main_v148, main_v149, main_c_35, main_v150,
   main_v151, main_v152, main_v153, main_v154, main_v155, main_c_36, main_v156, main_v157, main_c_37, main_v158, main_v159, main_v160,
   main_v161, main_v162, main_v163, main_c_38, main_v164, main_v165, main_c_39, main_v166, main_v167, main_v168, main_v169, main_v170,
   main_v171, main_v172, main_v173, main_cst_40, main_v174, main_v175, main_v176, main_v177, main_v178, main_v179, main_v180, main_v181,
   main_v182, main_v183, main_v184, main_cst_41, main_call6_cst, main_call6_v0, main_call6_v1, main_call6_v2, main_call6_v3,
   main_call6_v4, main_v185]
/-- The buffers the final layer writes. -/
abbrev ops7_W : List (Ref sig .tc) := [main_v186, main_v187, main_v188, main_v189]

/-- One operation writes its result buffer only, and that buffer is in the list. -/
local macro "writes_one" : tactic =>
  `(tactic| (simp only [nullary_writes, unary_writes, binary_writes, ternary_writes, reshape_writes, nary_writes,
      Finset.singleton_subset_iff, List.mem_toFinset]; exact List.mem_map_of_mem (by decide)))

/-- The same of every operation of a literal list, one after the other. -/
local macro "writes_all" : tactic =>
  `(tactic| (simp only [List.Forall]; (repeat (refine ⟨by writes_one, ?_⟩)); writes_one))

set_option maxRecDepth 8192 in
theorem ops0_writes : (ops0 : List (HloOp τ sig (Elt F))).Forall fun op =>
    op.writes ⊆ (ops0_W.map (Proc.devRef (τ := τ) .tc)).toFinset := by writes_all
theorem ops1_writes : (ops1 : List (HloOp τ sig (Elt F))).Forall fun op =>
    op.writes ⊆ (ops1_W.map (Proc.devRef (τ := τ) .tc)).toFinset := by writes_all
set_option maxRecDepth 8192 in
theorem ops2_writes : (ops2 : List (HloOp τ sig (Elt F))).Forall fun op =>
    op.writes ⊆ (ops2_W.map (Proc.devRef (τ := τ) .tc)).toFinset := by writes_all
theorem ops3_writes : (ops3 : List (HloOp τ sig (Elt F))).Forall fun op =>
    op.writes ⊆ (ops3_W.map (Proc.devRef (τ := τ) .tc)).toFinset := by writes_all
set_option maxRecDepth 8192 in
theorem ops4_writes : (ops4 : List (HloOp τ sig (Elt F))).Forall fun op =>
    op.writes ⊆ (ops4_W.map (Proc.devRef (τ := τ) .tc)).toFinset := by writes_all
theorem ops5_writes : (ops5 : List (HloOp τ sig (Elt F))).Forall fun op =>
    op.writes ⊆ (ops5_W.map (Proc.devRef (τ := τ) .tc)).toFinset := by writes_all
set_option maxRecDepth 8192 in
theorem ops6_writes : (ops6 : List (HloOp τ sig (Elt F))).Forall fun op =>
    op.writes ⊆ (ops6_W.map (Proc.devRef (τ := τ) .tc)).toFinset := by writes_all
theorem ops7_writes : (ops7 : List (HloOp τ sig (Elt F))).Forall fun op =>
    op.writes ⊆ (ops7_W.map (Proc.devRef (τ := τ) .tc)).toFinset := by writes_all

/-- A buffer a piece does not write keeps its contents through the piece, from any contents. -/
theorem keep0 (V : Valuation τ sig (Elt F)) (r : Ref sig .tc) (h : r ∉ ops0_W) :
    after ops0 V (Proc.devRef .tc r) = V (Proc.devRef .tc r) := after_of_writes_sub ops0 V ops0_writes h
theorem keep1 (V : Valuation τ sig (Elt F)) (r : Ref sig .tc) (h : r ∉ ops1_W) :
    after ops1 V (Proc.devRef .tc r) = V (Proc.devRef .tc r) := after_of_writes_sub ops1 V ops1_writes h
theorem keep2 (V : Valuation τ sig (Elt F)) (r : Ref sig .tc) (h : r ∉ ops2_W) :
    after ops2 V (Proc.devRef .tc r) = V (Proc.devRef .tc r) := after_of_writes_sub ops2 V ops2_writes h
theorem keep3 (V : Valuation τ sig (Elt F)) (r : Ref sig .tc) (h : r ∉ ops3_W) :
    after ops3 V (Proc.devRef .tc r) = V (Proc.devRef .tc r) := after_of_writes_sub ops3 V ops3_writes h
theorem keep4 (V : Valuation τ sig (Elt F)) (r : Ref sig .tc) (h : r ∉ ops4_W) :
    after ops4 V (Proc.devRef .tc r) = V (Proc.devRef .tc r) := after_of_writes_sub ops4 V ops4_writes h
theorem keep5 (V : Valuation τ sig (Elt F)) (r : Ref sig .tc) (h : r ∉ ops5_W) :
    after ops5 V (Proc.devRef .tc r) = V (Proc.devRef .tc r) := after_of_writes_sub ops5 V ops5_writes h
theorem keep6 (V : Valuation τ sig (Elt F)) (r : Ref sig .tc) (h : r ∉ ops6_W) :
    after ops6 V (Proc.devRef .tc r) = V (Proc.devRef .tc r) := after_of_writes_sub ops6 V ops6_writes h
theorem keep7 (V : Valuation τ sig (Elt F)) (r : Ref sig .tc) (h : r ∉ ops7_W) :
    after ops7 V (Proc.devRef .tc r) = V (Proc.devRef .tc r) := after_of_writes_sub ops7 V ops7_writes h

/-- The fold of the whole line is the pieces' folds one after the other. -/
theorem after_ops (V : Valuation τ sig (Elt F)) :
    after ops V = after ops7 (after ops6 (after ops5 (after ops4 (after ops3 (after ops2 (after ops1 (after ops0 V))))))) := by
  simp only [ops, after_append]

/-- A buffer no piece writes keeps its contents through the whole line. -/
theorem keep_all (V : Valuation τ sig (Elt F)) (r : Ref sig .tc) (h0 : r ∉ ops0_W) (h1 : r ∉ ops1_W) (h2 : r ∉ ops2_W)
    (h3 : r ∉ ops3_W) (h4 : r ∉ ops4_W) (h5 : r ∉ ops5_W) (h6 : r ∉ ops6_W) (h7 : r ∉ ops7_W) :
    after ops V (Proc.devRef .tc r) = V (Proc.devRef .tc r) := by
  rw [after_ops, keep7 _ r h7, keep6 _ r h6, keep5 _ r h5, keep4 _ r h4, keep3 _ r h3, keep2 _ r h2, keep1 _ r h1, keep0 _ r h0]

/-! ## The run -/

set_option maxRecDepth 8192 in
set_option maxHeartbeats 4000000 in
/-- On every device, for any float values, from any memory with zero counters: every weakly fair execution of
    @main terminates, and every final state has each TensorCore buffer at the operations' fold over the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

/-! ## The arguments are kept: no operation writes one -/

theorem arg_kept_0 (m : (ℓ : Loc nD τ sig) → Buf (Elt F) ℓ) (c : Dev nD) :
    after ops (launchContents m c) (Proc.devRef .tc main_arg0) = m ((c.tc : Thread nD τ).loc main_arg0) :=
  keep_all _ main_arg0 (by decide) (by decide) (by decide) (by decide) (by decide) (by decide) (by decide) (by decide)
theorem arg_kept_1 (m : (ℓ : Loc nD τ sig) → Buf (Elt F) ℓ) (c : Dev nD) :
    after ops (launchContents m c) (Proc.devRef .tc main_arg1) = m ((c.tc : Thread nD τ).loc main_arg1) :=
  keep_all _ main_arg1 (by decide) (by decide) (by decide) (by decide) (by decide) (by decide) (by decide) (by decide)
theorem arg_kept_2 (m : (ℓ : Loc nD τ sig) → Buf (Elt F) ℓ) (c : Dev nD) :
    after ops (launchContents m c) (Proc.devRef .tc main_arg2) = m ((c.tc : Thread nD τ).loc main_arg2) :=
  keep_all _ main_arg2 (by decide) (by decide) (by decide) (by decide) (by decide) (by decide) (by decide) (by decide)
theorem arg_kept_3 (m : (ℓ : Loc nD τ sig) → Buf (Elt F) ℓ) (c : Dev nD) :
    after ops (launchContents m c) (Proc.devRef .tc main_arg3) = m ((c.tc : Thread nD τ).loc main_arg3) :=
  keep_all _ main_arg3 (by decide) (by decide) (by decide) (by decide) (by decide) (by decide) (by decide) (by decide)
theorem arg_kept_4 (m : (ℓ : Loc nD τ sig) → Buf (Elt F) ℓ) (c : Dev nD) :
    after ops (launchContents m c) (Proc.devRef .tc main_arg4) = m ((c.tc : Thread nD τ).loc main_arg4) :=
  keep_all _ main_arg4 (by decide) (by decide) (by decide) (by decide) (by decide) (by decide) (by decide) (by decide)
theorem arg_kept_5 (m : (ℓ : Loc nD τ sig) → Buf (Elt F) ℓ) (c : Dev nD) :
    after ops (launchContents m c) (Proc.devRef .tc main_arg5) = m ((c.tc : Thread nD τ).loc main_arg5) :=
  keep_all _ main_arg5 (by decide) (by decide) (by decide) (by decide) (by decide) (by decide) (by decide) (by decide)
theorem arg_kept_6 (m : (ℓ : Loc nD τ sig) → Buf (Elt F) ℓ) (c : Dev nD) :
    after ops (launchContents m c) (Proc.devRef .tc main_arg6) = m ((c.tc : Thread nD τ).loc main_arg6) :=
  keep_all _ main_arg6 (by decide) (by decide) (by decide) (by decide) (by decide) (by decide) (by decide) (by decide)
theorem arg_kept_7 (m : (ℓ : Loc nD τ sig) → Buf (Elt F) ℓ) (c : Dev nD) :
    after ops (launchContents m c) (Proc.devRef .tc main_arg7) = m ((c.tc : Thread nD τ).loc main_arg7) :=
  keep_all _ main_arg7 (by decide) (by decide) (by decide) (by decide) (by decide) (by decide) (by decide) (by decide)
theorem arg_kept_8 (m : (ℓ : Loc nD τ sig) → Buf (Elt F) ℓ) (c : Dev nD) :
    after ops (launchContents m c) (Proc.devRef .tc main_arg8) = m ((c.tc : Thread nD τ).loc main_arg8) :=
  keep_all _ main_arg8 (by decide) (by decide) (by decide) (by decide) (by decide) (by decide) (by decide) (by decide)
theorem arg_kept_9 (m : (ℓ : Loc nD τ sig) → Buf (Elt F) ℓ) (c : Dev nD) :
    after ops (launchContents m c) (Proc.devRef .tc main_arg9) = m ((c.tc : Thread nD τ).loc main_arg9) :=
  keep_all _ main_arg9 (by decide) (by decide) (by decide) (by decide) (by decide) (by decide) (by decide) (by decide)
theorem arg_kept_10 (m : (ℓ : Loc nD τ sig) → Buf (Elt F) ℓ) (c : Dev nD) :
    after ops (launchContents m c) (Proc.devRef .tc main_arg10) = m ((c.tc : Thread nD τ).loc main_arg10) :=
  keep_all _ main_arg10 (by decide) (by decide) (by decide) (by decide) (by decide) (by decide) (by decide) (by decide)
theorem arg_kept_11 (m : (ℓ : Loc nD τ sig) → Buf (Elt F) ℓ) (c : Dev nD) :
    after ops (launchContents m c) (Proc.devRef .tc main_arg11) = m ((c.tc : Thread nD τ).loc main_arg11) :=
  keep_all _ main_arg11 (by decide) (by decide) (by decide) (by decide) (by decide) (by decide) (by decide) (by decide)
theorem arg_kept_12 (m : (ℓ : Loc nD τ sig) → Buf (Elt F) ℓ) (c : Dev nD) :
    after ops (launchContents m c) (Proc.devRef .tc main_arg12) = m ((c.tc : Thread nD τ).loc main_arg12) :=
  keep_all _ main_arg12 (by decide) (by decide) (by decide) (by decide) (by decide) (by decide) (by decide) (by decide)
theorem arg_kept_13 (m : (ℓ : Loc nD τ sig) → Buf (Elt F) ℓ) (c : Dev nD) :
    after ops (launchContents m c) (Proc.devRef .tc main_arg13) = m ((c.tc : Thread nD τ).loc main_arg13) :=
  keep_all _ main_arg13 (by decide) (by decide) (by decide) (by decide) (by decide) (by decide) (by decide) (by decide)

end Cert.ReferenceIdeal.RefRun

end
-- ==== Proof.RefVal.lean ====
/- The reference program's result as the composed stages: the fold of the reference's operations over any
   contents, read at the result buffer, is the stages' term of the contents at the fourteen argument buffers.
   The fold is read piece by piece: the embedding's three outputs (the two edge rows and the embedded
   features), each layer's output from the layer's inputs (head and rest of the layer together), the final
   layer's output; between the pieces a buffer keeps its contents through every piece that does not write it. -/
import proofs.«102165_j72748156060190_1_alg».proof.Proof.RefRun
import proofs.«102165_j72748156060190_1_alg».proof.Proof.RefStages

noncomputable section

namespace Cert.ReferenceIdeal.RefVal

open Cert.ReferenceIdeal Cert.ReferenceIdeal.Gen Cert.ReferenceIdeal.RefRun Cert.ReferenceIdeal.Stages
open Idealize.ShloMosaic Idealize.ShloMosaic.TcCoe Idealize.SL.Sem Idealize.ShloMosaic.StableHlo

variable {F : FTy → Type} [FloatOps F]

/-! ## The embedding's outputs -/

set_option maxRecDepth 8192 in
set_option maxHeartbeats 4000000 in
/-- The source row after the embedding piece. -/
theorem val_src (V : Valuation τ sig (Elt F)) :
    after ops0 V (Proc.devRef .tc main_v1) = srcTerm (V (Proc.devRef .tc main_arg1)) := by
  simp only [ops0]
  after_results_simp
  all_goals rfl

set_option maxRecDepth 8192 in
set_option maxHeartbeats 4000000 in
/-- The destination row after the embedding piece. -/
theorem val_dst (V : Valuation τ sig (Elt F)) :
    after ops0 V (Proc.devRef .tc main_v3) = dstTerm (V (Proc.devRef .tc main_arg1)) := by
  simp only [ops0]
  after_results_simp
  all_goals rfl

set_option maxRecDepth 8192 in
set_option maxHeartbeats 4000000 in
/-- The embedded features after the embedding piece. -/
theorem val_h0 (V : Valuation τ sig (Elt F)) :
    after ops0 V (Proc.devRef .tc main_v41)
      = embedTerm (V (Proc.devRef .tc main_arg0)) (V (Proc.devRef .tc main_arg3)) (V (Proc.devRef .tc main_arg4))
          (V (Proc.devRef .tc main_arg5)) := by
  simp only [ops0]
  after_results_simp
  all_goals rfl

/-! ## The layers -/

set_option maxRecDepth 8192 in
set_option maxHeartbeats 8000000 in
/-- Layer 1's output from its inputs, from any contents. -/
theorem layer1_eq (W : Valuation τ sig (Elt F)) :
    after ops2 (after ops1 W) (Proc.devRef .tc main_v89)
      = layerTerm1 (W (Proc.devRef .tc main_v41)) (W (Proc.devRef .tc main_arg6)) (W (Proc.devRef .tc main_arg7))
          (W (Proc.devRef .tc main_v1)) (W (Proc.devRef .tc main_v3)) (W (Proc.devRef .tc main_arg2)) := by
  simp only [ops1, ops2]
  after_results_simp
  all_goals rfl

set_option maxRecDepth 8192 in
set_option maxHeartbeats 8000000 in
/-- Layer 2's output from its inputs, from any contents. -/
theorem layer2_eq (W : Valuation τ sig (Elt F)) :
    after ops4 (after ops3 W) (Proc.devRef .tc main_v137)
      = layerTerm2 (W (Proc.devRef .tc main_v89)) (W (Proc.devRef .tc main_arg8)) (W (Proc.devRef .tc main_arg9))
          (W (Proc.devRef .tc main_v1)) (W (Proc.devRef .tc main_v3)) (W (Proc.devRef .tc main_arg2)) := by
  simp only [ops3, ops4]
  after_results_simp
  all_goals rfl

set_option maxRecDepth 8192 in
set_option maxHeartbeats 8000000 in
/-- Layer 3's output from its inputs, from any contents. -/
theorem layer3_eq (W : Valuation τ sig (Elt F)) :
    after ops6 (after ops5 W) (Proc.devRef .tc main_v185)
      = layerTerm3 (W (Proc.devRef .tc main_v137)) (W (Proc.devRef .tc main_arg10)) (W (Proc.devRef .tc main_arg11))
          (W (Proc.devRef .tc main_v1)) (W (Proc.devRef .tc main_v3)) (W (Proc.devRef .tc main_arg2)) := by
  simp only [ops5, ops6]
  after_results_simp
  all_goals rfl

/-- The final layer's output from its inputs, from any contents. -/
theorem tail_eq (W : Valuation τ sig (Elt F)) :
    after ops7 W (Proc.devRef .tc main_v189)
      = outTerm (W (Proc.devRef .tc main_v185)) (W (Proc.devRef .tc main_arg12)) (W (Proc.devRef .tc main_arg13)) := by
  simp only [ops7]
  after_results_simp
  all_goals rfl

/-! ## What is kept through a whole layer -/

theorem through12 (V : Valuation τ sig (Elt F)) (r : Ref sig .tc) (h1 : r ∉ ops1_W) (h2 : r ∉ ops2_W) :
    after ops2 (after ops1 V) (Proc.devRef .tc r) = V (Proc.devRef .tc r) := by
  rw [keep2 _ r h2, keep1 _ r h1]
theorem through34 (V : Valuation τ sig (Elt F)) (r : Ref sig .tc) (h3 : r ∉ ops3_W) (h4 : r ∉ ops4_W) :
    after ops4 (after ops3 V) (Proc.devRef .tc r) = V (Proc.devRef .tc r) := by
  rw [keep4 _ r h4, keep3 _ r h3]
theorem through56 (V : Valuation τ sig (Elt F)) (r : Ref sig .tc) (h5 : r ∉ ops5_W) (h6 : r ∉ ops6_W) :
    after ops6 (after ops5 V) (Proc.devRef .tc r) = V (Proc.devRef .tc r) := by
  rw [keep6 _ r h6, keep5 _ r h5]

/-! ## The result -/

/-- The fold of the whole line at the result buffer is the stages' term of the contents at the arguments. -/
theorem result_eq (V : Valuation τ sig (Elt F)) :
    after ops V (Proc.devRef .tc main_v189)
      = refTerm (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) := by
  rw [after_ops, tail_eq, layer3_eq, layer2_eq, layer1_eq]
  -- the final layer's weight and bias: kept through the three layers and the embedding
  rw [through56 _ main_arg12 (by decide) (by decide), through34 _ main_arg12 (by decide) (by decide),
    through12 _ main_arg12 (by decide) (by decide), keep0 _ main_arg12 (by decide)]
  rw [through56 _ main_arg13 (by decide) (by decide), through34 _ main_arg13 (by decide) (by decide),
    through12 _ main_arg13 (by decide) (by decide), keep0 _ main_arg13 (by decide)]
  -- layer 3's weight and bias: kept through layers 2 and 1 and the embedding
  rw [through34 _ main_arg10 (by decide) (by decide), through12 _ main_arg10 (by decide) (by decide), keep0 _ main_arg10 (by decide)]
  rw [through34 _ main_arg11 (by decide) (by decide), through12 _ main_arg11 (by decide) (by decide), keep0 _ main_arg11 (by decide)]
  -- layer 2's weight and bias: kept through layer 1 and the embedding
  rw [through12 _ main_arg8 (by decide) (by decide), keep0 _ main_arg8 (by decide)]
  rw [through12 _ main_arg9 (by decide) (by decide), keep0 _ main_arg9 (by decide)]
  -- layer 1's weight and bias: kept through the embedding
  rw [keep0 _ main_arg6 (by decide), keep0 _ main_arg7 (by decide)]
  -- the edge rows and the edge weights: kept through the layers before each use
  rw [through34 _ main_v1 (by decide) (by decide), through12 _ main_v1 (by decide) (by decide)]
  rw [through34 _ main_v3 (by decide) (by decide), through12 _ main_v3 (by decide) (by decide)]
  rw [through34 _ main_arg2 (by decide) (by decide), through12 _ main_arg2 (by decide) (by decide), keep0 _ main_arg2 (by decide)]
  -- the embedding's three outputs
  rw [val_h0, val_src, val_dst]
  rfl

/-- The same at the launch contents of a memory `m` on device `c`: the form the run's post is read in. -/
theorem result_launch (m : (ℓ : Loc nD τ sig) → Buf (Elt F) ℓ) (c : Dev nD) :
    after ops (launchContents m c) (Proc.devRef .tc main_v189)
      = refTerm (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) :=
  result_eq (launchContents m c)

end Cert.ReferenceIdeal.RefVal

end
-- ==== Proof.lean ====
/-
  Equivalence, over the extended reals, of a three-layer graph convolution written with eight pallas regions and
  host scatter / gather glue, and its plain jnp reference.

  Both programs compute, from node features x : [20000, 1005], an edge list and edge weights:
    h0 = [layer-table row | 1000 features | size-table row | three colour-table rows]   (the embedding, 1755 wide),
    three times   h ← leaky_relu (A (h W) + b)   with A the degree-normalised weighted adjacency plus self loops,
    and out = h Wp + bp.
  The reference looks the table rows up with gathers; the kernel multiplies one-hot rows into the tables. The reference
  multiplies with dot_general and applies jax.nn.leaky_relu (test: at least zero); the kernel multiplies 1000-row tiles
  on the matrix unit and rectifies with the test "above zero". The normalisation, the gathers of source rows and the
  scatter-adds over the edges are host operations in both programs, the same ones.

  The precondition says every float input is finite and the three kinds of computed table index are inside their
  tables (0 ≤ trunc (x[:,0] − 1) < 3, 0 ≤ trunc (roundeven (|x[:,1001]| · 10)) < 11, 0 ≤ trunc (x[:,1002:1005]) < 256).
  Only the index part is used: outside it the reference wraps and clamps an index where the one-hot row is zero.
  Under it a gathered row is the one-hot product (one term 1 · t, the others 0 · t = 0 on the extended reals), a
  matrix-unit product into a zero accumulator is the same sum as dot_general's, and the two rectifiers agree (at zero
  both give zero).

  The frames of the two kernel programs are the generated ones; the reference's frame and value come from its run
  read as a list of host operations; the kernel's value is read off the generated frame's segment boundaries.
-/
import proofs.«102165_j72748156060190_1_alg».proof.Defs
import proofs.«102165_j72748156060190_1_alg».proof.Proof.Gen.Kernel.Frame
import proofs.«102165_j72748156060190_1_alg».proof.Proof.Gen.Pre_finite_inputs
import proofs.«102165_j72748156060190_1_alg».proof.Proof.KernelRun
import proofs.«102165_j72748156060190_1_alg».proof.Proof.KernelValue
import proofs.«102165_j72748156060190_1_alg».proof.Proof.PreWords
import proofs.«102165_j72748156060190_1_alg».proof.Proof.RefRun
import proofs.«102165_j72748156060190_1_alg».proof.Proof.RefVal

set_option maxRecDepth 16384

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs — it is a list of host operations — and no operation writes an argument. -/
theorem frame_ri : Cert.frame_ReferenceIdeal := fun m ρ _ =>
  (θ_run Cert.ReferenceIdeal.defs _ _).mono
    (fun r h c => ⟨(h c Cert.ReferenceIdeal.main_arg0).trans (Cert.ReferenceIdeal.RefRun.arg_kept_0 m c),
      (h c Cert.ReferenceIdeal.main_arg1).trans (Cert.ReferenceIdeal.RefRun.arg_kept_1 m c),
      (h c Cert.ReferenceIdeal.main_arg2).trans (Cert.ReferenceIdeal.RefRun.arg_kept_2 m c),
      (h c Cert.ReferenceIdeal.main_arg3).trans (Cert.ReferenceIdeal.RefRun.arg_kept_3 m c),
      (h c Cert.ReferenceIdeal.main_arg4).trans (Cert.ReferenceIdeal.RefRun.arg_kept_4 m c),
      (h c Cert.ReferenceIdeal.main_arg5).trans (Cert.ReferenceIdeal.RefRun.arg_kept_5 m c),
      (h c Cert.ReferenceIdeal.main_arg6).trans (Cert.ReferenceIdeal.RefRun.arg_kept_6 m c),
      (h c Cert.ReferenceIdeal.main_arg7).trans (Cert.ReferenceIdeal.RefRun.arg_kept_7 m c),
      (h c Cert.ReferenceIdeal.main_arg8).trans (Cert.ReferenceIdeal.RefRun.arg_kept_8 m c),
      (h c Cert.ReferenceIdeal.main_arg9).trans (Cert.ReferenceIdeal.RefRun.arg_kept_9 m c),
      (h c Cert.ReferenceIdeal.main_arg10).trans (Cert.ReferenceIdeal.RefRun.arg_kept_10 m c),
      (h c Cert.ReferenceIdeal.main_arg11).trans (Cert.ReferenceIdeal.RefRun.arg_kept_11 m c),
      (h c Cert.ReferenceIdeal.main_arg12).trans (Cert.ReferenceIdeal.RefRun.arg_kept_12 m c),
      (h c Cert.ReferenceIdeal.main_arg13).trans (Cert.ReferenceIdeal.RefRun.arg_kept_13 m c)⟩)
    (Cert.ReferenceIdeal.RefRun.run (F := Ideal) m ρ)

/-- The ideal pass rewrote nothing. -/
theorem preserves : Cert.preserves_Kernel_KernelIdeal := trivial

/-- Both idealized programs end with the reference's term of the arguments in their result arrays. -/
theorem algebraic : Cert.algebraic_KernelIdeal_ReferenceIdeal := by
  intro m ρ m' ρ' hpre hagree
  refine ⟨fun c => Cert.ReferenceIdeal.Stages.refTerm (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · refine (θ_run Cert.KernelIdeal.defs _ _).mono (fun r h c => ⟨(h c).1.trans ?_, (h c).2⟩) (Cert.KernelIdeal.Gen.run_result (F := Ideal) m ρ)
    obtain ⟨hl, hr, hc⟩ := Cert.PreDecode.words_in_range _ _ _ _ _ _ _ _ _ _ _ _ _ _ (hpre c)
    exact Cert.KernelIdeal.Value.result_eq m ρ c hl hr hc
  · refine (θ_run Cert.ReferenceIdeal.defs _ _).mono
      (fun r h c => ⟨(h c Cert.ReferenceIdeal.main_v189).trans ((Cert.ReferenceIdeal.RefVal.result_launch m' c).trans ?_),
        (h c Cert.ReferenceIdeal.main_arg0).trans (Cert.ReferenceIdeal.RefRun.arg_kept_0 m' c),
        (h c Cert.ReferenceIdeal.main_arg1).trans (Cert.ReferenceIdeal.RefRun.arg_kept_1 m' c),
        (h c Cert.ReferenceIdeal.main_arg2).trans (Cert.ReferenceIdeal.RefRun.arg_kept_2 m' c),
        (h c Cert.ReferenceIdeal.main_arg3).trans (Cert.ReferenceIdeal.RefRun.arg_kept_3 m' c),
        (h c Cert.ReferenceIdeal.main_arg4).trans (Cert.ReferenceIdeal.RefRun.arg_kept_4 m' c),
        (h c Cert.ReferenceIdeal.main_arg5).trans (Cert.ReferenceIdeal.RefRun.arg_kept_5 m' c),
        (h c Cert.ReferenceIdeal.main_arg6).trans (Cert.ReferenceIdeal.RefRun.arg_kept_6 m' c),
        (h c Cert.ReferenceIdeal.main_arg7).trans (Cert.ReferenceIdeal.RefRun.arg_kept_7 m' c),
        (h c Cert.ReferenceIdeal.main_arg8).trans (Cert.ReferenceIdeal.RefRun.arg_kept_8 m' c),
        (h c Cert.ReferenceIdeal.main_arg9).trans (Cert.ReferenceIdeal.RefRun.arg_kept_9 m' c),
        (h c Cert.ReferenceIdeal.main_arg10).trans (Cert.ReferenceIdeal.RefRun.arg_kept_10 m' c),
        (h c Cert.ReferenceIdeal.main_arg11).trans (Cert.ReferenceIdeal.RefRun.arg_kept_11 m' c),
        (h c Cert.ReferenceIdeal.main_arg12).trans (Cert.ReferenceIdeal.RefRun.arg_kept_12 m' c),
        (h c Cert.ReferenceIdeal.main_arg13).trans (Cert.ReferenceIdeal.RefRun.arg_kept_13 m' c)⟩)
      (Cert.ReferenceIdeal.RefRun.run (F := Ideal) m' ρ')
    obtain ⟨e0, e1, e2, e3, e4, e5, e6, e7, e8, e9, e10, e11, e12, e13⟩ := hagree c
    rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
